-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8 : Shape := ⟨2, ![8192, 8]⟩
abbrev S_ : Shape := ⟨0, ![]⟩
abbrev S8x128x1 : Shape := ⟨3, ![8, 128, 1]⟩
abbrev S8x128 : Shape := ⟨2, ![8, 128]⟩
abbrev S8x2x128x128 : Shape := ⟨4, ![8, 2, 128, 128]⟩
abbrev S8x2x128 : Shape := ⟨3, ![8, 2, 128]⟩
abbrev S8x1x128 : Shape := ⟨3, ![8, 1, 128]⟩
abbrev S8 : Shape := ⟨1, ![8]⟩
abbrev S28x128x2 : Shape := ⟨3, ![28, 128, 2]⟩
abbrev S28x128 : Shape := ⟨2, ![28, 128]⟩
abbrev S28x2x128x128 : Shape := ⟨4, ![28, 2, 128, 128]⟩
abbrev S28x2x128 : Shape := ⟨3, ![28, 2, 128]⟩
abbrev S28x1x128 : Shape := ⟨3, ![28, 1, 128]⟩
abbrev S28 : Shape := ⟨1, ![28]⟩
abbrev S56x128x3 : Shape := ⟨3, ![56, 128, 3]⟩
abbrev S56x128 : Shape := ⟨2, ![56, 128]⟩
abbrev S56x2x128x128 : Shape := ⟨4, ![56, 2, 128, 128]⟩
abbrev S56x2x128 : Shape := ⟨3, ![56, 2, 128]⟩
abbrev S56x1x128 : Shape := ⟨3, ![56, 1, 128]⟩
abbrev S56 : Shape := ⟨1, ![56]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  reducesTo_S_S_d : S_.ReducesTo [] S_
  bcast_S_S8x128x1 : S_.BroadcastsInDim S8x128x1 (![] : Fin 0 → Fin S8x128x1.rank)
  reducesTo_S8x128x1_S_d0_1_2 : S8x128x1.ReducesTo [0, 1, 2] S_
  bcast_S_S8x128 : S_.BroadcastsInDim S8x128 (![] : Fin 0 → Fin S8x128.rank)
  reducesTo_S8x128_S_d0_1 : S8x128.ReducesTo [0, 1] S_
  bcast_S_S8x2x128x128 : S_.BroadcastsInDim S8x2x128x128 (![] : Fin 0 → Fin S8x2x128x128.rank)
  reducesTo_S8x2x128x128_S_d0_1_2_3 : S8x2x128x128.ReducesTo [0, 1, 2, 3] S_
  bcast_S_S8x2x128 : S_.BroadcastsInDim S8x2x128 (![] : Fin 0 → Fin S8x2x128.rank)
  reducesTo_S8x2x128_S_d0_1_2 : S8x2x128.ReducesTo [0, 1, 2] S_
  bcast_S_S8x1x128 : S_.BroadcastsInDim S8x1x128 (![] : Fin 0 → Fin S8x1x128.rank)
  reducesTo_S8x1x128_S_d0_1_2 : S8x1x128.ReducesTo [0, 1, 2] S_
  bcast_S_S8 : S_.BroadcastsInDim S8 (![] : Fin 0 → Fin S8.rank)
  reducesTo_S8_S_d0 : S8.ReducesTo [0] S_
  bcast_S_S28x128x2 : S_.BroadcastsInDim S28x128x2 (![] : Fin 0 → Fin S28x128x2.rank)
  reducesTo_S28x128x2_S_d0_1_2 : S28x128x2.ReducesTo [0, 1, 2] S_
  bcast_S_S28x128 : S_.BroadcastsInDim S28x128 (![] : Fin 0 → Fin S28x128.rank)
  reducesTo_S28x128_S_d0_1 : S28x128.ReducesTo [0, 1] S_
  bcast_S_S28x2x128x128 : S_.BroadcastsInDim S28x2x128x128 (![] : Fin 0 → Fin S28x2x128x128.rank)
  reducesTo_S28x2x128x128_S_d0_1_2_3 : S28x2x128x128.ReducesTo [0, 1, 2, 3] S_
  bcast_S_S28x2x128 : S_.BroadcastsInDim S28x2x128 (![] : Fin 0 → Fin S28x2x128.rank)
  reducesTo_S28x2x128_S_d0_1_2 : S28x2x128.ReducesTo [0, 1, 2] S_
  bcast_S_S28x1x128 : S_.BroadcastsInDim S28x1x128 (![] : Fin 0 → Fin S28x1x128.rank)
  reducesTo_S28x1x128_S_d0_1_2 : S28x1x128.ReducesTo [0, 1, 2] S_
  bcast_S_S28 : S_.BroadcastsInDim S28 (![] : Fin 0 → Fin S28.rank)
  reducesTo_S28_S_d0 : S28.ReducesTo [0] S_
  bcast_S_S56x128x3 : S_.BroadcastsInDim S56x128x3 (![] : Fin 0 → Fin S56x128x3.rank)
  reducesTo_S56x128x3_S_d0_1_2 : S56x128x3.ReducesTo [0, 1, 2] S_
  bcast_S_S56x128 : S_.BroadcastsInDim S56x128 (![] : Fin 0 → Fin S56x128.rank)
  reducesTo_S56x128_S_d0_1 : S56x128.ReducesTo [0, 1] S_
  bcast_S_S56x2x128x128 : S_.BroadcastsInDim S56x2x128x128 (![] : Fin 0 → Fin S56x2x128x128.rank)
  reducesTo_S56x2x128x128_S_d0_1_2_3 : S56x2x128x128.ReducesTo [0, 1, 2, 3] S_
  bcast_S_S56x2x128 : S_.BroadcastsInDim S56x2x128 (![] : Fin 0 → Fin S56x2x128.rank)
  reducesTo_S56x2x128_S_d0_1_2 : S56x2x128.ReducesTo [0, 1, 2] S_
  bcast_S_S56x1x128 : S_.BroadcastsInDim S56x1x128 (![] : Fin 0 → Fin S56x1x128.rank)
  reducesTo_S56x1x128_S_d0_1_2 : S56x1x128.ReducesTo [0, 1, 2] S_
  bcast_S_S56 : S_.BroadcastsInDim S56 (![] : Fin 0 → Fin S56.rank)
  reducesTo_S56_S_d0 : S56.ReducesTo [0] S_

variable [Facts]

def fn_part5 {F : FTy → Type} [FloatOps F] (main_arg18 : FVec F S56x1x128 .f32) (main_arg19 : FVec F S56 .f32) (main_v82 : IVec S_ 1) (main_v83 : FVec F S56x2x128 .f32) (main_v84 : FVec F S56x2x128 .f32) : IVec S_ 1 :=
  let main_v85 : IVec S56x2x128 1 := cmpf .olt main_v83 main_v84
  let main_c_33 : IVec S_ 1 := constantI S_ 1 1#1
  let main_v86 : IVec S_ 1 := (fun x v => Host.reduce IntOp.andi x v reducesTo_S56x2x128_S_d0_1_2 h_S_) main_v85 main_c_33
  let main_v87 : IVec S_ 1 := andi main_v82 main_v86
  let main_v88 : FVec F S56x1x128 .f32 := Host.absf main_arg18
  let main_cst_34 : FVec F S_ .f32 := constant S_ .f32 0x7F800000#32
  let main_v89 : FVec F S56x1x128 .f32 := broadcastInDim S56x1x128 ![] bcast_S_S56x1x128 main_cst_34
  let main_v90 : IVec S56x1x128 1 := cmpf .olt main_v88 main_v89
  let main_c_35 : IVec S_ 1 := constantI S_ 1 1#1
  let main_v91 : IVec S_ 1 := (fun x v => Host.reduce IntOp.andi x v reducesTo_S56x1x128_S_d0_1_2 h_S_) main_v90 main_c_35
  let main_v92 : IVec S_ 1 := andi main_v87 main_v91
  let main_v93 : FVec F S56 .f32 := Host.absf main_arg19
  let main_cst_36 : FVec F S_ .f32 := constant S_ .f32 0x7F800000#32
  let main_v94 : FVec F S56 .f32 := broadcastInDim S56 ![] bcast_S_S56 main_cst_36
  let main_v95 : IVec S56 1 := cmpf .olt main_v93 main_v94
  let main_c_37 : IVec S_ 1 := constantI S_ 1 1#1
  let main_v96 : IVec S_ 1 := (fun x v => Host.reduce IntOp.andi x v reducesTo_S56_S_d0 h_S_) main_v95 main_c_37
  let main_v97 : IVec S_ 1 := andi main_v92 main_v96
  main_v97

def fn_part4 {F : FTy → Type} [FloatOps F] (main_arg14 : FVec F S56x128x3 .f32) (main_arg15 : FVec F S56x128 .f32) (main_arg16 : FVec F S56x2x128x128 .f32) (main_arg17 : FVec F S56x2x128 .f32) (main_arg18 : FVec F S56x1x128 .f32) (main_arg19 : FVec F S56 .f32) (main_v67 : IVec S_ 1) : IVec S_ 1 :=
  let main_v68 : FVec F S56x128x3 .f32 := Host.absf main_arg14
  let main_cst_26 : FVec F S_ .f32 := constant S_ .f32 0x7F800000#32
  let main_v69 : FVec F S56x128x3 .f32 := broadcastInDim S56x128x3 ![] bcast_S_S56x128x3 main_cst_26
  let main_v70 : IVec S56x128x3 1 := cmpf .olt main_v68 main_v69
  let main_c_27 : IVec S_ 1 := constantI S_ 1 1#1
  let main_v71 : IVec S_ 1 := (fun x v => Host.reduce IntOp.andi x v reducesTo_S56x128x3_S_d0_1_2 h_S_) main_v70 main_c_27
  let main_v72 : IVec S_ 1 := andi main_v67 main_v71
  let main_v73 : FVec F S56x128 .f32 := Host.absf main_arg15
  let main_cst_28 : FVec F S_ .f32 := constant S_ .f32 0x7F800000#32
  let main_v74 : FVec F S56x128 .f32 := broadcastInDim S56x128 ![] bcast_S_S56x128 main_cst_28
  let main_v75 : IVec S56x128 1 := cmpf .olt main_v73 main_v74
  let main_c_29 : IVec S_ 1 := constantI S_ 1 1#1
  let main_v76 : IVec S_ 1 := (fun x v => Host.reduce IntOp.andi x v reducesTo_S56x128_S_d0_1 h_S_) main_v75 main_c_29
  let main_v77 : IVec S_ 1 := andi main_v72 main_v76
  let main_v78 : FVec F S56x2x128x128 .f32 := Host.absf main_arg16
  let main_cst_30 : FVec F S_ .f32 := constant S_ .f32 0x7F800000#32
  let main_v79 : FVec F S56x2x128x128 .f32 := broadcastInDim S56x2x128x128 ![] bcast_S_S56x2x128x128 main_cst_30
  let main_v80 : IVec S56x2x128x128 1 := cmpf .olt main_v78 main_v79
  let main_c_31 : IVec S_ 1 := constantI S_ 1 1#1
  let main_v81 : IVec S_ 1 := (fun x v => Host.reduce IntOp.andi x v reducesTo_S56x2x128x128_S_d0_1_2_3 h_S_) main_v80 main_c_31
  let main_v82 : IVec S_ 1 := andi main_v77 main_v81
  let main_v83 : FVec F S56x2x128 .f32 := Host.absf main_arg17
  let main_cst_32 : FVec F S_ .f32 := constant S_ .f32 0x7F800000#32
  let main_v84 : FVec F S56x2x128 .f32 := broadcastInDim S56x2x128 ![] bcast_S_S56x2x128 main_cst_32
  fn_part5 (F := F) main_arg18 main_arg19 main_v82 main_v83 main_v84

def fn_part3 {F : FTy → Type} [FloatOps F] (main_arg11 : FVec F S28x2x128 .f32) (main_arg12 : FVec F S28x1x128 .f32) (main_arg13 : FVec F S28 .f32) (main_arg14 : FVec F S56x128x3 .f32) (main_arg15 : FVec F S56x128 .f32) (main_arg16 : FVec F S56x2x128x128 .f32) (main_arg17 : FVec F S56x2x128 .f32) (main_arg18 : FVec F S56x1x128 .f32) (main_arg19 : FVec F S56 .f32) (main_v47 : IVec S_ 1) (main_v50 : IVec S28x2x128x128 1) : IVec S_ 1 :=
  let main_c_19 : IVec S_ 1 := constantI S_ 1 1#1
  let main_v51 : IVec S_ 1 := (fun x v => Host.reduce IntOp.andi x v reducesTo_S28x2x128x128_S_d0_1_2_3 h_S_) main_v50 main_c_19
  let main_v52 : IVec S_ 1 := andi main_v47 main_v51
  let main_v53 : FVec F S28x2x128 .f32 := Host.absf main_arg11
  let main_cst_20 : FVec F S_ .f32 := constant S_ .f32 0x7F800000#32
  let main_v54 : FVec F S28x2x128 .f32 := broadcastInDim S28x2x128 ![] bcast_S_S28x2x128 main_cst_20
  let main_v55 : IVec S28x2x128 1 := cmpf .olt main_v53 main_v54
  let main_c_21 : IVec S_ 1 := constantI S_ 1 1#1
  let main_v56 : IVec S_ 1 := (fun x v => Host.reduce IntOp.andi x v reducesTo_S28x2x128_S_d0_1_2 h_S_) main_v55 main_c_21
  let main_v57 : IVec S_ 1 := andi main_v52 main_v56
  let main_v58 : FVec F S28x1x128 .f32 := Host.absf main_arg12
  let main_cst_22 : FVec F S_ .f32 := constant S_ .f32 0x7F800000#32
  let main_v59 : FVec F S28x1x128 .f32 := broadcastInDim S28x1x128 ![] bcast_S_S28x1x128 main_cst_22
  let main_v60 : IVec S28x1x128 1 := cmpf .olt main_v58 main_v59
  let main_c_23 : IVec S_ 1 := constantI S_ 1 1#1
  let main_v61 : IVec S_ 1 := (fun x v => Host.reduce IntOp.andi x v reducesTo_S28x1x128_S_d0_1_2 h_S_) main_v60 main_c_23
  let main_v62 : IVec S_ 1 := andi main_v57 main_v61
  let main_v63 : FVec F S28 .f32 := Host.absf main_arg13
  let main_cst_24 : FVec F S_ .f32 := constant S_ .f32 0x7F800000#32
  let main_v64 : FVec F S28 .f32 := broadcastInDim S28 ![] bcast_S_S28 main_cst_24
  let main_v65 : IVec S28 1 := cmpf .olt main_v63 main_v64
  let main_c_25 : IVec S_ 1 := constantI S_ 1 1#1
  let main_v66 : IVec S_ 1 := (fun x v => Host.reduce IntOp.andi x v reducesTo_S28_S_d0 h_S_) main_v65 main_c_25
  let main_v67 : IVec S_ 1 := andi main_v62 main_v66
  fn_part4 (F := F) main_arg14 main_arg15 main_arg16 main_arg17 main_arg18 main_arg19 main_v67

def fn_part2 {F : FTy → Type} [FloatOps F] (main_arg8 : FVec F S28x128x2 .f32) (main_arg9 : FVec F S28x128 .f32) (main_arg10 : FVec F S28x2x128x128 .f32) (main_arg11 : FVec F S28x2x128 .f32) (main_arg12 : FVec F S28x1x128 .f32) (main_arg13 : FVec F S28 .f32) (main_arg14 : FVec F S56x128x3 .f32) (main_arg15 : FVec F S56x128 .f32) (main_arg16 : FVec F S56x2x128x128 .f32) (main_arg17 : FVec F S56x2x128 .f32) (main_arg18 : FVec F S56x1x128 .f32) (main_arg19 : FVec F S56 .f32) (main_v32 : IVec S_ 1) (main_v33 : FVec F S8 .f32) : IVec S_ 1 :=
  let main_cst_12 : FVec F S_ .f32 := constant S_ .f32 0x7F800000#32
  let main_v34 : FVec F S8 .f32 := broadcastInDim S8 ![] bcast_S_S8 main_cst_12
  let main_v35 : IVec S8 1 := cmpf .olt main_v33 main_v34
  let main_c_13 : IVec S_ 1 := constantI S_ 1 1#1
  let main_v36 : IVec S_ 1 := (fun x v => Host.reduce IntOp.andi x v reducesTo_S8_S_d0 h_S_) main_v35 main_c_13
  let main_v37 : IVec S_ 1 := andi main_v32 main_v36
  let main_v38 : FVec F S28x128x2 .f32 := Host.absf main_arg8
  let main_cst_14 : FVec F S_ .f32 := constant S_ .f32 0x7F800000#32
  let main_v39 : FVec F S28x128x2 .f32 := broadcastInDim S28x128x2 ![] bcast_S_S28x128x2 main_cst_14
  let main_v40 : IVec S28x128x2 1 := cmpf .olt main_v38 main_v39
  let main_c_15 : IVec S_ 1 := constantI S_ 1 1#1
  let main_v41 : IVec S_ 1 := (fun x v => Host.reduce IntOp.andi x v reducesTo_S28x128x2_S_d0_1_2 h_S_) main_v40 main_c_15
  let main_v42 : IVec S_ 1 := andi main_v37 main_v41
  let main_v43 : FVec F S28x128 .f32 := Host.absf main_arg9
  let main_cst_16 : FVec F S_ .f32 := constant S_ .f32 0x7F800000#32
  let main_v44 : FVec F S28x128 .f32 := broadcastInDim S28x128 ![] bcast_S_S28x128 main_cst_16
  let main_v45 : IVec S28x128 1 := cmpf .olt main_v43 main_v44
  let main_c_17 : IVec S_ 1 := constantI S_ 1 1#1
  let main_v46 : IVec S_ 1 := (fun x v => Host.reduce IntOp.andi x v reducesTo_S28x128_S_d0_1 h_S_) main_v45 main_c_17
  let main_v47 : IVec S_ 1 := andi main_v42 main_v46
  let main_v48 : FVec F S28x2x128x128 .f32 := Host.absf main_arg10
  let main_cst_18 : FVec F S_ .f32 := constant S_ .f32 0x7F800000#32
  let main_v49 : FVec F S28x2x128x128 .f32 := broadcastInDim S28x2x128x128 ![] bcast_S_S28x2x128x128 main_cst_18
  let main_v50 : IVec S28x2x128x128 1 := cmpf .olt main_v48 main_v49
  fn_part3 (F := F) main_arg11 main_arg12 main_arg13 main_arg14 main_arg15 main_arg16 main_arg17 main_arg18 main_arg19 main_v47 main_v50

def fn_part1 {F : FTy → Type} [FloatOps F] (main_arg4 : FVec F S8x2x128x128 .f32) (main_arg5 : FVec F S8x2x128 .f32) (main_arg6 : FVec F S8x1x128 .f32) (main_arg7 : FVec F S8 .f32) (main_arg8 : FVec F S28x128x2 .f32) (main_arg9 : FVec F S28x128 .f32) (main_arg10 : FVec F S28x2x128x128 .f32) (main_arg11 : FVec F S28x2x128 .f32) (main_arg12 : FVec F S28x1x128 .f32) (main_arg13 : FVec F S28 .f32) (main_arg14 : FVec F S56x128x3 .f32) (main_arg15 : FVec F S56x128 .f32) (main_arg16 : FVec F S56x2x128x128 .f32) (main_arg17 : FVec F S56x2x128 .f32) (main_arg18 : FVec F S56x1x128 .f32) (main_arg19 : FVec F S56 .f32) (main_v12 : IVec S_ 1) (main_v15 : IVec S8x128 1) (main_c_5 : IVec S_ 1) : IVec S_ 1 :=
  let main_v16 : IVec S_ 1 := (fun x v => Host.reduce IntOp.andi x v reducesTo_S8x128_S_d0_1 h_S_) main_v15 main_c_5
  let main_v17 : IVec S_ 1 := andi main_v12 main_v16
  let main_v18 : FVec F S8x2x128x128 .f32 := Host.absf main_arg4
  let main_cst_6 : FVec F S_ .f32 := constant S_ .f32 0x7F800000#32
  let main_v19 : FVec F S8x2x128x128 .f32 := broadcastInDim S8x2x128x128 ![] bcast_S_S8x2x128x128 main_cst_6
  let main_v20 : IVec S8x2x128x128 1 := cmpf .olt main_v18 main_v19
  let main_c_7 : IVec S_ 1 := constantI S_ 1 1#1
  let main_v21 : IVec S_ 1 := (fun x v => Host.reduce IntOp.andi x v reducesTo_S8x2x128x128_S_d0_1_2_3 h_S_) main_v20 main_c_7
  let main_v22 : IVec S_ 1 := andi main_v17 main_v21
  let main_v23 : FVec F S8x2x128 .f32 := Host.absf main_arg5
  let main_cst_8 : FVec F S_ .f32 := constant S_ .f32 0x7F800000#32
  let main_v24 : FVec F S8x2x128 .f32 := broadcastInDim S8x2x128 ![] bcast_S_S8x2x128 main_cst_8
  let main_v25 : IVec S8x2x128 1 := cmpf .olt main_v23 main_v24
  let main_c_9 : IVec S_ 1 := constantI S_ 1 1#1
  let main_v26 : IVec S_ 1 := (fun x v => Host.reduce IntOp.andi x v reducesTo_S8x2x128_S_d0_1_2 h_S_) main_v25 main_c_9
  let main_v27 : IVec S_ 1 := andi main_v22 main_v26
  let main_v28 : FVec F S8x1x128 .f32 := Host.absf main_arg6
  let main_cst_10 : FVec F S_ .f32 := constant S_ .f32 0x7F800000#32
  let main_v29 : FVec F S8x1x128 .f32 := broadcastInDim S8x1x128 ![] bcast_S_S8x1x128 main_cst_10
  let main_v30 : IVec S8x1x128 1 := cmpf .olt main_v28 main_v29
  let main_c_11 : IVec S_ 1 := constantI S_ 1 1#1
  let main_v31 : IVec S_ 1 := (fun x v => Host.reduce IntOp.andi x v reducesTo_S8x1x128_S_d0_1_2 h_S_) main_v30 main_c_11
  let main_v32 : IVec S_ 1 := andi main_v27 main_v31
  let main_v33 : FVec F S8 .f32 := Host.absf main_arg7
  fn_part2 (F := F) main_arg8 main_arg9 main_arg10 main_arg11 main_arg12 main_arg13 main_arg14 main_arg15 main_arg16 main_arg17 main_arg18 main_arg19 main_v32 main_v33

def fn {F : FTy → Type} [FloatOps F] (main_arg0 : FVec F S8192x8 .f32) (main_arg1 : FVec F S_ .f32) (main_arg2 : FVec F S8x128x1 .f32) (main_arg3 : FVec F S8x128 .f32) (main_arg4 : FVec F S8x2x128x128 .f32) (main_arg5 : FVec F S8x2x128 .f32) (main_arg6 : FVec F S8x1x128 .f32) (main_arg7 : FVec F S8 .f32) (main_arg8 : FVec F S28x128x2 .f32) (main_arg9 : FVec F S28x128 .f32) (main_arg10 : FVec F S28x2x128x128 .f32) (main_arg11 : FVec F S28x2x128 .f32) (main_arg12 : FVec F S28x1x128 .f32) (main_arg13 : FVec F S28 .f32) (main_arg14 : FVec F S56x128x3 .f32) (main_arg15 : FVec F S56x128 .f32) (main_arg16 : FVec F S56x2x128x128 .f32) (main_arg17 : FVec F S56x2x128 .f32) (main_arg18 : FVec F S56x1x128 .f32) (main_arg19 : FVec F S56 .f32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S8x128x1 .f32 := Host.absf main_arg2
  let main_cst_2 : FVec F S_ .f32 := constant S_ .f32 0x7F800000#32
  let main_v9 : FVec F S8x128x1 .f32 := broadcastInDim S8x128x1 ![] bcast_S_S8x128x1 main_cst_2
  let main_v10 : IVec S8x128x1 1 := cmpf .olt main_v8 main_v9
  let main_c_3 : IVec S_ 1 := constantI S_ 1 1#1
  let main_v11 : IVec S_ 1 := (fun x v => Host.reduce IntOp.andi x v reducesTo_S8x128x1_S_d0_1_2 h_S_) main_v10 main_c_3
  let main_v12 : IVec S_ 1 := andi main_v7 main_v11
  let main_v13 : FVec F S8x128 .f32 := Host.absf main_arg3
  let main_cst_4 : FVec F S_ .f32 := constant S_ .f32 0x7F800000#32
  let main_v14 : FVec F S8x128 .f32 := broadcastInDim S8x128 ![] bcast_S_S8x128 main_cst_4
  let main_v15 : IVec S8x128 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_arg17 main_arg18 main_arg19 main_v12 main_v15 main_c_5
-- ==== Kernel.lean ====
abbrev S8192x8 : Shape := ⟨2, ![8192, 8]⟩
abbrev S_ : Shape := ⟨0, ![]⟩
abbrev S8x128x1 : Shape := ⟨3, ![8, 128, 1]⟩
abbrev S8x128 : Shape := ⟨2, ![8, 128]⟩
abbrev S8x2x128x128 : Shape := ⟨4, ![8, 2, 128, 128]⟩
abbrev S8x2x128 : Shape := ⟨3, ![8, 2, 128]⟩
abbrev S8x1x128 : Shape := ⟨3, ![8, 1, 128]⟩
abbrev S8 : Shape := ⟨1, ![8]⟩
abbrev S28x128x2 : Shape := ⟨3, ![28, 128, 2]⟩
abbrev S28x128 : Shape := ⟨2, ![28, 128]⟩
abbrev S28x2x128x128 : Shape := ⟨4, ![28, 2, 128, 128]⟩
abbrev S28x2x128 : Shape := ⟨3, ![28, 2, 128]⟩
abbrev S28x1x128 : Shape := ⟨3, ![28, 1, 128]⟩
abbrev S28 : Shape := ⟨1, ![28]⟩
abbrev S56x128x3 : Shape := ⟨3, ![56, 128, 3]⟩
abbrev S56x128 : Shape := ⟨2, ![56, 128]⟩
abbrev S56x2x128x128 : Shape := ⟨4, ![56, 2, 128, 128]⟩
abbrev S56x2x128 : Shape := ⟨3, ![56, 2, 128]⟩
abbrev S56x1x128 : Shape := ⟨3, ![56, 1, 128]⟩
abbrev S56 : Shape := ⟨1, ![56]⟩
abbrev S28x2 : Shape := ⟨2, ![28, 2]⟩
abbrev S56x3 : Shape := ⟨2, ![56, 3]⟩
abbrev S8192 : Shape := ⟨1, ![8192]⟩
abbrev S8x8192 : Shape := ⟨2, ![8, 8192]⟩
abbrev S8x8192x1 : Shape := ⟨3, ![8, 8192, 1]⟩
abbrev S8x1024x1 : Shape := ⟨3, ![8, 1024, 1]⟩
abbrev S8x1024 : Shape := ⟨2, ![8, 1024]⟩
abbrev S8x1024x128 : Shape := ⟨3, ![8, 1024, 128]⟩
abbrev S8x1x128x128 : Shape := ⟨4, ![8, 1, 128, 128]⟩
abbrev S8x128x128 : Shape := ⟨3, ![8, 128, 128]⟩
abbrev S8x1 : Shape := ⟨2, ![8, 1]⟩
abbrev S1x8192 : Shape := ⟨2, ![1, 8192]⟩
abbrev S28x2x1 : Shape := ⟨3, ![28, 2, 1]⟩
abbrev S8192x28x2 : Shape := ⟨3, ![8192, 28, 2]⟩
abbrev S28x8192x2 : Shape := ⟨3, ![28, 8192, 2]⟩
abbrev S28x8192 : Shape := ⟨2, ![28, 8192]⟩
abbrev S28x512x2 : Shape := ⟨3, ![28, 512, 2]⟩
abbrev S28x512 : Shape := ⟨2, ![28, 512]⟩
abbrev S28x512x128 : Shape := ⟨3, ![28, 512, 128]⟩
abbrev S28x1x128x128 : Shape := ⟨4, ![28, 1, 128, 128]⟩
abbrev S28x128x128 : Shape := ⟨3, ![28, 128, 128]⟩
abbrev S28x512x1 : Shape := ⟨3, ![28, 512, 1]⟩
abbrev S28x1 : Shape := ⟨2, ![28, 1]⟩
abbrev S56x3x1 : Shape := ⟨3, ![56, 3, 1]⟩
abbrev S8192x56x3 : Shape := ⟨3, ![8192, 56, 3]⟩
abbrev S56x8192x3 : Shape := ⟨3, ![56, 8192, 3]⟩
abbrev S56x8192 : Shape := ⟨2, ![56, 8192]⟩
abbrev S56x256x3 : Shape := ⟨3, ![56, 256, 3]⟩
abbrev S56x256 : Shape := ⟨2, ![56, 256]⟩
abbrev S56x256x128 : Shape := ⟨3, ![56, 256, 128]⟩
abbrev S56x1x128x128 : Shape := ⟨4, ![56, 1, 128, 128]⟩
abbrev S56x128x128 : Shape := ⟨3, ![56, 128, 128]⟩
abbrev S56x256x1 : Shape := ⟨3, ![56, 256, 1]⟩
abbrev S56x1 : Shape := ⟨2, ![56, 1]⟩
abbrev S8192x1 : Shape := ⟨2, ![8192, 1]⟩

abbrev nBuf : Space → Nat
  | .hbm => 135
  | .vmem => 30
  | .smem => 0
  | _ => 0

abbrev hbmTy0_0 (i : Nat) : BufTy := match i % 128 with
  | 0 => ⟨S8192x8, .f32⟩
  | 1 => ⟨S_, .f32⟩
  | 2 => ⟨S8x128x1, .f32⟩
  | 3 => ⟨S8x128, .f32⟩
  | 4 => ⟨S8x2x128x128, .f32⟩
  | 5 => ⟨S8x2x128, .f32⟩
  | 6 => ⟨S8x1x128, .f32⟩
  | 7 => ⟨S8, .f32⟩
  | 8 => ⟨S28x128x2, .f32⟩
  | 9 => ⟨S28x128, .f32⟩
  | 10 => ⟨S28x2x128x128, .f32⟩
  | 11 => ⟨S28x2x128, .f32⟩
  | 12 => ⟨S28x1x128, .f32⟩
  | 13 => ⟨S28, .f32⟩
  | 14 => ⟨S56x128x3, .f32⟩
  | 15 => ⟨S56x128, .f32⟩
  | 16 => ⟨S56x2x128x128, .f32⟩
  | 17 => ⟨S56x2x128, .f32⟩
  | 18 => ⟨S56x1x128, .f32⟩
  | 19 => ⟨S56, .f32⟩
  | 20 => ⟨S28x2, .i32⟩
  | 21 => ⟨S28x2, .i1⟩
  | 22 => ⟨S28, .i32⟩
  | 23 => ⟨S28, .i1⟩
  | 24 => ⟨S28, .i32⟩
  | 25 => ⟨S28, .i1⟩
  | 26 => ⟨S56x3, .i32⟩
  | 27 => ⟨S56x3, .i1⟩
  | 28 => ⟨S56, .i32⟩
  | 29 => ⟨S56, .i1⟩
  | 30 => ⟨S56, .i32⟩
  | 31 => ⟨S56, .i1⟩
  | 32 => ⟨S56, .i32⟩
  | 33 => ⟨S56, .i1⟩
  | 34 => ⟨S56, .i1⟩
  | 35 => ⟨S56, .i1⟩
  | 36 => ⟨S56, .i1⟩
  | 37 => ⟨S_, .f32⟩
  | 38 => ⟨S8192, .f32⟩
  | 39 => ⟨S8192, .f32⟩
  | 40 => ⟨S8192, .f32⟩
  | 41 => ⟨S8x8192, .f32⟩
  | 42 => ⟨S8x8192x1, .f32⟩
  | 43 => ⟨S8x8192, .f32⟩
  | 44 => ⟨S1x8192, .f32⟩
  | 45 => ⟨S8x8192, .f32⟩
  | 46 => ⟨S8x8192, .f32⟩
  | 47 => ⟨S_, .i32⟩
  | 48 => ⟨S28x2, .i32⟩
  | 49 => ⟨S28x2, .i32⟩
  | 50 => ⟨S28x2, .i32⟩
  | 51 => ⟨S28x2x1, .i32⟩
  | 52 => ⟨S8192x28x2, .f32⟩
  | 53 => ⟨S28x8192x2, .f32⟩
  | 54 => ⟨S28x8192, .f32⟩
  | 55 => ⟨S_, .i32⟩
  | 56 => ⟨S28, .i32⟩
  | 57 => ⟨S28, .i32⟩
  | 58 => ⟨S28, .i32⟩
  | 59 => ⟨S28x1, .i32⟩
  | 60 => ⟨S28x8192, .f32⟩
  | 61 => ⟨S28x8192, .f32⟩
  | 62 => ⟨S_, .i32⟩
  | 63 => ⟨S28, .i32⟩
  | 64 => ⟨S28, .i32⟩
  | 65 => ⟨S28, .i32⟩
  | 66 => ⟨S28x1, .i32⟩
  | 67 => ⟨S28x8192, .f32⟩
  | 68 => ⟨S28x8192, .f32⟩
  | 69 => ⟨S1x8192, .f32⟩
  | 70 => ⟨S28x8192, .f32⟩
  | 71 => ⟨S28x8192, .f32⟩
  | 72 => ⟨S_, .i32⟩
  | 73 => ⟨S56x3, .i32⟩
  | 74 => ⟨S56x3, .i32⟩
  | 75 => ⟨S56x3, .i32⟩
  | 76 => ⟨S56x3x1, .i32⟩
  | 77 => ⟨S8192x56x3, .f32⟩
  | 78 => ⟨S56x8192x3, .f32⟩
  | 79 => ⟨S56x8192, .f32⟩
  | 80 => ⟨S_, .i32⟩
  | 81 => ⟨S56, .i32⟩
  | 82 => ⟨S56, .i32⟩
  | 83 => ⟨S56, .i32⟩
  | 84 => ⟨S56x1, .i32⟩
  | 85 => ⟨S56x8192, .f32⟩
  | 86 => ⟨S56x8192, .f32⟩
  | 87 => ⟨S_, .i32⟩
  | 88 => ⟨S56, .i32⟩
  | 89 => ⟨S56, .i32⟩
  | 90 => ⟨S56, .i32⟩
  | 91 => ⟨S56x1, .i32⟩
  | 92 => ⟨S56x8192, .f32⟩
  | 93 => ⟨S56x8192, .f32⟩
  | 94 => ⟨S_, .i32⟩
  | 95 => ⟨S56, .i32⟩
  | 96 => ⟨S56, .i32⟩
  | 97 => ⟨S56, .i32⟩
  | 98 => ⟨S56x1, .i32⟩
  | 99 => ⟨S56x8192, .f32⟩
  | 100 => ⟨S56x8192, .f32⟩
  | 101 => ⟨S_, .i32⟩
  | 102 => ⟨S56, .i32⟩
  | 103 => ⟨S56, .i32⟩
  | 104 => ⟨S56, .i32⟩
  | 105 => ⟨S56x1, .i32⟩
  | 106 => ⟨S56x8192, .f32⟩
  | 107 => ⟨S56x8192, .f32⟩
  | 108 => ⟨S_, .i32⟩
  | 109 => ⟨S56, .i32⟩
  | 110 => ⟨S56, .i32⟩
  | 111 => ⟨S56, .i32⟩
  | 112 => ⟨S56x1, .i32⟩
  | 113 => ⟨S56x8192, .f32⟩
  | 114 => ⟨S56x8192, .f32⟩
  | 115 => ⟨S_, .i32⟩
  | 116 => ⟨S56, .i32⟩
  | 117 => ⟨S56, .i32⟩
  | 118 => ⟨S56, .i32⟩
  | 119 => ⟨S56x1, .i32⟩
  | 120 => ⟨S56x8192, .f32⟩
  | 121 => ⟨S56x8192, .f32⟩
  | 122 => ⟨S1x8192, .f32⟩
  | 123 => ⟨S56x8192, .f32⟩
  | 124 => ⟨S56x8192, .f32⟩
  | 125 => ⟨S_, .f32⟩
  | 126 => ⟨S8192, .f32⟩
  | 127 => ⟨S8192, .f32⟩
  | _ => ⟨S8192x8, .f32⟩

abbrev hbmTy0_1 (i : Nat) : BufTy := match i % 128 with
  | 0 => ⟨S_, .f32⟩
  | 1 => ⟨S8192, .f32⟩
  | 2 => ⟨S8192, .f32⟩
  | 3 => ⟨S_, .f32⟩
  | 4 => ⟨S8192, .f32⟩
  | 5 => ⟨S8192, .f32⟩
  | 6 => ⟨S8192x1, .f32⟩
  | _ => ⟨S8192x8, .f32⟩

abbrev hbmTy (i : Nat) : BufTy := match i / 128 with
  | 0 => hbmTy0_0 i
  | 1 => hbmTy0_1 i
  | _ => ⟨S8192x8, .f32⟩

abbrev bufTy : (tb : Table) → Fin (tcTables nBuf tb) → BufTy
  | .hbm, ⟨i, _⟩ => hbmTy i
  | .local _ .vmem, ⟨0, _⟩ => ⟨S8x1024x1, .f32⟩
  | .local _ .vmem, ⟨1, _⟩ => ⟨S8x1024x1, .f32⟩
  | .local _ .vmem, ⟨2, _⟩ => ⟨S8x128x1, .f32⟩
  | .local _ .vmem, ⟨3, _⟩ => ⟨S8x128, .f32⟩
  | .local _ .vmem, ⟨4, _⟩ => ⟨S8x2x128x128, .f32⟩
  | .local _ .vmem, ⟨5, _⟩ => ⟨S8x2x128, .f32⟩
  | .local _ .vmem, ⟨6, _⟩ => ⟨S8x1x128, .f32⟩
  | .local _ .vmem, ⟨7, _⟩ => ⟨S8, .f32⟩
  | .local _ .vmem, ⟨8, _⟩ => ⟨S8x1024, .f32⟩
  | .local _ .vmem, ⟨9, _⟩ => ⟨S8x1024, .f32⟩
  | .local _ .vmem, ⟨10, _⟩ => ⟨S28x512x2, .f32⟩
  | .local _ .vmem, ⟨11, _⟩ => ⟨S28x512x2, .f32⟩
  | .local _ .vmem, ⟨12, _⟩ => ⟨S28x128x2, .f32⟩
  | .local _ .vmem, ⟨13, _⟩ => ⟨S28x128, .f32⟩
  | .local _ .vmem, ⟨14, _⟩ => ⟨S28x2x128x128, .f32⟩
  | .local _ .vmem, ⟨15, _⟩ => ⟨S28x2x128, .f32⟩
  | .local _ .vmem, ⟨16, _⟩ => ⟨S28x1x128, .f32⟩
  | .local _ .vmem, ⟨17, _⟩ => ⟨S28, .f32⟩
  | .local _ .vmem, ⟨18, _⟩ => ⟨S28x512, .f32⟩
  | .local _ .vmem, ⟨19, _⟩ => ⟨S28x512, .f32⟩
  | .local _ .vmem, ⟨20, _⟩ => ⟨S56x256x3, .f32⟩
  | .local _ .vmem, ⟨21, _⟩ => ⟨S56x256x3, .f32⟩
  | .local _ .vmem, ⟨22, _⟩ => ⟨S56x128x3, .f32⟩
  | .local _ .vmem, ⟨23, _⟩ => ⟨S56x128, .f32⟩
  | .local _ .vmem, ⟨24, _⟩ => ⟨S56x2x128x128, .f32⟩
  | .local _ .vmem, ⟨25, _⟩ => ⟨S56x2x128, .f32⟩
  | .local _ .vmem, ⟨26, _⟩ => ⟨S56x1x128, .f32⟩
  | .local _ .vmem, ⟨27, _⟩ => ⟨S56, .f32⟩
  | .local _ .vmem, ⟨28, _⟩ => ⟨S56x256, .f32⟩
  | .local _ .vmem, ⟨29, _⟩ => ⟨S56x256, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_c_4 : Ref sig .tc := ⟨.hbm, 25, rfl⟩
abbrev main_c_5 : Ref sig .tc := ⟨.hbm, 26, rfl⟩
abbrev main_c_6 : Ref sig .tc := ⟨.hbm, 27, rfl⟩
abbrev main_c_7 : Ref sig .tc := ⟨.hbm, 28, rfl⟩
abbrev main_c_8 : Ref sig .tc := ⟨.hbm, 29, rfl⟩
abbrev main_c_9 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_c_13 : Ref sig .tc := ⟨.hbm, 34, rfl⟩
abbrev main_c_14 : Ref sig .tc := ⟨.hbm, 35, rfl⟩
abbrev main_c_15 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_c_16 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_17 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_18 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_19 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_20 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_21 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_22 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_23 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_24 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_25 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_26 : Ref sig .tc := ⟨.hbm, 125, rfl⟩
abbrev main_v77 : Ref sig .tc := ⟨.hbm, 126, rfl⟩
abbrev main_v78 : Ref sig .tc := ⟨.hbm, 127, rfl⟩
abbrev main_cst_27 : Ref sig .tc := ⟨.hbm, 128, rfl⟩
abbrev main_v79 : Ref sig .tc := ⟨.hbm, 129, rfl⟩
abbrev main_v80 : Ref sig .tc := ⟨.hbm, 130, rfl⟩
abbrev main_cst_28 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S28x512x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S28x128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S28x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S28x2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S28x2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S28x1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S28 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S28x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S56x256x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S56x128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S56x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S56x2x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S56x2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S56x1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S56 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S56x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S8192 : S_.BroadcastsInDim S8192 (![] : Fin 0 → Fin S8192.rank)
  transposes_S8192x8_S8x8192_1_0 : S8192x8.Transposes [1, 0] S8x8192
  bcast_S8x8192_S8x8192x1_0_1 : S8x8192.BroadcastsInDim S8x8192x1 (![0, 1] : Fin 2 → Fin S8x8192x1.rank)
  inb_S8x1024x1_S8x1024x1_0_0_0 : ∀ a, (![0, 0, 0] : Fin 3 → Nat) a + S8x1024x1.size a ≤ S8x1024x1.size a
  h_S8x1024x1 : 0 < S8x1024x1.numel
  shapeCasts_S8x1024x1_S8x1024x1 : S8x1024x1.ShapeCasts S8x1024x1
  inb_S8x128x1_S8x128x1_0_0_0 : ∀ a, (![0, 0, 0] : Fin 3 → Nat) a + S8x128x1.size a ≤ S8x128x1.size a
  h_S8x128x1 : 0 < S8x128x1.numel
  inb_S8x128_S8x128_0_0 : ∀ a, (![0, 0] : Fin 2 → Nat) a + S8x128.size a ≤ S8x128.size a
  h_S8x128 : 0 < S8x128.numel
  shapeCasts_S8x128_S8x1x128 : S8x128.ShapeCasts S8x1x128
  broadcasts_S8x1x128_S8x1024x128 : S8x1x128.Broadcasts S8x1024x128
  inb_S8x2x128x128_S8x2x128x128_0_0_0_0 : ∀ a, (![0, 0, 0, 0] : Fin 4 → Nat) a + S8x2x128x128.size a ≤ S8x2x128x128.size a
  h_S8x2x128x128 : 0 < S8x2x128x128.numel
  inb_S8x2x128_S8x2x128_0_0_0 : ∀ a, (![0, 0, 0] : Fin 3 → Nat) a + S8x2x128.size a ≤ S8x2x128.size a
  h_S8x2x128 : 0 < S8x2x128.numel
  slices_S8x2x128x128_o0_0_0_0_S8x1x128x128 : S8x2x128x128.Slices ![0, 0, 0, 0] S8x1x128x128
  shapeCasts_S8x1x128x128_S8x128x128 : S8x1x128x128.ShapeCasts S8x128x128
  slices_S8x2x128_o0_0_0_S8x1x128 : S8x2x128.Slices ![0, 0, 0] S8x1x128
  shapeCasts_S8x1x128_S8x128 : S8x1x128.ShapeCasts S8x128
  slices_S8x2x128x128_o0_1_0_0_S8x1x128x128 : S8x2x128x128.Slices ![0, 1, 0, 0] S8x1x128x128
  slices_S8x2x128_o0_1_0_S8x1x128 : S8x2x128.Slices ![0, 1, 0] S8x1x128
  inb_S8x1x128_S8x1x128_0_0_0 : ∀ a, (![0, 0, 0] : Fin 3 → Nat) a + S8x1x128.size a ≤ S8x1x128.size a
  h_S8x1x128 : 0 < S8x1x128.numel
  inb_S8_S8_0 : ∀ a, (![0] : Fin 1 → Nat) a + S8.size a ≤ S8.size a
  h_S8 : 0 < S8.numel
  shapeCasts_S8x1024x1_S8x1024 : S8x1024x1.ShapeCasts S8x1024
  shapeCasts_S8_S8x1 : S8.ShapeCasts S8x1
  broadcasts_S8x1_S8x1024 : S8x1.Broadcasts S8x1024
  inb_S8x1024_S8x1024_0_0 : ∀ a, (![0, 0] : Fin 2 → Nat) a + S8x1024.size a ≤ S8x1024.size a
  h_S8x1024 : 0 < S8x1024.numel
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  bcast_S_S28x2 : S_.BroadcastsInDim S28x2 (![] : Fin 0 → Fin S28x2.rank)
  bcast_S28x2_S28x2x1_0_1 : S28x2.BroadcastsInDim S28x2x1 (![0, 1] : Fin 2 → Fin S28x2x1.rank)
  transposes_S8192x28x2_S28x8192x2_1_0_2 : S8192x28x2.Transposes [1, 0, 2] S28x8192x2
  inb_S28x512x2_S28x512x2_0_0_0 : ∀ a, (![0, 0, 0] : Fin 3 → Nat) a + S28x512x2.size a ≤ S28x512x2.size a
  h_S28x512x2 : 0 < S28x512x2.numel
  shapeCasts_S28x512x2_S28x512x2 : S28x512x2.ShapeCasts S28x512x2
  inb_S28x128x2_S28x128x2_0_0_0 : ∀ a, (![0, 0, 0] : Fin 3 → Nat) a + S28x128x2.size a ≤ S28x128x2.size a
  h_S28x128x2 : 0 < S28x128x2.numel
  inb_S28x128_S28x128_0_0 : ∀ a, (![0, 0] : Fin 2 → Nat) a + S28x128.size a ≤ S28x128.size a
  h_S28x128 : 0 < S28x128.numel
  shapeCasts_S28x128_S28x1x128 : S28x128.ShapeCasts S28x1x128
  broadcasts_S28x1x128_S28x512x128 : S28x1x128.Broadcasts S28x512x128
  inb_S28x2x128x128_S28x2x128x128_0_0_0_0 : ∀ a, (![0, 0, 0, 0] : Fin 4 → Nat) a + S28x2x128x128.size a ≤ S28x2x128x128.size a
  h_S28x2x128x128 : 0 < S28x2x128x128.numel
  inb_S28x2x128_S28x2x128_0_0_0 : ∀ a, (![0, 0, 0] : Fin 3 → Nat) a + S28x2x128.size a ≤ S28x2x128.size a
  h_S28x2x128 : 0 < S28x2x128.numel
  slices_S28x2x128x128_o0_0_0_0_S28x1x128x128 : S28x2x128x128.Slices ![0, 0, 0, 0] S28x1x128x128
  shapeCasts_S28x1x128x128_S28x128x128 : S28x1x128x128.ShapeCasts S28x128x128
  slices_S28x2x128_o0_0_0_S28x1x128 : S28x2x128.Slices ![0, 0, 0] S28x1x128
  shapeCasts_S28x1x128_S28x128 : S28x1x128.ShapeCasts S28x128
  slices_S28x2x128x128_o0_1_0_0_S28x1x128x128 : S28x2x128x128.Slices ![0, 1, 0, 0] S28x1x128x128
  slices_S28x2x128_o0_1_0_S28x1x128 : S28x2x128.Slices ![0, 1, 0] S28x1x128
  inb_S28x1x128_S28x1x128_0_0_0 : ∀ a, (![0, 0, 0] : Fin 3 → Nat) a + S28x1x128.size a ≤ S28x1x128.size a
  h_S28x1x128 : 0 < S28x1x128.numel
  inb_S28_S28_0 : ∀ a, (![0] : Fin 1 → Nat) a + S28.size a ≤ S28.size a
  h_S28 : 0 < S28.numel
  shapeCasts_S28x512x1_S28x512 : S28x512x1.ShapeCasts S28x512
  shapeCasts_S28_S28x1 : S28.ShapeCasts S28x1
  broadcasts_S28x1_S28x512 : S28x1.Broadcasts S28x512
  inb_S28x512_S28x512_0_0 : ∀ a, (![0, 0] : Fin 2 → Nat) a + S28x512.size a ≤ S28x512.size a
  h_S28x512 : 0 < S28x512.numel
  bcast_S_S28 : S_.BroadcastsInDim S28 (![] : Fin 0 → Fin S28.rank)
  bcast_S28_S28x1_0 : S28.BroadcastsInDim S28x1 (![0] : Fin 1 → Fin S28x1.rank)
  bcast_S1x8192_S28x8192_0_1 : S1x8192.BroadcastsInDim S28x8192 (![0, 1] : Fin 2 → Fin S28x8192.rank)
  bcast_S_S56x3 : S_.BroadcastsInDim S56x3 (![] : Fin 0 → Fin S56x3.rank)
  bcast_S56x3_S56x3x1_0_1 : S56x3.BroadcastsInDim S56x3x1 (![0, 1] : Fin 2 → Fin S56x3x1.rank)
  transposes_S8192x56x3_S56x8192x3_1_0_2 : S8192x56x3.Transposes [1, 0, 2] S56x8192x3
  inb_S56x256x3_S56x256x3_0_0_0 : ∀ a, (![0, 0, 0] : Fin 3 → Nat) a + S56x256x3.size a ≤ S56x256x3.size a
  h_S56x256x3 : 0 < S56x256x3.numel
  shapeCasts_S56x256x3_S56x256x3 : S56x256x3.ShapeCasts S56x256x3
  inb_S56x128x3_S56x128x3_0_0_0 : ∀ a, (![0, 0, 0] : Fin 3 → Nat) a + S56x128x3.size a ≤ S56x128x3.size a
  h_S56x128x3 : 0 < S56x128x3.numel
  inb_S56x128_S56x128_0_0 : ∀ a, (![0, 0] : Fin 2 → Nat) a + S56x128.size a ≤ S56x128.size a
  h_S56x128 : 0 < S56x128.numel
  shapeCasts_S56x128_S56x1x128 : S56x128.ShapeCasts S56x1x128
  broadcasts_S56x1x128_S56x256x128 : S56x1x128.Broadcasts S56x256x128
  inb_S56x2x128x128_S56x2x128x128_0_0_0_0 : ∀ a, (![0, 0, 0, 0] : Fin 4 → Nat) a + S56x2x128x128.size a ≤ S56x2x128x128.size a
  h_S56x2x128x128 : 0 < S56x2x128x128.numel
  inb_S56x2x128_S56x2x128_0_0_0 : ∀ a, (![0, 0, 0] : Fin 3 → Nat) a + S56x2x128.size a ≤ S56x2x128.size a
  h_S56x2x128 : 0 < S56x2x128.numel
  slices_S56x2x128x128_o0_0_0_0_S56x1x128x128 : S56x2x128x128.Slices ![0, 0, 0, 0] S56x1x128x128
  shapeCasts_S56x1x128x128_S56x128x128 : S56x1x128x128.ShapeCasts S56x128x128
  slices_S56x2x128_o0_0_0_S56x1x128 : S56x2x128.Slices ![0, 0, 0] S56x1x128
  shapeCasts_S56x1x128_S56x128 : S56x1x128.ShapeCasts S56x128
  slices_S56x2x128x128_o0_1_0_0_S56x1x128x128 : S56x2x128x128.Slices ![0, 1, 0, 0] S56x1x128x128
  slices_S56x2x128_o0_1_0_S56x1x128 : S56x2x128.Slices ![0, 1, 0] S56x1x128
  inb_S56x1x128_S56x1x128_0_0_0 : ∀ a, (![0, 0, 0] : Fin 3 → Nat) a + S56x1x128.size a ≤ S56x1x128.size a
  h_S56x1x128 : 0 < S56x1x128.numel
  inb_S56_S56_0 : ∀ a, (![0] : Fin 1 → Nat) a + S56.size a ≤ S56.size a
  h_S56 : 0 < S56.numel
  shapeCasts_S56x256x1_S56x256 : S56x256x1.ShapeCasts S56x256
  shapeCasts_S56_S56x1 : S56.ShapeCasts S56x1
  broadcasts_S56x1_S56x256 : S56x1.Broadcasts S56x256
  inb_S56x256_S56x256_0_0 : ∀ a, (![0, 0] : Fin 2 → Nat) a + S56x256.size a ≤ S56x256.size a
  h_S56x256 : 0 < S56x256.numel
  bcast_S_S56 : S_.BroadcastsInDim S56 (![] : Fin 0 → Fin S56.rank)
  bcast_S56_S56x1_0 : S56.BroadcastsInDim S56x1 (![0] : Fin 1 → Fin S56x1.rank)
  bcast_S1x8192_S56x8192_0_1 : S1x8192.BroadcastsInDim S56x8192 (![0, 1] : Fin 2 → Fin S56x8192.rank)
  reducesTo_S8x8192_S8192_d0 : S8x8192.ReducesTo [0] S8192
  h_S_ : 0 < S_.numel
  reducesTo_S28x8192_S8192_d0 : S28x8192.ReducesTo [0] S8192
  reducesTo_S56x8192_S8192_d0 : S56x8192.ReducesTo [0] S8192
  bcast_S8192_S8192x1_0 : S8192.BroadcastsInDim S8192x1 (![0] : Fin 1 → Fin S8192x1.rank)
  dot_S8x1024x1_S8x128x1_S8x1024x128_2_2_1_1_0_0_wf : DotDims.WF S8x1024x1 S8x128x1 S8x1024x128 [2] [2] [1] [1] [0] [0]
  dot_S8x1024x128_S8x128x128_S8x1024x128_2_2_1_1_0_0_wf : DotDims.WF S8x1024x128 S8x128x128 S8x1024x128 [2] [2] [1] [1] [0] [0]
  dot_S8x1024x128_S8x1x128_S8x1024x1_2_2_1_1_0_0_wf : DotDims.WF S8x1024x128 S8x1x128 S8x1024x1 [2] [2] [1] [1] [0] [0]
  gather_S8192x8_S28x2x1_S8192x28x2_0_1_n_n_1_2_81921_wf : GatherDims.WF S8192x8 S28x2x1 S8192x28x2 [0] [1] [] [1] [] 2 ![8192, 1]
  dot_S28x512x2_S28x128x2_S28x512x128_2_2_1_1_0_0_wf : DotDims.WF S28x512x2 S28x128x2 S28x512x128 [2] [2] [1] [1] [0] [0]
  dot_S28x512x128_S28x128x128_S28x512x128_2_2_1_1_0_0_wf : DotDims.WF S28x512x128 S28x128x128 S28x512x128 [2] [2] [1] [1] [0] [0]
  dot_S28x512x128_S28x1x128_S28x512x1_2_2_1_1_0_0_wf : DotDims.WF S28x512x128 S28x1x128 S28x512x1 [2] [2] [1] [1] [0] [0]
  gather_S8x8192_S28x1_S28x8192_1_0_n_n_0_1_18192_wf : GatherDims.WF S8x8192 S28x1 S28x8192 [1] [0] [] [0] [] 1 ![1, 8192]
  gather_S8192x8_S56x3x1_S8192x56x3_0_1_n_n_1_2_81921_wf : GatherDims.WF S8192x8 S56x3x1 S8192x56x3 [0] [1] [] [1] [] 2 ![8192, 1]
  dot_S56x256x3_S56x128x3_S56x256x128_2_2_1_1_0_0_wf : DotDims.WF S56x256x3 S56x128x3 S56x256x128 [2] [2] [1] [1] [0] [0]
  dot_S56x256x128_S56x128x128_S56x256x128_2_2_1_1_0_0_wf : DotDims.WF S56x256x128 S56x128x128 S56x256x128 [2] [2] [1] [1] [0] [0]
  dot_S56x256x128_S56x1x128_S56x256x1_2_2_1_1_0_0_wf : DotDims.WF S56x256x128 S56x1x128 S56x256x1 [2] [2] [1] [1] [0] [0]
  gather_S28x8192_S56x1_S56x8192_1_0_n_n_0_1_18192_wf : GatherDims.WF S28x8192 S56x1 S56x8192 [1] [0] [] [0] [] 1 ![1, 8192]
  gather_S8x8192_S56x1_S56x8192_1_0_n_n_0_1_18192_wf : GatherDims.WF S8x8192 S56x1 S56x8192 [1] [0] [] [0] [] 1 ![1, 8192]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x1.size a ≤ S8x8192x1.size a
  hwx0_0 : ∀ i : grid0.Coords, EltTy.bits .f32 = 32 ∨ (Rect.block (s := S8x8192x1) S8x1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x1.size a ≤ S8x128x1.size a
  hwx0_1 : ∀ i : grid0.Coords, EltTy.bits .f32 = 32 ∨ (Rect.block (s := S8x128x1) S8x128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2x128x128.size a ≤ S8x2x128x128.size a
  hwx0_3 : ∀ i : grid0.Coords, EltTy.bits .f32 = 32 ∨ (Rect.block (s := S8x2x128x128) S8x2x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2x128.size a ≤ S8x2x128.size a
  hwx0_4 : ∀ i : grid0.Coords, EltTy.bits .f32 = 32 ∨ (Rect.block (s := S8x2x128) S8x2x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1x128.size a ≤ S8x1x128.size a
  hwx0_5 : ∀ i : grid0.Coords, EltTy.bits .f32 = 32 ∨ (Rect.block (s := S8x1x128) S8x1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1024.size a ≤ S8x8192.size a
  hwx0_7 : ∀ i : grid0.Coords, EltTy.bits .f32 = 32 ∨ (Rect.block (s := S8x8192) S8x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S28x512x2.size a ≤ S28x8192x2.size a
  hwx1_0 : ∀ i : grid1.Coords, EltTy.bits .f32 = 32 ∨ (Rect.block (s := S28x8192x2) S28x512x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S28x128x2.size a ≤ S28x128x2.size a
  hwx1_1 : ∀ i : grid1.Coords, EltTy.bits .f32 = 32 ∨ (Rect.block (s := S28x128x2) S28x128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S28x128.size a ≤ S28x128.size a
  hwx1_2 : ∀ i : grid1.Coords, EltTy.bits .f32 = 32 ∨ (Rect.block (s := S28x128) S28x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S28x2x128x128.size a ≤ S28x2x128x128.size a
  hwx1_3 : ∀ i : grid1.Coords, EltTy.bits .f32 = 32 ∨ (Rect.block (s := S28x2x128x128) S28x2x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S28x2x128.size a ≤ S28x2x128.size a
  hwx1_4 : ∀ i : grid1.Coords, EltTy.bits .f32 = 32 ∨ (Rect.block (s := S28x2x128) S28x2x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S28x1x128.size a ≤ S28x1x128.size a
  hwx1_5 : ∀ i : grid1.Coords, EltTy.bits .f32 = 32 ∨ (Rect.block (s := S28x1x128) S28x1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S28.size a ≤ S28.size a
  hwx1_6 : ∀ i : grid1.Coords, EltTy.bits .f32 = 32 ∨ (Rect.block (s := S28) S28.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S28x512.size a ≤ S28x8192.size a
  hwx1_7 : ∀ i : grid1.Coords, EltTy.bits .f32 = 32 ∨ (Rect.block (s := S28x8192) S28x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S56x256x3.size a ≤ S56x8192x3.size a
  hwx2_0 : ∀ i : grid2.Coords, EltTy.bits .f32 = 32 ∨ (Rect.block (s := S56x8192x3) S56x256x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S56x128x3.size a ≤ S56x128x3.size a
  hwx2_1 : ∀ i : grid2.Coords, EltTy.bits .f32 = 32 ∨ (Rect.block (s := S56x128x3) S56x128x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S56x128.size a ≤ S56x128.size a
  hwx2_2 : ∀ i : grid2.Coords, EltTy.bits .f32 = 32 ∨ (Rect.block (s := S56x128) S56x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S56x2x128x128.size a ≤ S56x2x128x128.size a
  hwx2_3 : ∀ i : grid2.Coords, EltTy.bits .f32 = 32 ∨ (Rect.block (s := S56x2x128x128) S56x2x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S56x2x128.size a ≤ S56x2x128.size a
  hwx2_4 : ∀ i : grid2.Coords, EltTy.bits .f32 = 32 ∨ (Rect.block (s := S56x2x128) S56x2x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S56x1x128.size a ≤ S56x1x128.size a
  hwx2_5 : ∀ i : grid2.Coords, EltTy.bits .f32 = 32 ∨ (Rect.block (s := S56x1x128) S56x1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S56.size a ≤ S56.size a
  hwx2_6 : ∀ i : grid2.Coords, EltTy.bits .f32 = 32 ∨ (Rect.block (s := S56) S56.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S56x256.size a ≤ S56x8192.size a
  hwx2_7 : ∀ i : grid2.Coords, EltTy.bits .f32 = 32 ∨ (Rect.block (s := S56x8192) S56x256.size (cc2_transform_7 i) (hinb2_7 i)).WholeWords (EltTy.packing .f32)

variable [Facts₀]

def dot_S8x1024x1_S8x128x1_S8x1024x128_2_2_1_1_0_0 : DotDims S8x1024x1 S8x128x1 S8x1024x128 where
  lhsContracting := [2]
  rhsContracting := [2]
  lhsNonContracting := [1]
  rhsNonContracting := [1]
  lhsBatch := [0]
  rhsBatch := [0]
  wf := dot_S8x1024x1_S8x128x1_S8x1024x128_2_2_1_1_0_0_wf
def dot_S8x1024x128_S8x128x128_S8x1024x128_2_2_1_1_0_0 : DotDims S8x1024x128 S8x128x128 S8x1024x128 where
  lhsContracting := [2]
  rhsContracting := [2]
  lhsNonContracting := [1]
  rhsNonContracting := [1]
  lhsBatch := [0]
  rhsBatch := [0]
  wf := dot_S8x1024x128_S8x128x128_S8x1024x128_2_2_1_1_0_0_wf
def dot_S8x1024x128_S8x1x128_S8x1024x1_2_2_1_1_0_0 : DotDims S8x1024x128 S8x1x128 S8x1024x1 where
  lhsContracting := [2]
  rhsContracting := [2]
  lhsNonContracting := [1]
  rhsNonContracting := [1]
  lhsBatch := [0]
  rhsBatch := [0]
  wf := dot_S8x1024x128_S8x1x128_S8x1024x1_2_2_1_1_0_0_wf
def gather_S8192x8_S28x2x1_S8192x28x2_0_1_n_n_1_2_81921 : GatherDims S8192x8 S28x2x1 S8192x28x2 where
  offsetDims := [0]
  collapsedSliceDims := [1]
  operandBatchingDims := []
  startIndicesBatchingDims := []
  startIndexMap := [1]
  indexVectorDim := 2
  sliceSizes := ![8192, 1]
  wf := gather_S8192x8_S28x2x1_S8192x28x2_0_1_n_n_1_2_81921_wf
def dot_S28x512x2_S28x128x2_S28x512x128_2_2_1_1_0_0 : DotDims S28x512x2 S28x128x2 S28x512x128 where
  lhsContracting := [2]
  rhsContracting := [2]
  lhsNonContracting := [1]
  rhsNonContracting := [1]
  lhsBatch := [0]
  rhsBatch := [0]
  wf := dot_S28x512x2_S28x128x2_S28x512x128_2_2_1_1_0_0_wf
def dot_S28x512x128_S28x128x128_S28x512x128_2_2_1_1_0_0 : DotDims S28x512x128 S28x128x128 S28x512x128 where
  lhsContracting := [2]
  rhsContracting := [2]
  lhsNonContracting := [1]
  rhsNonContracting := [1]
  lhsBatch := [0]
  rhsBatch := [0]
  wf := dot_S28x512x128_S28x128x128_S28x512x128_2_2_1_1_0_0_wf
def dot_S28x512x128_S28x1x128_S28x512x1_2_2_1_1_0_0 : DotDims S28x512x128 S28x1x128 S28x512x1 where
  lhsContracting := [2]
  rhsContracting := [2]
  lhsNonContracting := [1]
  rhsNonContracting := [1]
  lhsBatch := [0]
  rhsBatch := [0]
  wf := dot_S28x512x128_S28x1x128_S28x512x1_2_2_1_1_0_0_wf
def gather_S8x8192_S28x1_S28x8192_1_0_n_n_0_1_18192 : GatherDims S8x8192 S28x1 S28x8192 where
  offsetDims := [1]
  collapsedSliceDims := [0]
  operandBatchingDims := []
  startIndicesBatchingDims := []
  startIndexMap := [0]
  indexVectorDim := 1
  sliceSizes := ![1, 8192]
  wf := gather_S8x8192_S28x1_S28x8192_1_0_n_n_0_1_18192_wf
def gather_S8192x8_S56x3x1_S8192x56x3_0_1_n_n_1_2_81921 : GatherDims S8192x8 S56x3x1 S8192x56x3 where
  offsetDims := [0]
  collapsedSliceDims := [1]
  operandBatchingDims := []
  startIndicesBatchingDims := []
  startIndexMap := [1]
  indexVectorDim := 2
  sliceSizes := ![8192, 1]
  wf := gather_S8192x8_S56x3x1_S8192x56x3_0_1_n_n_1_2_81921_wf
def dot_S56x256x3_S56x128x3_S56x256x128_2_2_1_1_0_0 : DotDims S56x256x3 S56x128x3 S56x256x128 where
  lhsContracting := [2]
  rhsContracting := [2]
  lhsNonContracting := [1]
  rhsNonContracting := [1]
  lhsBatch := [0]
  rhsBatch := [0]
  wf := dot_S56x256x3_S56x128x3_S56x256x128_2_2_1_1_0_0_wf
def dot_S56x256x128_S56x128x128_S56x256x128_2_2_1_1_0_0 : DotDims S56x256x128 S56x128x128 S56x256x128 where
  lhsContracting := [2]
  rhsContracting := [2]
  lhsNonContracting := [1]
  rhsNonContracting := [1]
  lhsBatch := [0]
  rhsBatch := [0]
  wf := dot_S56x256x128_S56x128x128_S56x256x128_2_2_1_1_0_0_wf
def dot_S56x256x128_S56x1x128_S56x256x1_2_2_1_1_0_0 : DotDims S56x256x128 S56x1x128 S56x256x1 where
  lhsContracting := [2]
  rhsContracting := [2]
  lhsNonContracting := [1]
  rhsNonContracting := [1]
  lhsBatch := [0]
  rhsBatch := [0]
  wf := dot_S56x256x128_S56x1x128_S56x256x1_2_2_1_1_0_0_wf
def gather_S28x8192_S56x1_S56x8192_1_0_n_n_0_1_18192 : GatherDims S28x8192 S56x1 S56x8192 where
  offsetDims := [1]
  collapsedSliceDims := [0]
  operandBatchingDims := []
  startIndicesBatchingDims := []
  startIndexMap := [0]
  indexVectorDim := 1
  sliceSizes := ![1, 8192]
  wf := gather_S28x8192_S56x1_S56x8192_1_0_n_n_0_1_18192_wf
def gather_S8x8192_S56x1_S56x8192_1_0_n_n_0_1_18192 : GatherDims S8x8192 S56x1 S56x8192 where
  offsetDims := [1]
  collapsedSliceDims := [0]
  operandBatchingDims := []
  startIndicesBatchingDims := []
  startIndexMap := [0]
  indexVectorDim := 1
  sliceSizes := ![1, 8192]
  wf := gather_S8x8192_S56x1_S56x8192_1_0_n_n_0_1_18192_wf

abbrev win0_0 : Pipeline.Window sig grid0 :=
  Pipeline.Window.ofSpec (Memref.whole main_v4) S8x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x2x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S8x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S28x512x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S28x128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S28x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S28x2x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S28x2x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S28x1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S28.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S28x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S56x256x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S56x128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S56x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S56x2x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S56x2x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S56x1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S56.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S56x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x8 : Shape := ⟨2, ![8192, 8]⟩
abbrev S_ : Shape := ⟨0, ![]⟩
abbrev S8x128x1 : Shape := ⟨3, ![8, 128, 1]⟩
abbrev S8x128 : Shape := ⟨2, ![8, 128]⟩
abbrev S8x2x128x128 : Shape := ⟨4, ![8, 2, 128, 128]⟩
abbrev S8x2x128 : Shape := ⟨3, ![8, 2, 128]⟩
abbrev S8x1x128 : Shape := ⟨3, ![8, 1, 128]⟩
abbrev S8 : Shape := ⟨1, ![8]⟩
abbrev S28x128x2 : Shape := ⟨3, ![28, 128, 2]⟩
abbrev S28x128 : Shape := ⟨2, ![28, 128]⟩
abbrev S28x2x128x128 : Shape := ⟨4, ![28, 2, 128, 128]⟩
abbrev S28x2x128 : Shape := ⟨3, ![28, 2, 128]⟩
abbrev S28x1x128 : Shape := ⟨3, ![28, 1, 128]⟩
abbrev S28 : Shape := ⟨1, ![28]⟩
abbrev S56x128x3 : Shape := ⟨3, ![56, 128, 3]⟩
abbrev S56x128 : Shape := ⟨2, ![56, 128]⟩
abbrev S56x2x128x128 : Shape := ⟨4, ![56, 2, 128, 128]⟩
abbrev S56x2x128 : Shape := ⟨3, ![56, 2, 128]⟩
abbrev S56x1x128 : Shape := ⟨3, ![56, 1, 128]⟩
abbrev S56 : Shape := ⟨1, ![56]⟩
abbrev S28x2 : Shape := ⟨2, ![28, 2]⟩
abbrev S56x3 : Shape := ⟨2, ![56, 3]⟩
abbrev S8192x1 : Shape := ⟨2, ![8192, 1]⟩
abbrev S8192 : Shape := ⟨1, ![8192]⟩
abbrev S8x8192 : Shape := ⟨2, ![8, 8192]⟩
abbrev S8x8192x1 : Shape := ⟨3, ![8, 8192, 1]⟩
abbrev S8x8192x128 : Shape := ⟨3, ![8, 8192, 128]⟩
abbrev S8x1x128x128 : Shape := ⟨4, ![8, 1, 128, 128]⟩
abbrev S8x128x128 : Shape := ⟨3, ![8, 128, 128]⟩
abbrev S8x1 : Shape := ⟨2, ![8, 1]⟩
abbrev S1x8192 : Shape := ⟨2, ![1, 8192]⟩
abbrev S28x2x1 : Shape := ⟨3, ![28, 2, 1]⟩
abbrev S8192x28x2 : Shape := ⟨3, ![8192, 28, 2]⟩
abbrev S28x8192x2 : Shape := ⟨3, ![28, 8192, 2]⟩
abbrev S28x8192x128 : Shape := ⟨3, ![28, 8192, 128]⟩
abbrev S28x1x128x128 : Shape := ⟨4, ![28, 1, 128, 128]⟩
abbrev S28x128x128 : Shape := ⟨3, ![28, 128, 128]⟩
abbrev S28x8192x1 : Shape := ⟨3, ![28, 8192, 1]⟩
abbrev S28x8192 : Shape := ⟨2, ![28, 8192]⟩
abbrev S28x1 : Shape := ⟨2, ![28, 1]⟩
abbrev S56x3x1 : Shape := ⟨3, ![56, 3, 1]⟩
abbrev S8192x56x3 : Shape := ⟨3, ![8192, 56, 3]⟩
abbrev S56x8192x3 : Shape := ⟨3, ![56, 8192, 3]⟩
abbrev S56x8192x128 : Shape := ⟨3, ![56, 8192, 128]⟩
abbrev S56x1x128x128 : Shape := ⟨4, ![56, 1, 128, 128]⟩
abbrev S56x128x128 : Shape := ⟨3, ![56, 128, 128]⟩
abbrev S56x8192x1 : Shape := ⟨3, ![56, 8192, 1]⟩
abbrev S56x8192 : Shape := ⟨2, ![56, 8192]⟩
abbrev S56x1 : Shape := ⟨2, ![56, 1]⟩

abbrev nBuf : Space → Nat
  | .hbm => 281
  | .vmem => 0
  | .smem => 0
  | _ => 0

abbrev hbmTy0_0 (i : Nat) : BufTy := match i % 128 with
  | 0 => ⟨S8192x8, .f32⟩
  | 1 => ⟨S_, .f32⟩
  | 2 => ⟨S8x128x1, .f32⟩
  | 3 => ⟨S8x128, .f32⟩
  | 4 => ⟨S8x2x128x128, .f32⟩
  | 5 => ⟨S8x2x128, .f32⟩
  | 6 => ⟨S8x1x128, .f32⟩
  | 7 => ⟨S8, .f32⟩
  | 8 => ⟨S28x128x2, .f32⟩
  | 9 => ⟨S28x128, .f32⟩
  | 10 => ⟨S28x2x128x128, .f32⟩
  | 11 => ⟨S28x2x128, .f32⟩
  | 12 => ⟨S28x1x128, .f32⟩
  | 13 => ⟨S28, .f32⟩
  | 14 => ⟨S56x128x3, .f32⟩
  | 15 => ⟨S56x128, .f32⟩
  | 16 => ⟨S56x2x128x128, .f32⟩
  | 17 => ⟨S56x2x128, .f32⟩
  | 18 => ⟨S56x1x128, .f32⟩
  | 19 => ⟨S56, .f32⟩
  | 20 => ⟨S28x2, .i32⟩
  | 21 => ⟨S28x2, .i1⟩
  | 22 => ⟨S28, .i32⟩
  | 23 => ⟨S28, .i1⟩
  | 24 => ⟨S28, .i32⟩
  | 25 => ⟨S28, .i1⟩
  | 26 => ⟨S56x3, .i32⟩
  | 27 => ⟨S56x3, .i1⟩
  | 28 => ⟨S56, .i32⟩
  | 29 => ⟨S56, .i1⟩
  | 30 => ⟨S56, .i32⟩
  | 31 => ⟨S56, .i1⟩
  | 32 => ⟨S56, .i32⟩
  | 33 => ⟨S56, .i1⟩
  | 34 => ⟨S56, .i1⟩
  | 35 => ⟨S56, .i1⟩
  | 36 => ⟨S56, .i1⟩
  | 37 => ⟨S8192x1, .f32⟩
  | 38 => ⟨S8192, .f32⟩
  | 39 => ⟨S_, .f32⟩
  | 40 => ⟨S8192, .f32⟩
  | 41 => ⟨S8192, .f32⟩
  | 42 => ⟨S8192, .f32⟩
  | 43 => ⟨S8x8192, .f32⟩
  | 44 => ⟨S8x8192x1, .f32⟩
  | 45 => ⟨S8x8192x128, .f32⟩
  | 46 => ⟨S8x1x128, .f32⟩
  | 47 => ⟨S8x8192x128, .f32⟩
  | 48 => ⟨S8x8192x128, .f32⟩
  | 49 => ⟨S8x8192x128, .f32⟩
  | 50 => ⟨S8x8192x128, .f32⟩
  | 51 => ⟨S_, .f32⟩
  | 52 => ⟨S8x8192x128, .f32⟩
  | 53 => ⟨S8x8192x128, .f32⟩
  | 54 => ⟨S_, .f32⟩
  | 55 => ⟨S8x8192x128, .f32⟩
  | 56 => ⟨S8x8192x128, .f32⟩
  | 57 => ⟨S8x1x128x128, .f32⟩
  | 58 => ⟨S8x128x128, .f32⟩
  | 59 => ⟨S8x8192x128, .f32⟩
  | 60 => ⟨S8x1x128, .f32⟩
  | 61 => ⟨S8x128, .f32⟩
  | 62 => ⟨S8x1x128, .f32⟩
  | 63 => ⟨S8x8192x128, .f32⟩
  | 64 => ⟨S8x8192x128, .f32⟩
  | 65 => ⟨S8x8192x128, .f32⟩
  | 66 => ⟨S8x8192x128, .f32⟩
  | 67 => ⟨S_, .f32⟩
  | 68 => ⟨S8x8192x128, .f32⟩
  | 69 => ⟨S8x8192x128, .f32⟩
  | 70 => ⟨S_, .f32⟩
  | 71 => ⟨S8x8192x128, .f32⟩
  | 72 => ⟨S8x8192x128, .f32⟩
  | 73 => ⟨S8x1x128x128, .f32⟩
  | 74 => ⟨S8x128x128, .f32⟩
  | 75 => ⟨S8x8192x128, .f32⟩
  | 76 => ⟨S8x1x128, .f32⟩
  | 77 => ⟨S8x128, .f32⟩
  | 78 => ⟨S8x1x128, .f32⟩
  | 79 => ⟨S8x8192x128, .f32⟩
  | 80 => ⟨S8x8192x128, .f32⟩
  | 81 => ⟨S8x8192x128, .f32⟩
  | 82 => ⟨S8x8192x128, .f32⟩
  | 83 => ⟨S_, .f32⟩
  | 84 => ⟨S8x8192x128, .f32⟩
  | 85 => ⟨S8x8192x128, .f32⟩
  | 86 => ⟨S_, .f32⟩
  | 87 => ⟨S8x8192x128, .f32⟩
  | 88 => ⟨S8x8192x128, .f32⟩
  | 89 => ⟨S8x8192x1, .f32⟩
  | 90 => ⟨S8x8192, .f32⟩
  | 91 => ⟨S8x1, .f32⟩
  | 92 => ⟨S8x8192, .f32⟩
  | 93 => ⟨S8x8192, .f32⟩
  | 94 => ⟨S1x8192, .f32⟩
  | 95 => ⟨S8x8192, .f32⟩
  | 96 => ⟨S8x8192, .f32⟩
  | 97 => ⟨S_, .i32⟩
  | 98 => ⟨S28x2, .i32⟩
  | 99 => ⟨S28x2, .i32⟩
  | 100 => ⟨S28x2, .i32⟩
  | 101 => ⟨S28x2x1, .i32⟩
  | 102 => ⟨S8192x28x2, .f32⟩
  | 103 => ⟨S28x8192x2, .f32⟩
  | 104 => ⟨S28x8192x128, .f32⟩
  | 105 => ⟨S28x1x128, .f32⟩
  | 106 => ⟨S28x8192x128, .f32⟩
  | 107 => ⟨S28x8192x128, .f32⟩
  | 108 => ⟨S28x8192x128, .f32⟩
  | 109 => ⟨S28x8192x128, .f32⟩
  | 110 => ⟨S_, .f32⟩
  | 111 => ⟨S28x8192x128, .f32⟩
  | 112 => ⟨S28x8192x128, .f32⟩
  | 113 => ⟨S_, .f32⟩
  | 114 => ⟨S28x8192x128, .f32⟩
  | 115 => ⟨S28x8192x128, .f32⟩
  | 116 => ⟨S28x1x128x128, .f32⟩
  | 117 => ⟨S28x128x128, .f32⟩
  | 118 => ⟨S28x8192x128, .f32⟩
  | 119 => ⟨S28x1x128, .f32⟩
  | 120 => ⟨S28x128, .f32⟩
  | 121 => ⟨S28x1x128, .f32⟩
  | 122 => ⟨S28x8192x128, .f32⟩
  | 123 => ⟨S28x8192x128, .f32⟩
  | 124 => ⟨S28x8192x128, .f32⟩
  | 125 => ⟨S28x8192x128, .f32⟩
  | 126 => ⟨S_, .f32⟩
  | 127 => ⟨S28x8192x128, .f32⟩
  | _ => ⟨S8192x8, .f32⟩

abbrev hbmTy0_1 (i : Nat) : BufTy := match i % 128 with
  | 0 => ⟨S28x8192x128, .f32⟩
  | 1 => ⟨S_, .f32⟩
  | 2 => ⟨S28x8192x128, .f32⟩
  | 3 => ⟨S28x8192x128, .f32⟩
  | 4 => ⟨S28x1x128x128, .f32⟩
  | 5 => ⟨S28x128x128, .f32⟩
  | 6 => ⟨S28x8192x128, .f32⟩
  | 7 => ⟨S28x1x128, .f32⟩
  | 8 => ⟨S28x128, .f32⟩
  | 9 => ⟨S28x1x128, .f32⟩
  | 10 => ⟨S28x8192x128, .f32⟩
  | 11 => ⟨S28x8192x128, .f32⟩
  | 12 => ⟨S28x8192x128, .f32⟩
  | 13 => ⟨S28x8192x128, .f32⟩
  | 14 => ⟨S_, .f32⟩
  | 15 => ⟨S28x8192x128, .f32⟩
  | 16 => ⟨S28x8192x128, .f32⟩
  | 17 => ⟨S_, .f32⟩
  | 18 => ⟨S28x8192x128, .f32⟩
  | 19 => ⟨S28x8192x128, .f32⟩
  | 20 => ⟨S28x8192x1, .f32⟩
  | 21 => ⟨S28x8192, .f32⟩
  | 22 => ⟨S28x1, .f32⟩
  | 23 => ⟨S28x8192, .f32⟩
  | 24 => ⟨S28x8192, .f32⟩
  | 25 => ⟨S_, .i32⟩
  | 26 => ⟨S28, .i32⟩
  | 27 => ⟨S28, .i32⟩
  | 28 => ⟨S28, .i32⟩
  | 29 => ⟨S28x1, .i32⟩
  | 30 => ⟨S28x8192, .f32⟩
  | 31 => ⟨S28x8192, .f32⟩
  | 32 => ⟨S_, .i32⟩
  | 33 => ⟨S28, .i32⟩
  | 34 => ⟨S28, .i32⟩
  | 35 => ⟨S28, .i32⟩
  | 36 => ⟨S28x1, .i32⟩
  | 37 => ⟨S28x8192, .f32⟩
  | 38 => ⟨S28x8192, .f32⟩
  | 39 => ⟨S1x8192, .f32⟩
  | 40 => ⟨S28x8192, .f32⟩
  | 41 => ⟨S28x8192, .f32⟩
  | 42 => ⟨S_, .i32⟩
  | 43 => ⟨S56x3, .i32⟩
  | 44 => ⟨S56x3, .i32⟩
  | 45 => ⟨S56x3, .i32⟩
  | 46 => ⟨S56x3x1, .i32⟩
  | 47 => ⟨S8192x56x3, .f32⟩
  | 48 => ⟨S56x8192x3, .f32⟩
  | 49 => ⟨S56x8192x128, .f32⟩
  | 50 => ⟨S56x1x128, .f32⟩
  | 51 => ⟨S56x8192x128, .f32⟩
  | 52 => ⟨S56x8192x128, .f32⟩
  | 53 => ⟨S56x8192x128, .f32⟩
  | 54 => ⟨S56x8192x128, .f32⟩
  | 55 => ⟨S_, .f32⟩
  | 56 => ⟨S56x8192x128, .f32⟩
  | 57 => ⟨S56x8192x128, .f32⟩
  | 58 => ⟨S_, .f32⟩
  | 59 => ⟨S56x8192x128, .f32⟩
  | 60 => ⟨S56x8192x128, .f32⟩
  | 61 => ⟨S56x1x128x128, .f32⟩
  | 62 => ⟨S56x128x128, .f32⟩
  | 63 => ⟨S56x8192x128, .f32⟩
  | 64 => ⟨S56x1x128, .f32⟩
  | 65 => ⟨S56x128, .f32⟩
  | 66 => ⟨S56x1x128, .f32⟩
  | 67 => ⟨S56x8192x128, .f32⟩
  | 68 => ⟨S56x8192x128, .f32⟩
  | 69 => ⟨S56x8192x128, .f32⟩
  | 70 => ⟨S56x8192x128, .f32⟩
  | 71 => ⟨S_, .f32⟩
  | 72 => ⟨S56x8192x128, .f32⟩
  | 73 => ⟨S56x8192x128, .f32⟩
  | 74 => ⟨S_, .f32⟩
  | 75 => ⟨S56x8192x128, .f32⟩
  | 76 => ⟨S56x8192x128, .f32⟩
  | 77 => ⟨S56x1x128x128, .f32⟩
  | 78 => ⟨S56x128x128, .f32⟩
  | 79 => ⟨S56x8192x128, .f32⟩
  | 80 => ⟨S56x1x128, .f32⟩
  | 81 => ⟨S56x128, .f32⟩
  | 82 => ⟨S56x1x128, .f32⟩
  | 83 => ⟨S56x8192x128, .f32⟩
  | 84 => ⟨S56x8192x128, .f32⟩
  | 85 => ⟨S56x8192x128, .f32⟩
  | 86 => ⟨S56x8192x128, .f32⟩
  | 87 => ⟨S_, .f32⟩
  | 88 => ⟨S56x8192x128, .f32⟩
  | 89 => ⟨S56x8192x128, .f32⟩
  | 90 => ⟨S_, .f32⟩
  | 91 => ⟨S56x8192x128, .f32⟩
  | 92 => ⟨S56x8192x128, .f32⟩
  | 93 => ⟨S56x8192x1, .f32⟩
  | 94 => ⟨S56x8192, .f32⟩
  | 95 => ⟨S56x1, .f32⟩
  | 96 => ⟨S56x8192, .f32⟩
  | 97 => ⟨S56x8192, .f32⟩
  | 98 => ⟨S_, .i32⟩
  | 99 => ⟨S56, .i32⟩
  | 100 => ⟨S56, .i32⟩
  | 101 => ⟨S56, .i32⟩
  | 102 => ⟨S56x1, .i32⟩
  | 103 => ⟨S56x8192, .f32⟩
  | 104 => ⟨S56x8192, .f32⟩
  | 105 => ⟨S_, .i32⟩
  | 106 => ⟨S56, .i32⟩
  | 107 => ⟨S56, .i32⟩
  | 108 => ⟨S56, .i32⟩
  | 109 => ⟨S56x1, .i32⟩
  | 110 => ⟨S56x8192, .f32⟩
  | 111 => ⟨S56x8192, .f32⟩
  | 112 => ⟨S_, .i32⟩
  | 113 => ⟨S56, .i32⟩
  | 114 => ⟨S56, .i32⟩
  | 115 => ⟨S56, .i32⟩
  | 116 => ⟨S56x1, .i32⟩
  | 117 => ⟨S56x8192, .f32⟩
  | 118 => ⟨S56x8192, .f32⟩
  | 119 => ⟨S_, .i32⟩
  | 120 => ⟨S56, .i32⟩
  | 121 => ⟨S56, .i32⟩
  | 122 => ⟨S56, .i32⟩
  | 123 => ⟨S56x1, .i32⟩
  | 124 => ⟨S56x8192, .f32⟩
  | 125 => ⟨S56x8192, .f32⟩
  | 126 => ⟨S_, .i32⟩
  | 127 => ⟨S56, .i32⟩
  | _ => ⟨S8192x8, .f32⟩

abbrev hbmTy0_2 (i : Nat) : BufTy := match i % 128 with
  | 0 => ⟨S56, .i32⟩
  | 1 => ⟨S56, .i32⟩
  | 2 => ⟨S56x1, .i32⟩
  | 3 => ⟨S56x8192, .f32⟩
  | 4 => ⟨S56x8192, .f32⟩
  | 5 => ⟨S_, .i32⟩
  | 6 => ⟨S56, .i32⟩
  | 7 => ⟨S56, .i32⟩
  | 8 => ⟨S56, .i32⟩
  | 9 => ⟨S56x1, .i32⟩
  | 10 => ⟨S56x8192, .f32⟩
  | 11 => ⟨S56x8192, .f32⟩
  | 12 => ⟨S1x8192, .f32⟩
  | 13 => ⟨S56x8192, .f32⟩
  | 14 => ⟨S56x8192, .f32⟩
  | 15 => ⟨S_, .f32⟩
  | 16 => ⟨S8192, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .f32⟩
  | 24 => ⟨S8192x1, .f32⟩
  | _ => ⟨S8192x8, .f32⟩

abbrev hbmTy (i : Nat) : BufTy := match i / 128 with
  | 0 => hbmTy0_0 i
  | 1 => hbmTy0_1 i
  | 2 => hbmTy0_2 i
  | _ => ⟨S8192x8, .f32⟩

abbrev bufTy : (tb : Table) → Fin (tcTables nBuf tb) → BufTy
  | .hbm, ⟨i, _⟩ => hbmTy i
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_c_4 : Ref sig .tc := ⟨.hbm, 25, rfl⟩
abbrev main_c_5 : Ref sig .tc := ⟨.hbm, 26, rfl⟩
abbrev main_c_6 : Ref sig .tc := ⟨.hbm, 27, rfl⟩
abbrev main_c_7 : Ref sig .tc := ⟨.hbm, 28, rfl⟩
abbrev main_c_8 : Ref sig .tc := ⟨.hbm, 29, rfl⟩
abbrev main_c_9 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_c_13 : Ref sig .tc := ⟨.hbm, 34, rfl⟩
abbrev main_c_14 : Ref sig .tc := ⟨.hbm, 35, rfl⟩
abbrev main_c_15 : Ref sig .tc := ⟨.hbm, 36, rfl⟩
abbrev main_v0 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_16 : Ref sig .tc := ⟨.hbm, 51, rfl⟩
abbrev main_v13 : Ref sig .tc := ⟨.hbm, 52, rfl⟩
abbrev main_v14 : Ref sig .tc := ⟨.hbm, 53, rfl⟩
abbrev main_cst_17 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_18 : Ref sig .tc := ⟨.hbm, 67, rfl⟩
abbrev main_v27 : Ref sig .tc := ⟨.hbm, 68, rfl⟩
abbrev main_v28 : Ref sig .tc := ⟨.hbm, 69, rfl⟩
abbrev main_cst_19 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_20 : Ref sig .tc := ⟨.hbm, 83, rfl⟩
abbrev main_v41 : Ref sig .tc := ⟨.hbm, 84, rfl⟩
abbrev main_v42 : Ref sig .tc := ⟨.hbm, 85, rfl⟩
abbrev main_cst_21 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_22 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_23 : Ref sig .tc := ⟨.hbm, 110, rfl⟩
abbrev main_v65 : Ref sig .tc := ⟨.hbm, 111, rfl⟩
abbrev main_v66 : Ref sig .tc := ⟨.hbm, 112, rfl⟩
abbrev main_cst_24 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_25 : Ref sig .tc := ⟨.hbm, 126, rfl⟩
abbrev main_v79 : Ref sig .tc := ⟨.hbm, 127, rfl⟩
abbrev main_v80 : Ref sig .tc := ⟨.hbm, 128, rfl⟩
abbrev main_cst_26 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_27 : Ref sig .tc := ⟨.hbm, 142, rfl⟩
abbrev main_v93 : Ref sig .tc := ⟨.hbm, 143, rfl⟩
abbrev main_v94 : Ref sig .tc := ⟨.hbm, 144, rfl⟩
abbrev main_cst_28 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_29 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_30 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_31 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_32 : Ref sig .tc := ⟨.hbm, 183, rfl⟩
abbrev main_v129 : Ref sig .tc := ⟨.hbm, 184, rfl⟩
abbrev main_v130 : Ref sig .tc := ⟨.hbm, 185, rfl⟩
abbrev main_cst_33 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_34 : Ref sig .tc := ⟨.hbm, 199, rfl⟩
abbrev main_v143 : Ref sig .tc := ⟨.hbm, 200, rfl⟩
abbrev main_v144 : Ref sig .tc := ⟨.hbm, 201, rfl⟩
abbrev main_cst_35 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_36 : Ref sig .tc := ⟨.hbm, 215, rfl⟩
abbrev main_v157 : Ref sig .tc := ⟨.hbm, 216, rfl⟩
abbrev main_v158 : Ref sig .tc := ⟨.hbm, 217, rfl⟩
abbrev main_cst_37 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_c_38 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_c_39 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_40 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_c_41 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_c_42 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_c_43 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_cst_44 : Ref sig .tc := ⟨.hbm, 271, rfl⟩
abbrev main_v205 : Ref sig .tc := ⟨.hbm, 272, rfl⟩
abbrev main_v206 : Ref sig .tc := ⟨.hbm, 273, rfl⟩
abbrev main_cst_45 : Ref sig .tc := ⟨.hbm, 274, rfl⟩
abbrev main_v207 : Ref sig .tc := ⟨.hbm, 275, rfl⟩
abbrev main_v208 : Ref sig .tc := ⟨.hbm, 276, rfl⟩
abbrev main_cst_46 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩

abbrev nD : Nat := 1
abbrev τ : Topo := Topo.v7x

variable {F : FTy → Type} [FloatOps F]

class Facts₀ : Prop where
  slices_S8192x8_S8192x1_0_0 : S8192x8.Slices ![0, 0] S8192x1
  shapeCasts_S8192x1_S8192 : S8192x1.ShapeCasts S8192
  bcast_S_S8192 : S_.BroadcastsInDim S8192 (![] : Fin 0 → Fin S8192.rank)
  transposes_S8192x8_S8x8192_1_0 : S8192x8.Transposes [1, 0] S8x8192
  bcast_S8x8192_S8x8192x1_0_1 : S8x8192.BroadcastsInDim S8x8192x1 (![0, 1] : Fin 2 → Fin S8x8192x1.rank)
  bcast_S8x128_S8x1x128_0_2 : S8x128.BroadcastsInDim S8x1x128 (![0, 2] : Fin 2 → Fin S8x1x128.rank)
  bcast_S8x1x128_S8x8192x128_0_1_2 : S8x1x128.BroadcastsInDim S8x8192x128 (![0, 1, 2] : Fin 3 → Fin S8x8192x128.rank)
  bcast_S_S8x8192x128 : S_.BroadcastsInDim S8x8192x128 (![] : Fin 0 → Fin S8x8192x128.rank)
  slices_S8x2x128x128_S8x1x128x128_0_0_0_0 : S8x2x128x128.Slices ![0, 0, 0, 0] S8x1x128x128
  shapeCasts_S8x1x128x128_S8x128x128 : S8x1x128x128.ShapeCasts S8x128x128
  slices_S8x2x128_S8x1x128_0_0_0 : S8x2x128.Slices ![0, 0, 0] S8x1x128
  shapeCasts_S8x1x128_S8x128 : S8x1x128.ShapeCasts S8x128
  slices_S8x2x128x128_S8x1x128x128_0_1_0_0 : S8x2x128x128.Slices ![0, 1, 0, 0] S8x1x128x128
  slices_S8x2x128_S8x1x128_0_1_0 : S8x2x128.Slices ![0, 1, 0] S8x1x128
  shapeCasts_S8x8192x1_S8x8192 : S8x8192x1.ShapeCasts S8x8192
  bcast_S8_S8x1_0 : S8.BroadcastsInDim S8x1 (![0] : Fin 1 → Fin S8x1.rank)
  bcast_S8x1_S8x8192_0_1 : S8x1.BroadcastsInDim S8x8192 (![0, 1] : Fin 2 → Fin S8x8192.rank)
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  bcast_S_S28x2 : S_.BroadcastsInDim S28x2 (![] : Fin 0 → Fin S28x2.rank)
  bcast_S28x2_S28x2x1_0_1 : S28x2.BroadcastsInDim S28x2x1 (![0, 1] : Fin 2 → Fin S28x2x1.rank)
  transposes_S8192x28x2_S28x8192x2_1_0_2 : S8192x28x2.Transposes [1, 0, 2] S28x8192x2
  bcast_S28x128_S28x1x128_0_2 : S28x128.BroadcastsInDim S28x1x128 (![0, 2] : Fin 2 → Fin S28x1x128.rank)
  bcast_S28x1x128_S28x8192x128_0_1_2 : S28x1x128.BroadcastsInDim S28x8192x128 (![0, 1, 2] : Fin 3 → Fin S28x8192x128.rank)
  bcast_S_S28x8192x128 : S_.BroadcastsInDim S28x8192x128 (![] : Fin 0 → Fin S28x8192x128.rank)
  slices_S28x2x128x128_S28x1x128x128_0_0_0_0 : S28x2x128x128.Slices ![0, 0, 0, 0] S28x1x128x128
  shapeCasts_S28x1x128x128_S28x128x128 : S28x1x128x128.ShapeCasts S28x128x128
  slices_S28x2x128_S28x1x128_0_0_0 : S28x2x128.Slices ![0, 0, 0] S28x1x128
  shapeCasts_S28x1x128_S28x128 : S28x1x128.ShapeCasts S28x128
  slices_S28x2x128x128_S28x1x128x128_0_1_0_0 : S28x2x128x128.Slices ![0, 1, 0, 0] S28x1x128x128
  slices_S28x2x128_S28x1x128_0_1_0 : S28x2x128.Slices ![0, 1, 0] S28x1x128
  shapeCasts_S28x8192x1_S28x8192 : S28x8192x1.ShapeCasts S28x8192
  bcast_S28_S28x1_0 : S28.BroadcastsInDim S28x1 (![0] : Fin 1 → Fin S28x1.rank)
  bcast_S28x1_S28x8192_0_1 : S28x1.BroadcastsInDim S28x8192 (![0, 1] : Fin 2 → Fin S28x8192.rank)
  bcast_S_S28 : S_.BroadcastsInDim S28 (![] : Fin 0 → Fin S28.rank)
  bcast_S1x8192_S28x8192_0_1 : S1x8192.BroadcastsInDim S28x8192 (![0, 1] : Fin 2 → Fin S28x8192.rank)
  bcast_S_S56x3 : S_.BroadcastsInDim S56x3 (![] : Fin 0 → Fin S56x3.rank)
  bcast_S56x3_S56x3x1_0_1 : S56x3.BroadcastsInDim S56x3x1 (![0, 1] : Fin 2 → Fin S56x3x1.rank)
  transposes_S8192x56x3_S56x8192x3_1_0_2 : S8192x56x3.Transposes [1, 0, 2] S56x8192x3
  bcast_S56x128_S56x1x128_0_2 : S56x128.BroadcastsInDim S56x1x128 (![0, 2] : Fin 2 → Fin S56x1x128.rank)
  bcast_S56x1x128_S56x8192x128_0_1_2 : S56x1x128.BroadcastsInDim S56x8192x128 (![0, 1, 2] : Fin 3 → Fin S56x8192x128.rank)
  bcast_S_S56x8192x128 : S_.BroadcastsInDim S56x8192x128 (![] : Fin 0 → Fin S56x8192x128.rank)
  slices_S56x2x128x128_S56x1x128x128_0_0_0_0 : S56x2x128x128.Slices ![0, 0, 0, 0] S56x1x128x128
  shapeCasts_S56x1x128x128_S56x128x128 : S56x1x128x128.ShapeCasts S56x128x128
  slices_S56x2x128_S56x1x128_0_0_0 : S56x2x128.Slices ![0, 0, 0] S56x1x128
  shapeCasts_S56x1x128_S56x128 : S56x1x128.ShapeCasts S56x128
  slices_S56x2x128x128_S56x1x128x128_0_1_0_0 : S56x2x128x128.Slices ![0, 1, 0, 0] S56x1x128x128
  slices_S56x2x128_S56x1x128_0_1_0 : S56x2x128.Slices ![0, 1, 0] S56x1x128
  shapeCasts_S56x8192x1_S56x8192 : S56x8192x1.ShapeCasts S56x8192
  bcast_S56_S56x1_0 : S56.BroadcastsInDim S56x1 (![0] : Fin 1 → Fin S56x1.rank)
  bcast_S56x1_S56x8192_0_1 : S56x1.BroadcastsInDim S56x8192 (![0, 1] : Fin 2 → Fin S56x8192.rank)
  bcast_S_S56 : S_.BroadcastsInDim S56 (![] : Fin 0 → Fin S56.rank)
  bcast_S1x8192_S56x8192_0_1 : S1x8192.BroadcastsInDim S56x8192 (![0, 1] : Fin 2 → Fin S56x8192.rank)
  reducesTo_S8x8192_S8192_d0 : S8x8192.ReducesTo [0] S8192
  h_S_ : 0 < S_.numel
  reducesTo_S28x8192_S8192_d0 : S28x8192.ReducesTo [0] S8192
  reducesTo_S56x8192_S8192_d0 : S56x8192.ReducesTo [0] S8192
  bcast_S8192_S8192x1_0 : S8192.BroadcastsInDim S8192x1 (![0] : Fin 1 → Fin S8192x1.rank)
  dot_S8x8192x1_S8x128x1_S8x8192x128_2_2_1_1_0_0_wf : DotDims.WF S8x8192x1 S8x128x1 S8x8192x128 [2] [2] [1] [1] [0] [0]
  dot_S8x8192x128_S8x128x128_S8x8192x128_2_2_1_1_0_0_wf : DotDims.WF S8x8192x128 S8x128x128 S8x8192x128 [2] [2] [1] [1] [0] [0]
  dot_S8x8192x128_S8x1x128_S8x8192x1_2_2_1_1_0_0_wf : DotDims.WF S8x8192x128 S8x1x128 S8x8192x1 [2] [2] [1] [1] [0] [0]
  gather_S8192x8_S28x2x1_S8192x28x2_0_1_n_n_1_2_81921_wf : GatherDims.WF S8192x8 S28x2x1 S8192x28x2 [0] [1] [] [1] [] 2 ![8192, 1]
  dot_S28x8192x2_S28x128x2_S28x8192x128_2_2_1_1_0_0_wf : DotDims.WF S28x8192x2 S28x128x2 S28x8192x128 [2] [2] [1] [1] [0] [0]
  dot_S28x8192x128_S28x128x128_S28x8192x128_2_2_1_1_0_0_wf : DotDims.WF S28x8192x128 S28x128x128 S28x8192x128 [2] [2] [1] [1] [0] [0]
  dot_S28x8192x128_S28x1x128_S28x8192x1_2_2_1_1_0_0_wf : DotDims.WF S28x8192x128 S28x1x128 S28x8192x1 [2] [2] [1] [1] [0] [0]
  gather_S8x8192_S28x1_S28x8192_1_0_n_n_0_1_18192_wf : GatherDims.WF S8x8192 S28x1 S28x8192 [1] [0] [] [0] [] 1 ![1, 8192]
  gather_S8192x8_S56x3x1_S8192x56x3_0_1_n_n_1_2_81921_wf : GatherDims.WF S8192x8 S56x3x1 S8192x56x3 [0] [1] [] [1] [] 2 ![8192, 1]
  dot_S56x8192x3_S56x128x3_S56x8192x128_2_2_1_1_0_0_wf : DotDims.WF S56x8192x3 S56x128x3 S56x8192x128 [2] [2] [1] [1] [0] [0]
  dot_S56x8192x128_S56x128x128_S56x8192x128_2_2_1_1_0_0_wf : DotDims.WF S56x8192x128 S56x128x128 S56x8192x128 [2] [2] [1] [1] [0] [0]
  dot_S56x8192x128_S56x1x128_S56x8192x1_2_2_1_1_0_0_wf : DotDims.WF S56x8192x128 S56x1x128 S56x8192x1 [2] [2] [1] [1] [0] [0]
  gather_S28x8192_S56x1_S56x8192_1_0_n_n_0_1_18192_wf : GatherDims.WF S28x8192 S56x1 S56x8192 [1] [0] [] [0] [] 1 ![1, 8192]
  gather_S8x8192_S56x1_S56x8192_1_0_n_n_0_1_18192_wf : GatherDims.WF S8x8192 S56x1 S56x8192 [1] [0] [] [0] [] 1 ![1, 8192]

variable [Facts₀]

def dot_S8x8192x1_S8x128x1_S8x8192x128_2_2_1_1_0_0 : DotDims S8x8192x1 S8x128x1 S8x8192x128 where
  lhsContracting := [2]
  rhsContracting := [2]
  lhsNonContracting := [1]
  rhsNonContracting := [1]
  lhsBatch := [0]
  rhsBatch := [0]
  wf := dot_S8x8192x1_S8x128x1_S8x8192x128_2_2_1_1_0_0_wf
def dot_S8x8192x128_S8x128x128_S8x8192x128_2_2_1_1_0_0 : DotDims S8x8192x128 S8x128x128 S8x8192x128 where
  lhsContracting := [2]
  rhsContracting := [2]
  lhsNonContracting := [1]
  rhsNonContracting := [1]
  lhsBatch := [0]
  rhsBatch := [0]
  wf := dot_S8x8192x128_S8x128x128_S8x8192x128_2_2_1_1_0_0_wf
def dot_S8x8192x128_S8x1x128_S8x8192x1_2_2_1_1_0_0 : DotDims S8x8192x128 S8x1x128 S8x8192x1 where
  lhsContracting := [2]
  rhsContracting := [2]
  lhsNonContracting := [1]
  rhsNonContracting := [1]
  lhsBatch := [0]
  rhsBatch := [0]
  wf := dot_S8x8192x128_S8x1x128_S8x8192x1_2_2_1_1_0_0_wf
def gather_S8192x8_S28x2x1_S8192x28x2_0_1_n_n_1_2_81921 : GatherDims S8192x8 S28x2x1 S8192x28x2 where
  offsetDims := [0]
  collapsedSliceDims := [1]
  operandBatchingDims := []
  startIndicesBatchingDims := []
  startIndexMap := [1]
  indexVectorDim := 2
  sliceSizes := ![8192, 1]
  wf := gather_S8192x8_S28x2x1_S8192x28x2_0_1_n_n_1_2_81921_wf
def dot_S28x8192x2_S28x128x2_S28x8192x128_2_2_1_1_0_0 : DotDims S28x8192x2 S28x128x2 S28x8192x128 where
  lhsContracting := [2]
  rhsContracting := [2]
  lhsNonContracting := [1]
  rhsNonContracting := [1]
  lhsBatch := [0]
  rhsBatch := [0]
  wf := dot_S28x8192x2_S28x128x2_S28x8192x128_2_2_1_1_0_0_wf
def dot_S28x8192x128_S28x128x128_S28x8192x128_2_2_1_1_0_0 : DotDims S28x8192x128 S28x128x128 S28x8192x128 where
  lhsContracting := [2]
  rhsContracting := [2]
  lhsNonContracting := [1]
  rhsNonContracting := [1]
  lhsBatch := [0]
  rhsBatch := [0]
  wf := dot_S28x8192x128_S28x128x128_S28x8192x128_2_2_1_1_0_0_wf
def dot_S28x8192x128_S28x1x128_S28x8192x1_2_2_1_1_0_0 : DotDims S28x8192x128 S28x1x128 S28x8192x1 where
  lhsContracting := [2]
  rhsContracting := [2]
  lhsNonContracting := [1]
  rhsNonContracting := [1]
  lhsBatch := [0]
  rhsBatch := [0]
  wf := dot_S28x8192x128_S28x1x128_S28x8192x1_2_2_1_1_0_0_wf
def gather_S8x8192_S28x1_S28x8192_1_0_n_n_0_1_18192 : GatherDims S8x8192 S28x1 S28x8192 where
  offsetDims := [1]
  collapsedSliceDims := [0]
  operandBatchingDims := []
  startIndicesBatchingDims := []
  startIndexMap := [0]
  indexVectorDim := 1
  sliceSizes := ![1, 8192]
  wf := gather_S8x8192_S28x1_S28x8192_1_0_n_n_0_1_18192_wf
def gather_S8192x8_S56x3x1_S8192x56x3_0_1_n_n_1_2_81921 : GatherDims S8192x8 S56x3x1 S8192x56x3 where
  offsetDims := [0]
  collapsedSliceDims := [1]
  operandBatchingDims := []
  startIndicesBatchingDims := []
  startIndexMap := [1]
  indexVectorDim := 2
  sliceSizes := ![8192, 1]
  wf := gather_S8192x8_S56x3x1_S8192x56x3_0_1_n_n_1_2_81921_wf
def dot_S56x8192x3_S56x128x3_S56x8192x128_2_2_1_1_0_0 : DotDims S56x8192x3 S56x128x3 S56x8192x128 where
  lhsContracting := [2]
  rhsContracting := [2]
  lhsNonContracting := [1]
  rhsNonContracting := [1]
  lhsBatch := [0]
  rhsBatch := [0]
  wf := dot_S56x8192x3_S56x128x3_S56x8192x128_2_2_1_1_0_0_wf
def dot_S56x8192x128_S56x128x128_S56x8192x128_2_2_1_1_0_0 : DotDims S56x8192x128 S56x128x128 S56x8192x128 where
  lhsContracting := [2]
  rhsContracting := [2]
  lhsNonContracting := [1]
  rhsNonContracting := [1]
  lhsBatch := [0]
  rhsBatch := [0]
  wf := dot_S56x8192x128_S56x128x128_S56x8192x128_2_2_1_1_0_0_wf
def dot_S56x8192x128_S56x1x128_S56x8192x1_2_2_1_1_0_0 : DotDims S56x8192x128 S56x1x128 S56x8192x1 where
  lhsContracting := [2]
  rhsContracting := [2]
  lhsNonContracting := [1]
  rhsNonContracting := [1]
  lhsBatch := [0]
  rhsBatch := [0]
  wf := dot_S56x8192x128_S56x1x128_S56x8192x1_2_2_1_1_0_0_wf
def gather_S28x8192_S56x1_S56x8192_1_0_n_n_0_1_18192 : GatherDims S28x8192 S56x1 S56x8192 where
  offsetDims := [1]
  collapsedSliceDims := [0]
  operandBatchingDims := []
  startIndicesBatchingDims := []
  startIndexMap := [0]
  indexVectorDim := 1
  sliceSizes := ![1, 8192]
  wf := gather_S28x8192_S56x1_S56x8192_1_0_n_n_0_1_18192_wf
def gather_S8x8192_S56x1_S56x8192_1_0_n_n_0_1_18192 : GatherDims S8x8192 S56x1 S56x8192 where
  offsetDims := [1]
  collapsedSliceDims := [0]
  operandBatchingDims := []
  startIndicesBatchingDims := []
  startIndexMap := [0]
  indexVectorDim := 1
  sliceSizes := ![1, 8192]
  wf := gather_S8x8192_S56x1_S56x8192_1_0_n_n_0_1_18192_wf

class Facts : Prop extends Facts₀ where

variable [Facts]
-- ==== Proof.KRun.lean ====
/-
  The idealized kernel's run with its result NAMED.

  @main of the kernel is seven segments: a stretch of host operations, the first grouped-MLP kernel launched over its
  grid, a second stretch, the second kernel, a third stretch, the third kernel, and a last stretch.  The buffer
  contents at each boundary are a fold through the segments from the launch memory: a host stretch applies its
  operations in order, a kernel region replaces its output array by what its grid points wrote back and leaves every
  other buffer alone.  `W7 m ρ c` is the last boundary's contents on core `c`.

  Every weakly fair execution terminates without fault with every unscoped buffer at `W7`; read at the result buffer
  this names the program's result, and read at an argument buffer it is the launch contents (no segment writes an
  argument).
-/
import proofs.«100548_j68015102099709_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and every argument array as launched. -/
theorem run_named : θ_run defs (onTc (τ := τ) (main (F := F))) ⟨m, fun _ => 0, ρ⟩ (fun r => ∀ c : Dev nD,
      r.2.mem ((c.tc : Thread nD τ).loc main_v83) = W7 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v83 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c)⟩)

end Cert.KernelIdeal.KRun

end
-- ==== Proof.RefRun.lean ====
/- The reference program's @main as a LIST of its 261 host operations, cut into seven consecutive stretches, and its
   run: every weakly fair execution terminates with each buffer of the TensorCore at the fold `after ops` of the
   operations' results over its launch contents; the twenty argument buffers are written by no operation and so
   end unchanged. -/
import proofs.«100548_j68015102099709_1_alg».proof.Proof.Gen.ReferenceIdeal
import proofs.«100548_j68015102099709_1_alg».proof.Proof.Gen.Pre_finite_inputs
import proofs.«100548_j68015102099709_1_alg».proof.Defs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order

Each entry is the operation of one printed statement; the seven lists are consecutive stretches of the program, each
with the list of the buffers its statements write and the inclusion of its operations' buffers in the TensorCore's
references. -/

-- table: begin
/-- Statements 1 … 25 of @main (main_c … main_v6), in order. -/
abbrev opsA : List (HloOp τ sig (Elt F)) :=
  [ StableHlo.nullary main_c (fun i => lit0 (S28x2.rowMajor i)),
    StableHlo.nullary main_c_0 (constantI S28x2 1 0#1),
    StableHlo.nullary main_c_1 (fun i => lit1 (S28.rowMajor i)),
    StableHlo.nullary main_c_2 (constantI S28 1 0#1),
    StableHlo.nullary main_c_3 (fun i => lit2 (S28.rowMajor i)),
    StableHlo.nullary main_c_4 (constantI S28 1 0#1),
    StableHlo.nullary main_c_5 (fun i => lit3 (S56x3.rowMajor i)),
    StableHlo.nullary main_c_6 (constantI S56x3 1 0#1),
    StableHlo.nullary main_c_7 (fun i => lit4 (S56.rowMajor i)),
    StableHlo.nullary main_c_8 (constantI S56 1 0#1),
    StableHlo.nullary main_c_9 (fun i => lit5 (S56.rowMajor i)),
    StableHlo.nullary main_c_10 (constantI S56 1 0#1),
    StableHlo.nullary main_c_11 (fun i => lit6 (S56.rowMajor i)),
    StableHlo.nullary main_c_12 (constantI S56 1 0#1),
    StableHlo.nullary main_c_13 (constantI S56 1 0#1),
    StableHlo.nullary main_c_14 (constantI S56 1 0#1),
    StableHlo.nullary main_c_15 (constantI S56 1 0#1),
    StableHlo.unary main_arg0 main_v0 ((extractStridedSlice S8192x1 ![0, 0] · slices_S8192x8_S8192x1_0_0) : (⟨S8192x8, .f32⟩ : BufTy).Contents (Elt F) → (⟨S8192x1, .f32⟩ : BufTy).Contents (Elt F)),
    StableHlo.reshape main_v0 main_v1 rfl shapeCasts_S8192x1_S8192,
    StableHlo.nullary main_cst (constant S_ .f32 0x3F800000#32),
    StableHlo.unary main_cst main_v2 (broadcastInDim S8192 ![] bcast_S_S8192 : (⟨S_, .f32⟩ : BufTy).Contents (Elt F) → (⟨S8192, .f32⟩ : BufTy).Contents (Elt F)),
    StableHlo.unary main_arg1 main_v3 (broadcastInDim S8192 ![] bcast_S_S8192 : (⟨S_, .f32⟩ : BufTy).Contents (Elt F) → (⟨S8192, .f32⟩ : BufTy).Contents (Elt F)),
    StableHlo.binary main_v3 main_v2 main_v4 (mulf : (⟨S8192, .f32⟩ : BufTy).Contents (Elt F) → (⟨S8192, .f32⟩ : BufTy).Contents (Elt F) → (⟨S8192, .f32⟩ : BufTy).Contents (Elt F)),
    StableHlo.unary main_arg0 main_v5 ((transpose S8x8192 [1, 0] · transposes_S8192x8_S8x8192_1_0) : (⟨S8192x8, .f32⟩ : BufTy).Contents (Elt F) → (⟨S8x8192, .f32⟩ : BufTy).Contents (Elt F)),
    StableHlo.unary main_v5 main_v6 (broadcastInDim S8x8192x1 ![0, 1] bcast_S8x8192_S8x8192x1_0_1 : (⟨S8x8192, .f32⟩ : BufTy).Contents (Elt F) → (⟨S8x8192x1, .f32⟩ : BufTy).Contents (Elt F)) ]
/-- The result buffers of statements 1 … 25, in order. -/
abbrev wrA : List (Ref sig .tc) :=
  [main_c, main_c_0, main_c_1, main_c_2, main_c_3, main_c_4, main_c_5, main_c_6, main_c_7, main_c_8, main_c_9, main_c_10, main_c_11, main_c_12, main_c_13, main_c_14, main_c_15, main_v0, main_v1, main_cst, main_v2, main_v3, main_v4, main_v5, main_v6]
set_option maxRecDepth 8192 in
theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., reshape_bufs_sub .., nullary_bufs_sub .., unary_bufs_sub .., unary_bufs_sub .., binary_bufs_sub .., unary_bufs_sub .., unary_bufs_sub ..⟩

/-- Statements 26 … 74 of @main (main_v7 … main_v49), in order. -/
abbrev opsM1 : List (HloOp τ sig (Elt F)) :=
  [ StableHlo.binary main_v6 main_arg2 main_v7 ((fun l r => Host.dotGeneral dot_S8x8192x1_S8x128x1_S8x8192x128_2_2_1_1_0_0 none l r) : (⟨S8x8192x1, .f32⟩ : BufTy).Contents (Elt F) → (⟨S8x128x1, .f32⟩ : BufTy).Contents (Elt F) → (⟨S8x8192x128, .f32⟩ : BufTy).Contents (Elt F)),
    StableHlo.unary main_arg3 main_v8 (broadcastInDim S8x1x128 ![0, 2] bcast_S8x128_S8x1x128_0_2 : (⟨S8x128, .f32⟩ : BufTy).Contents (Elt F) → (⟨S8x1x128, .f32⟩ : BufTy).Contents (Elt F)),
    StableHlo.unary main_v8 main_v9 (broadcastInDim S8x8192x128 ![0, 1, 2] bcast_S8x1x128_S8x8192x128_0_1_2 : (⟨S8x1x128, .f32⟩ : BufTy).Contents (Elt F) → (⟨S8x8192x128, .f32⟩ : BufTy).Contents (Elt F)),
    StableHlo.binary main_v7 main_v9 main_v10 (addf : (⟨S8x8192x128, .f32⟩ : BufTy).Contents (Elt F) → (⟨S8x8192x128, .f32⟩ : BufTy).Contents (Elt F) → (⟨S8x8192x128, .f32⟩ : BufTy).Contents (Elt F)),
    StableHlo.unary main_v10 main_v11 (Host.negf : (⟨S8x8192x128, .f32⟩ : BufTy).Contents (Elt F) → (⟨S8x8192x128, .f32⟩ : BufTy).Contents (Elt F)),
    StableHlo.unary main_v11 main_v12 (Host.exp : (⟨S8x8192x128, .f32⟩ : BufTy).Contents (Elt F) → (⟨S8x8192x128, .f32⟩ : BufTy).Contents (Elt F)),
    StableHlo.nullary main_cst_16 (constant S_ .f32 0x3F800000#32),
    StableHlo.unary main_cst_16 main_v13 (broadcastInDim S8x8192x128 ![] bcast_S_S8x8192x128 : (⟨S_, .f32⟩ : BufTy).Contents (Elt F) → (⟨S8x8192x128, .f32⟩ : BufTy).Contents (Elt F)),
    StableHlo.binary main_v13 main_v12 main_v14 (addf : (⟨S8x8192x128, .f32⟩ : BufTy).Contents (Elt F) → (⟨S8x8192x128, .f32⟩ : BufTy).Contents (Elt F) → (⟨S8x8192x128, .f32⟩ : BufTy).Contents (Elt F)),
    StableHlo.nullary main_cst_17 (constant S_ .f32 0x3F800000#32),
    StableHlo.unary main_cst_17 main_v15 (broadcastInDim S8x8192x128 ![] bcast_S_S8x8192x128 : (⟨S_, .f32⟩ : BufTy).Contents (Elt F) → (⟨S8x8192x128, .f32⟩ : BufTy).Contents (Elt F)),
    StableHlo.binary main_v15 main_v14 main_v16 (Host.divf : (⟨S8x8192x128, .f32⟩ : BufTy).Contents (Elt F) → (⟨S8x8192x128, .f32⟩ : BufTy).Contents (Elt F) → (⟨S8x8192x128, .f32⟩ : BufTy).Contents (Elt F)),
    StableHlo.unary main_arg4 main_v17 ((extractStridedSlice S8x1x128x128 ![0, 0, 0, 0] · slices_S8x2x128x128_S8x1x128x128_0_0_0_0) : (⟨S8x2x128x128, .f32⟩ : BufTy).Contents (Elt F) → (⟨S8x1x128x128, .f32⟩ : BufTy).Contents (Elt F)),
    StableHlo.reshape main_v17 main_v18 rfl shapeCasts_S8x1x128x128_S8x128x128,
    StableHlo.binary main_v16 main_v18 main_v19 ((fun l r => Host.dotGeneral dot_S8x8192x128_S8x128x128_S8x8192x128_2_2_1_1_0_0 none l r) : (⟨S8x8192x128, .f32⟩ : BufTy).Contents (Elt F) → (⟨S8x128x128, .f32⟩ : BufTy).Contents (Elt F) → (⟨S8x8192x128, .f32⟩ : BufTy).Contents (Elt F)),
    StableHlo.unary main_arg5 main_v20 ((extractStridedSlice S8x1x128 ![0, 0, 0] · slices_S8x2x128_S8x1x128_0_0_0) : (⟨S8x2x128, .f32⟩ : BufTy).Contents (Elt F) → (⟨S8x1x128, .f32⟩ : BufTy).Contents (Elt F)),
    StableHlo.reshape main_v20 main_v21 rfl shapeCasts_S8x1x128_S8x128,
    StableHlo.unary main_v21 main_v22 (broadcastInDim S8x1x128 ![0, 2] bcast_S8x128_S8x1x128_0_2 : (⟨S8x128, .f32⟩ : BufTy).Contents (Elt F) → (⟨S8x1x128, .f32⟩ : BufTy).Contents (Elt F)),
    StableHlo.unary main_v22 main_v23 (broadcastInDim S8x8192x128 ![0, 1, 2] bcast_S8x1x128_S8x8192x128_0_1_2 : (⟨S8x1x128, .f32⟩ : BufTy).Contents (Elt F) → (⟨S8x8192x128, .f32⟩ : BufTy).Contents (Elt F)),
    StableHlo.binary main_v19 main_v23 main_v24 (addf : (⟨S8x8192x128, .f32⟩ : BufTy).Contents (Elt F) → (⟨S8x8192x128, .f32⟩ : BufTy).Contents (Elt F) → (⟨S8x8192x128, .f32⟩ : BufTy).Contents (Elt F)),
    StableHlo.unary main_v24 main_v25 (Host.negf : (⟨S8x8192x128, .f32⟩ : BufTy).Contents (Elt F) → (⟨S8x8192x128, .f32⟩ : BufTy).Contents (Elt F)),
    StableHlo.unary main_v25 main_v26 (Host.exp : (⟨S8x8192x128, .f32⟩ : BufTy).Contents (Elt F) → (⟨S8x8192x128, .f32⟩ : BufTy).Contents (Elt F)),
    StableHlo.nullary main_cst_18 (constant S_ .f32 0x3F800000#32),
    StableHlo.unary main_cst_18 main_v27 (broadcastInDim S8x8192x128 ![] bcast_S_S8x8192x128 : (⟨S_, .f32⟩ : BufTy).Contents (Elt F) → (⟨S8x8192x128, .f32⟩ : BufTy).Contents (Elt F)),
    StableHlo.binary main_v27 main_v26 main_v28 (addf : (⟨S8x8192x128, .f32⟩ : BufTy).Contents (Elt F) → (⟨S8x8192x128, .f32⟩ : BufTy).Contents (Elt F) → (⟨S8x8192x128, .f32⟩ : BufTy).Contents (Elt F)),
    StableHlo.nullary main_cst_19 (constant S_ .f32 0x3F800000#32),
    StableHlo.unary main_cst_19 main_v29 (broadcastInDim S8x8192x128 ![] bcast_S_S8x8192x128 : (⟨S_, .f32⟩ : BufTy).Contents (Elt F) → (⟨S8x8192x128, .f32⟩ : BufTy).Contents (Elt F)),
    StableHlo.binary main_v29 main_v28 main_v30 (Host.divf : (⟨S8x8192x128, .f32⟩ : BufTy).Contents (Elt F) → (⟨S8x8192x128, .f32⟩ : BufTy).Contents (Elt F) → (⟨S8x8192x128, .f32⟩ : BufTy).Contents (Elt F)),
    StableHlo.unary main_arg4 main_v31 ((extractStridedSlice S8x1x128x128 ![0, 1, 0, 0] · slices_S8x2x128x128_S8x1x128x128_0_1_0_0) : (⟨S8x2x128x128, .f32⟩ : BufTy).Contents (Elt F) → (⟨S8x1x128x128, .f32⟩ : BufTy).Contents (Elt F)),
    StableHlo.reshape main_v31 main_v32 rfl shapeCasts_S8x1x128x128_S8x128x128,
    StableHlo.binary main_v30 main_v32 main_v33 ((fun l r => Host.dotGeneral dot_S8x8192x128_S8x128x128_S8x8192x128_2_2_1_1_0_0 none l r) : (⟨S8x8192x128, .f32⟩ : BufTy).Contents (Elt F) → (⟨S8x128x128, .f32⟩ : BufTy).Contents (Elt F) → (⟨S8x8192x128, .f32⟩ : BufTy).Contents (Elt F)),
    StableHlo.unary main_arg5 main_v34 ((extractStridedSlice S8x1x128 ![0, 1, 0] · slices_S8x2x128_S8x1x128_0_1_0) : (⟨S8x2x128, .f32⟩ : BufTy).Contents (Elt F) → (⟨S8x1x128, .f32⟩ : BufTy).Contents (Elt F)),
    StableHlo.reshape main_v34 main_v35 rfl shapeCasts_S8x1x128_S8x128,
    StableHlo.unary main_v35 main_v36 (broadcastInDim S8x1x128 ![0, 2] bcast_S8x128_S8x1x128_0_2 : (⟨S8x128, .f32⟩ : BufTy).Contents (Elt F) → (⟨S8x1x128, .f32⟩ : BufTy).Contents (Elt F)),
    StableHlo.unary main_v36 main_v37 (broadcastInDim S8x8192x128 ![0, 1, 2] bcast_S8x1x128_S8x8192x128_0_1_2 : (⟨S8x1x128, .f32⟩ : BufTy).Contents (Elt F) → (⟨S8x8192x128, .f32⟩ : BufTy).Contents (Elt F)),
    StableHlo.binary main_v33 main_v37 main_v38 (addf : (⟨S8x8192x128, .f32⟩ : BufTy).Contents (Elt F) → (⟨S8x8192x128, .f32⟩ : BufTy).Contents (Elt F) → (⟨S8x8192x128, .f32⟩ : BufTy).Contents (Elt F)),
    StableHlo.unary main_v38 main_v39 (Host.negf : (⟨S8x8192x128, .f32⟩ : BufTy).Contents (Elt F) → (⟨S8x8192x128, .f32⟩ : BufTy).Contents (Elt F)),
    StableHlo.unary main_v39 main_v40 (Host.exp : (⟨S8x8192x128, .f32⟩ : BufTy).Contents (Elt F) → (⟨S8x8192x128, .f32⟩ : BufTy).Contents (Elt F)),
    StableHlo.nullary main_cst_20 (constant S_ .f32 0x3F800000#32),
    StableHlo.unary main_cst_20 main_v41 (broadcastInDim S8x8192x128 ![] bcast_S_S8x8192x128 : (⟨S_, .f32⟩ : BufTy).Contents (Elt F) → (⟨S8x8192x128, .f32⟩ : BufTy).Contents (Elt F)),
    StableHlo.binary main_v41 main_v40 main_v42 (addf : (⟨S8x8192x128, .f32⟩ : BufTy).Contents (Elt F) → (⟨S8x8192x128, .f32⟩ : BufTy).Contents (Elt F) → (⟨S8x8192x128, .f32⟩ : BufTy).Contents (Elt F)),
    StableHlo.nullary main_cst_21 (constant S_ .f32 0x3F800000#32),
    StableHlo.unary main_cst_21 main_v43 (broadcastInDim S8x8192x128 ![] bcast_S_S8x8192x128 : (⟨S_, .f32⟩ : BufTy).Contents (Elt F) → (⟨S8x8192x128, .f32⟩ : BufTy).Contents (Elt F)),
    StableHlo.binary main_v43 main_v42 main_v44 (Host.divf : (⟨S8x8192x128, .f32⟩ : BufTy).Contents (Elt F) → (⟨S8x8192x128, .f32⟩ : BufTy).Contents (Elt F) → (⟨S8x8192x128, .f32⟩ : BufTy).Contents (Elt F)),
    StableHlo.binary main_v44 main_arg6 main_v45 ((fun l r => Host.dotGeneral dot_S8x8192x128_S8x1x128_S8x8192x1_2_2_1_1_0_0 none l r) : (⟨S8x8192x128, .f32⟩ : BufTy).Contents (Elt F) → (⟨S8x1x128, .f32⟩ : BufTy).Contents (Elt F) → (⟨S8x8192x1, .f32⟩ : BufTy).Contents (Elt F)),
    StableHlo.reshape main_v45 main_v46 rfl shapeCasts_S8x8192x1_S8x8192,
    StableHlo.unary main_arg7 main_v47 (broadcastInDim S8x1 ![0] bcast_S8_S8x1_0 : (⟨S8, .f32⟩ : BufTy).Contents (Elt F) → (⟨S8x1, .f32⟩ : BufTy).Contents (Elt F)),
    StableHlo.unary main_v47 main_v48 (broadcastInDim S8x8192 ![0, 1] bcast_S8x1_S8x8192_0_1 : (⟨S8x1, .f32⟩ : BufTy).Contents (Elt F) → (⟨S8x8192, .f32⟩ : BufTy).Contents (Elt F)),
    StableHlo.binary main_v46 main_v48 main_v49 (addf : (⟨S8x8192, .f32⟩ : BufTy).Contents (Elt F) → (⟨S8x8192, .f32⟩ : BufTy).Contents (Elt F) → (⟨S8x8192, .f32⟩ : BufTy).Contents (Elt F)) ]
/-- The result buffers of statements 26 … 74, in order. -/
abbrev wrM1 : List (Ref sig .tc) :=
  [main_v7, main_v8, main_v9, main_v10, main_v11, main_v12, main_cst_16, main_v13, main_v14, main_cst_17, main_v15, main_v16, main_v17, main_v18, main_v19, main_v20, main_v21, main_v22, main_v23, main_v24, main_v25, main_v26, main_cst_18, main_v27, main_v28, main_cst_19, main_v29, main_v30, main_v31, main_v32, main_v33, main_v34, main_v35, main_v36, main_v37, main_v38, main_v39, main_v40, main_cst_20, main_v41, main_v42, main_cst_21, main_v43, main_v44, main_v45, main_v46, main_v47, main_v48, main_v49]
set_option maxRecDepth 8192 in
theorem opsM1_sub : (opsM1 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., unary_bufs_sub .., unary_bufs_sub .., binary_bufs_sub ..⟩

/-- Statements 75 … 84 of @main (main_v50 … main_v58), in order. -/
abbrev opsB : List (HloOp τ sig (Elt F)) :=
  [ StableHlo.unary main_v4 main_v50 (broadcastInDim S1x8192 ![1] bcast_S8192_S1x8192_1 : (⟨S8192, .f32⟩ : BufTy).Contents (Elt F) → (⟨S1x8192, .f32⟩ : BufTy).Contents (Elt F)),
    StableHlo.unary main_v50 main_v51 (broadcastInDim S8x8192 ![0, 1] bcast_S1x8192_S8x8192_0_1 : (⟨S1x8192, .f32⟩ : BufTy).Contents (Elt F) → (⟨S8x8192, .f32⟩ : BufTy).Contents (Elt F)),
    StableHlo.binary main_v49 main_v51 main_v52 (subf : (⟨S8x8192, .f32⟩ : BufTy).Contents (Elt F) → (⟨S8x8192, .f32⟩ : BufTy).Contents (Elt F) → (⟨S8x8192, .f32⟩ : BufTy).Contents (Elt F)),
    StableHlo.nullary main_c_22 (constantI S_ 32 8#32),
    StableHlo.unary main_c_22 main_v53 (broadcastInDim S28x2 ![] bcast_S_S28x2 : (⟨S_, .i32⟩ : BufTy).Contents (Elt F) → (⟨S28x2, .i32⟩ : BufTy).Contents (Elt F)),
    StableHlo.binary main_c main_v53 main_v54 (addi : (⟨S28x2, .i32⟩ : BufTy).Contents (Elt F) → (⟨S28x2, .i32⟩ : BufTy).Contents (Elt F) → (⟨S28x2, .i32⟩ : BufTy).Contents (Elt F)),
    StableHlo.ternary main_c_0 main_v54 main_c main_v55 (select : (⟨S28x2, .i1⟩ : BufTy).Contents (Elt F) → (⟨S28x2, .i32⟩ : BufTy).Contents (Elt F) → (⟨S28x2, .i32⟩ : BufTy).Contents (Elt F) → (⟨S28x2, .i32⟩ : BufTy).Contents (Elt F)),
    StableHlo.unary main_v55 main_v56 (broadcastInDim S28x2x1 ![0, 1] bcast_S28x2_S28x2x1_0_1 : (⟨S28x2, .i32⟩ : BufTy).Contents (Elt F) → (⟨S28x2x1, .i32⟩ : BufTy).Contents (Elt F)),
    StableHlo.binary main_arg0 main_v56 main_v57 ((fun x i => Host.gather gather_S8192x8_S28x2x1_S8192x28x2_0_1_n_n_1_2_81921 x i) : (⟨S8192x8, .f32⟩ : BufTy).Contents (Elt F) → (⟨S28x2x1, .i32⟩ : BufTy).Contents (Elt F) → (⟨S8192x28x2, .f32⟩ : BufTy).Contents (Elt F)),
    StableHlo.unary main_v57 main_v58 ((transpose S28x8192x2 [1, 0, 2] · transposes_S8192x28x2_S28x8192x2_1_0_2) : (⟨S8192x28x2, .f32⟩ : BufTy).Contents (Elt F) → (⟨S28x8192x2, .f32⟩ : BufTy).Contents (Elt F)) ]
/-- The result buffers of statements 75 … 84, in order. -/
abbrev wrB : List (Ref sig .tc) :=
  [main_v50, main_v51, main_v52, main_c_22, main_v53, main_v54, main_v55, main_v56, main_v57, main_v58]
set_option maxRecDepth 8192 in
theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub .., ternary_bufs_sub .., unary_bufs_sub .., binary_bufs_sub .., unary_bufs_sub ..⟩

/-- Statements 85 … 133 of @main (main_v59 … main_v101), in order. -/
abbrev opsM2 : List (HloOp τ sig (Elt F)) :=
  [ StableHlo.binary main_v58 main_arg8 main_v59 ((fun l r => Host.dotGeneral dot_S28x8192x2_S28x128x2_S28x8192x128_2_2_1_1_0_0 none l r) : (⟨S28x8192x2, .f32⟩ : BufTy).Contents (Elt F) → (⟨S28x128x2, .f32⟩ : BufTy).Contents (Elt F) → (⟨S28x8192x128, .f32⟩ : BufTy).Contents (Elt F)),
    StableHlo.unary main_arg9 main_v60 (broadcastInDim S28x1x128 ![0, 2] bcast_S28x128_S28x1x128_0_2 : (⟨S28x128, .f32⟩ : BufTy).Contents (Elt F) → (⟨S28x1x128, .f32⟩ : BufTy).Contents (Elt F)),
    StableHlo.unary main_v60 main_v61 (broadcastInDim S28x8192x128 ![0, 1, 2] bcast_S28x1x128_S28x8192x128_0_1_2 : (⟨S28x1x128, .f32⟩ : BufTy).Contents (Elt F) → (⟨S28x8192x128, .f32⟩ : BufTy).Contents (Elt F)),
    StableHlo.binary main_v59 main_v61 main_v62 (addf : (⟨S28x8192x128, .f32⟩ : BufTy).Contents (Elt F) → (⟨S28x8192x128, .f32⟩ : BufTy).Contents (Elt F) → (⟨S28x8192x128, .f32⟩ : BufTy).Contents (Elt F)),
    StableHlo.unary main_v62 main_v63 (Host.negf : (⟨S28x8192x128, .f32⟩ : BufTy).Contents (Elt F) → (⟨S28x8192x128, .f32⟩ : BufTy).Contents (Elt F)),
    StableHlo.unary main_v63 main_v64 (Host.exp : (⟨S28x8192x128, .f32⟩ : BufTy).Contents (Elt F) → (⟨S28x8192x128, .f32⟩ : BufTy).Contents (Elt F)),
    StableHlo.nullary main_cst_23 (constant S_ .f32 0x3F800000#32),
    StableHlo.unary main_cst_23 main_v65 (broadcastInDim S28x8192x128 ![] bcast_S_S28x8192x128 : (⟨S_, .f32⟩ : BufTy).Contents (Elt F) → (⟨S28x8192x128, .f32⟩ : BufTy).Contents (Elt F)),
    StableHlo.binary main_v65 main_v64 main_v66 (addf : (⟨S28x8192x128, .f32⟩ : BufTy).Contents (Elt F) → (⟨S28x8192x128, .f32⟩ : BufTy).Contents (Elt F) → (⟨S28x8192x128, .f32⟩ : BufTy).Contents (Elt F)),
    StableHlo.nullary main_cst_24 (constant S_ .f32 0x3F800000#32),
    StableHlo.unary main_cst_24 main_v67 (broadcastInDim S28x8192x128 ![] bcast_S_S28x8192x128 : (⟨S_, .f32⟩ : BufTy).Contents (Elt F) → (⟨S28x8192x128, .f32⟩ : BufTy).Contents (Elt F)),
    StableHlo.binary main_v67 main_v66 main_v68 (Host.divf : (⟨S28x8192x128, .f32⟩ : BufTy).Contents (Elt F) → (⟨S28x8192x128, .f32⟩ : BufTy).Contents (Elt F) → (⟨S28x8192x128, .f32⟩ : BufTy).Contents (Elt F)),
    StableHlo.unary main_arg10 main_v69 ((extractStridedSlice S28x1x128x128 ![0, 0, 0, 0] · slices_S28x2x128x128_S28x1x128x128_0_0_0_0) : (⟨S28x2x128x128, .f32⟩ : BufTy).Contents (Elt F) → (⟨S28x1x128x128, .f32⟩ : BufTy).Contents (Elt F)),
    StableHlo.reshape main_v69 main_v70 rfl shapeCasts_S28x1x128x128_S28x128x128,
    StableHlo.binary main_v68 main_v70 main_v71 ((fun l r => Host.dotGeneral dot_S28x8192x128_S28x128x128_S28x8192x128_2_2_1_1_0_0 none l r) : (⟨S28x8192x128, .f32⟩ : BufTy).Contents (Elt F) → (⟨S28x128x128, .f32⟩ : BufTy).Contents (Elt F) → (⟨S28x8192x128, .f32⟩ : BufTy).Contents (Elt F)),
    StableHlo.unary main_arg11 main_v72 ((extractStridedSlice S28x1x128 ![0, 0, 0] · slices_S28x2x128_S28x1x128_0_0_0) : (⟨S28x2x128, .f32⟩ : BufTy).Contents (Elt F) → (⟨S28x1x128, .f32⟩ : BufTy).Contents (Elt F)),
    StableHlo.reshape main_v72 main_v73 rfl shapeCasts_S28x1x128_S28x128,
    StableHlo.unary main_v73 main_v74 (broadcastInDim S28x1x128 ![0, 2] bcast_S28x128_S28x1x128_0_2 : (⟨S28x128, .f32⟩ : BufTy).Contents (Elt F) → (⟨S28x1x128, .f32⟩ : BufTy).Contents (Elt F)),
    StableHlo.unary main_v74 main_v75 (broadcastInDim S28x8192x128 ![0, 1, 2] bcast_S28x1x128_S28x8192x128_0_1_2 : (⟨S28x1x128, .f32⟩ : BufTy).Contents (Elt F) → (⟨S28x8192x128, .f32⟩ : BufTy).Contents (Elt F)),
    StableHlo.binary main_v71 main_v75 main_v76 (addf : (⟨S28x8192x128, .f32⟩ : BufTy).Contents (Elt F) → (⟨S28x8192x128, .f32⟩ : BufTy).Contents (Elt F) → (⟨S28x8192x128, .f32⟩ : BufTy).Contents (Elt F)),
    StableHlo.unary main_v76 main_v77 (Host.negf : (⟨S28x8192x128, .f32⟩ : BufTy).Contents (Elt F) → (⟨S28x8192x128, .f32⟩ : BufTy).Contents (Elt F)),
    StableHlo.unary main_v77 main_v78 (Host.exp : (⟨S28x8192x128, .f32⟩ : BufTy).Contents (Elt F) → (⟨S28x8192x128, .f32⟩ : BufTy).Contents (Elt F)),
    StableHlo.nullary main_cst_25 (constant S_ .f32 0x3F800000#32),
    StableHlo.unary main_cst_25 main_v79 (broadcastInDim S28x8192x128 ![] bcast_S_S28x8192x128 : (⟨S_, .f32⟩ : BufTy).Contents (Elt F) → (⟨S28x8192x128, .f32⟩ : BufTy).Contents (Elt F)),
    StableHlo.binary main_v79 main_v78 main_v80 (addf : (⟨S28x8192x128, .f32⟩ : BufTy).Contents (Elt F) → (⟨S28x8192x128, .f32⟩ : BufTy).Contents (Elt F) → (⟨S28x8192x128, .f32⟩ : BufTy).Contents (Elt F)),
    StableHlo.nullary main_cst_26 (constant S_ .f32 0x3F800000#32),
    StableHlo.unary main_cst_26 main_v81 (broadcastInDim S28x8192x128 ![] bcast_S_S28x8192x128 : (⟨S_, .f32⟩ : BufTy).Contents (Elt F) → (⟨S28x8192x128, .f32⟩ : BufTy).Contents (Elt F)),
    StableHlo.binary main_v81 main_v80 main_v82 (Host.divf : (⟨S28x8192x128, .f32⟩ : BufTy).Contents (Elt F) → (⟨S28x8192x128, .f32⟩ : BufTy).Contents (Elt F) → (⟨S28x8192x128, .f32⟩ : BufTy).Contents (Elt F)),
    StableHlo.unary main_arg10 main_v83 ((extractStridedSlice S28x1x128x128 ![0, 1, 0, 0] · slices_S28x2x128x128_S28x1x128x128_0_1_0_0) : (⟨S28x2x128x128, .f32⟩ : BufTy).Contents (Elt F) → (⟨S28x1x128x128, .f32⟩ : BufTy).Contents (Elt F)),
    StableHlo.reshape main_v83 main_v84 rfl shapeCasts_S28x1x128x128_S28x128x128,
    StableHlo.binary main_v82 main_v84 main_v85 ((fun l r => Host.dotGeneral dot_S28x8192x128_S28x128x128_S28x8192x128_2_2_1_1_0_0 none l r) : (⟨S28x8192x128, .f32⟩ : BufTy).Contents (Elt F) → (⟨S28x128x128, .f32⟩ : BufTy).Contents (Elt F) → (⟨S28x8192x128, .f32⟩ : BufTy).Contents (Elt F)),
    StableHlo.unary main_arg11 main_v86 ((extractStridedSlice S28x1x128 ![0, 1, 0] · slices_S28x2x128_S28x1x128_0_1_0) : (⟨S28x2x128, .f32⟩ : BufTy).Contents (Elt F) → (⟨S28x1x128, .f32⟩ : BufTy).Contents (Elt F)),
    StableHlo.reshape main_v86 main_v87 rfl shapeCasts_S28x1x128_S28x128,
    StableHlo.unary main_v87 main_v88 (broadcastInDim S28x1x128 ![0, 2] bcast_S28x128_S28x1x128_0_2 : (⟨S28x128, .f32⟩ : BufTy).Contents (Elt F) → (⟨S28x1x128, .f32⟩ : BufTy).Contents (Elt F)),
    StableHlo.unary main_v88 main_v89 (broadcastInDim S28x8192x128 ![0, 1, 2] bcast_S28x1x128_S28x8192x128_0_1_2 : (⟨S28x1x128, .f32⟩ : BufTy).Contents (Elt F) → (⟨S28x8192x128, .f32⟩ : BufTy).Contents (Elt F)),
    StableHlo.binary main_v85 main_v89 main_v90 (addf : (⟨S28x8192x128, .f32⟩ : BufTy).Contents (Elt F) → (⟨S28x8192x128, .f32⟩ : BufTy).Contents (Elt F) → (⟨S28x8192x128, .f32⟩ : BufTy).Contents (Elt F)),
    StableHlo.unary main_v90 main_v91 (Host.negf : (⟨S28x8192x128, .f32⟩ : BufTy).Contents (Elt F) → (⟨S28x8192x128, .f32⟩ : BufTy).Contents (Elt F)),
    StableHlo.unary main_v91 main_v92 (Host.exp : (⟨S28x8192x128, .f32⟩ : BufTy).Contents (Elt F) → (⟨S28x8192x128, .f32⟩ : BufTy).Contents (Elt F)),
    StableHlo.nullary main_cst_27 (constant S_ .f32 0x3F800000#32),
    StableHlo.unary main_cst_27 main_v93 (broadcastInDim S28x8192x128 ![] bcast_S_S28x8192x128 : (⟨S_, .f32⟩ : BufTy).Contents (Elt F) → (⟨S28x8192x128, .f32⟩ : BufTy).Contents (Elt F)),
    StableHlo.binary main_v93 main_v92 main_v94 (addf : (⟨S28x8192x128, .f32⟩ : BufTy).Contents (Elt F) → (⟨S28x8192x128, .f32⟩ : BufTy).Contents (Elt F) → (⟨S28x8192x128, .f32⟩ : BufTy).Contents (Elt F)),
    StableHlo.nullary main_cst_28 (constant S_ .f32 0x3F800000#32),
    StableHlo.unary main_cst_28 main_v95 (broadcastInDim S28x8192x128 ![] bcast_S_S28x8192x128 : (⟨S_, .f32⟩ : BufTy).Contents (Elt F) → (⟨S28x8192x128, .f32⟩ : BufTy).Contents (Elt F)),
    StableHlo.binary main_v95 main_v94 main_v96 (Host.divf : (⟨S28x8192x128, .f32⟩ : BufTy).Contents (Elt F) → (⟨S28x8192x128, .f32⟩ : BufTy).Contents (Elt F) → (⟨S28x8192x128, .f32⟩ : BufTy).Contents (Elt F)),
    StableHlo.binary main_v96 main_arg12 main_v97 ((fun l r => Host.dotGeneral dot_S28x8192x128_S28x1x128_S28x8192x1_2_2_1_1_0_0 none l r) : (⟨S28x8192x128, .f32⟩ : BufTy).Contents (Elt F) → (⟨S28x1x128, .f32⟩ : BufTy).Contents (Elt F) → (⟨S28x8192x1, .f32⟩ : BufTy).Contents (Elt F)),
    StableHlo.reshape main_v97 main_v98 rfl shapeCasts_S28x8192x1_S28x8192,
    StableHlo.unary main_arg13 main_v99 (broadcastInDim S28x1 ![0] bcast_S28_S28x1_0 : (⟨S28, .f32⟩ : BufTy).Contents (Elt F) → (⟨S28x1, .f32⟩ : BufTy).Contents (Elt F)),
    StableHlo.unary main_v99 main_v100 (broadcastInDim S28x8192 ![0, 1] bcast_S28x1_S28x8192_0_1 : (⟨S28x1, .f32⟩ : BufTy).Contents (Elt F) → (⟨S28x8192, .f32⟩ : BufTy).Contents (Elt F)),
    StableHlo.binary main_v98 main_v100 main_v101 (addf : (⟨S28x8192, .f32⟩ : BufTy).Contents (Elt F) → (⟨S28x8192, .f32⟩ : BufTy).Contents (Elt F) → (⟨S28x8192, .f32⟩ : BufTy).Contents (Elt F)) ]
/-- The result buffers of statements 85 … 133, in order. -/
abbrev wrM2 : List (Ref sig .tc) :=
  [main_v59, main_v60, main_v61, main_v62, main_v63, main_v64, main_cst_23, main_v65, main_v66, main_cst_24, main_v67, main_v68, main_v69, main_v70, main_v71, main_v72, main_v73, main_v74, main_v75, main_v76, main_v77, main_v78, main_cst_25, main_v79, main_v80, main_cst_26, main_v81, main_v82, main_v83, main_v84, main_v85, main_v86, main_v87, main_v88, main_v89, main_v90, main_v91, main_v92, main_cst_27, main_v93, main_v94, main_cst_28, main_v95, main_v96, main_v97, main_v98, main_v99, main_v100, main_v101]
set_option maxRecDepth 8192 in
theorem opsM2_sub : (opsM2 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., unary_bufs_sub .., unary_bufs_sub .., binary_bufs_sub ..⟩

/-- Statements 134 … 157 of @main (main_c_29 … main_v122), in order. -/
abbrev opsC : List (HloOp τ sig (Elt F)) :=
  [ StableHlo.nullary main_c_29 (constantI S_ 32 8#32),
    StableHlo.unary main_c_29 main_v102 (broadcastInDim S28 ![] bcast_S_S28 : (⟨S_, .i32⟩ : BufTy).Contents (Elt F) → (⟨S28, .i32⟩ : BufTy).Contents (Elt F)),
    StableHlo.binary main_c_1 main_v102 main_v103 (addi : (⟨S28, .i32⟩ : BufTy).Contents (Elt F) → (⟨S28, .i32⟩ : BufTy).Contents (Elt F) → (⟨S28, .i32⟩ : BufTy).Contents (Elt F)),
    StableHlo.ternary main_c_2 main_v103 main_c_1 main_v104 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    StableHlo.unary main_v104 main_v105 (broadcastInDim S28x1 ![0] bcast_S28_S28x1_0 : (⟨S28, .i32⟩ : BufTy).Contents (Elt F) → (⟨S28x1, .i32⟩ : BufTy).Contents (Elt F)),
    StableHlo.binary main_v52 main_v105 main_v106 ((fun x i => Host.gather gather_S8x8192_S28x1_S28x8192_1_0_n_n_0_1_18192 x i) : (⟨S8x8192, .f32⟩ : BufTy).Contents (Elt F) → (⟨S28x1, .i32⟩ : BufTy).Contents (Elt F) → (⟨S28x8192, .f32⟩ : BufTy).Contents (Elt F)),
    StableHlo.binary main_v101 main_v106 main_v107 (subf : (⟨S28x8192, .f32⟩ : BufTy).Contents (Elt F) → (⟨S28x8192, .f32⟩ : BufTy).Contents (Elt F) → (⟨S28x8192, .f32⟩ : BufTy).Contents (Elt F)),
    StableHlo.nullary main_c_30 (constantI S_ 32 8#32),
    StableHlo.unary main_c_30 main_v108 (broadcastInDim S28 ![] bcast_S_S28 : (⟨S_, .i32⟩ : BufTy).Contents (Elt F) → (⟨S28, .i32⟩ : BufTy).Contents (Elt F)),
    StableHlo.binary main_c_3 main_v108 main_v109 (addi : (⟨S28, .i32⟩ : BufTy).Contents (Elt F) → (⟨S28, .i32⟩ : BufTy).Contents (Elt F) → (⟨S28, .i32⟩ : BufTy).Contents (Elt F)),
    StableHlo.ternary main_c_4 main_v109 main_c_3 main_v110 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    StableHlo.unary main_v110 main_v111 (broadcastInDim S28x1 ![0] bcast_S28_S28x1_0 : (⟨S28, .i32⟩ : BufTy).Contents (Elt F) → (⟨S28x1, .i32⟩ : BufTy).Contents (Elt F)),
    StableHlo.binary main_v52 main_v111 main_v112 ((fun x i => Host.gather gather_S8x8192_S28x1_S28x8192_1_0_n_n_0_1_18192 x i) : (⟨S8x8192, .f32⟩ : BufTy).Contents (Elt F) → (⟨S28x1, .i32⟩ : BufTy).Contents (Elt F) → (⟨S28x8192, .f32⟩ : BufTy).Contents (Elt F)),
    StableHlo.binary main_v107 main_v112 main_v113 (subf : (⟨S28x8192, .f32⟩ : BufTy).Contents (Elt F) → (⟨S28x8192, .f32⟩ : BufTy).Contents (Elt F) → (⟨S28x8192, .f32⟩ : BufTy).Contents (Elt F)),
    StableHlo.unary main_v4 main_v114 (broadcastInDim S1x8192 ![1] bcast_S8192_S1x8192_1 : (⟨S8192, .f32⟩ : BufTy).Contents (Elt F) → (⟨S1x8192, .f32⟩ : BufTy).Contents (Elt F)),
    StableHlo.unary main_v114 main_v115 (broadcastInDim S28x8192 ![0, 1] bcast_S1x8192_S28x8192_0_1 : (⟨S1x8192, .f32⟩ : BufTy).Contents (Elt F) → (⟨S28x8192, .f32⟩ : BufTy).Contents (Elt F)),
    StableHlo.binary main_v113 main_v115 main_v116 (subf : (⟨S28x8192, .f32⟩ : BufTy).Contents (Elt F) → (⟨S28x8192, .f32⟩ : BufTy).Contents (Elt F) → (⟨S28x8192, .f32⟩ : BufTy).Contents (Elt F)),
    StableHlo.nullary main_c_31 (constantI S_ 32 8#32),
    StableHlo.unary main_c_31 main_v117 (broadcastInDim S56x3 ![] bcast_S_S56x3 : (⟨S_, .i32⟩ : BufTy).Contents (Elt F) → (⟨S56x3, .i32⟩ : BufTy).Contents (Elt F)),
    StableHlo.binary main_c_5 main_v117 main_v118 (addi : (⟨S56x3, .i32⟩ : BufTy).Contents (Elt F) → (⟨S56x3, .i32⟩ : BufTy).Contents (Elt F) → (⟨S56x3, .i32⟩ : BufTy).Contents (Elt F)),
    StableHlo.ternary main_c_6 main_v118 main_c_5 main_v119 (select : (⟨S56x3, .i1⟩ : BufTy).Contents (Elt F) → (⟨S56x3, .i32⟩ : BufTy).Contents (Elt F) → (⟨S56x3, .i32⟩ : BufTy).Contents (Elt F) → (⟨S56x3, .i32⟩ : BufTy).Contents (Elt F)),
    StableHlo.unary main_v119 main_v120 (broadcastInDim S56x3x1 ![0, 1] bcast_S56x3_S56x3x1_0_1 : (⟨S56x3, .i32⟩ : BufTy).Contents (Elt F) → (⟨S56x3x1, .i32⟩ : BufTy).Contents (Elt F)),
    StableHlo.binary main_arg0 main_v120 main_v121 ((fun x i => Host.gather gather_S8192x8_S56x3x1_S8192x56x3_0_1_n_n_1_2_81921 x i) : (⟨S8192x8, .f32⟩ : BufTy).Contents (Elt F) → (⟨S56x3x1, .i32⟩ : BufTy).Contents (Elt F) → (⟨S8192x56x3, .f32⟩ : BufTy).Contents (Elt F)),
    StableHlo.unary main_v121 main_v122 ((transpose S56x8192x3 [1, 0, 2] · transposes_S8192x56x3_S56x8192x3_1_0_2) : (⟨S8192x56x3, .f32⟩ : BufTy).Contents (Elt F) → (⟨S56x8192x3, .f32⟩ : BufTy).Contents (Elt F)) ]
/-- The result buffers of statements 134 … 157, in order. -/
abbrev wrC : List (Ref sig .tc) :=
  [main_c_29, main_v102, main_v103, main_v104, main_v105, main_v106, main_v107, main_c_30, main_v108, main_v109, main_v110, main_v111, main_v112, main_v113, main_v114, main_v115, main_v116, main_c_31, main_v117, main_v118, main_v119, main_v120, main_v121, main_v122]
set_option maxRecDepth 8192 in
theorem opsC_sub : (opsC : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub ..⟩

/-- Statements 158 … 206 of @main (main_v123 … main_v165), in order. -/
abbrev opsM3 : List (HloOp τ sig (Elt F)) :=
  [ StableHlo.binary main_v122 main_arg14 main_v123 ((fun l r => Host.dotGeneral dot_S56x8192x3_S56x128x3_S56x8192x128_2_2_1_1_0_0 none l r) : (⟨S56x8192x3, .f32⟩ : BufTy).Contents (Elt F) → (⟨S56x128x3, .f32⟩ : BufTy).Contents (Elt F) → (⟨S56x8192x128, .f32⟩ : BufTy).Contents (Elt F)),
    StableHlo.unary main_arg15 main_v124 (broadcastInDim S56x1x128 ![0, 2] bcast_S56x128_S56x1x128_0_2 : (⟨S56x128, .f32⟩ : BufTy).Contents (Elt F) → (⟨S56x1x128, .f32⟩ : BufTy).Contents (Elt F)),
    StableHlo.unary main_v124 main_v125 (broadcastInDim S56x8192x128 ![0, 1, 2] bcast_S56x1x128_S56x8192x128_0_1_2 : (⟨S56x1x128, .f32⟩ : BufTy).Contents (Elt F) → (⟨S56x8192x128, .f32⟩ : BufTy).Contents (Elt F)),
    StableHlo.binary main_v123 main_v125 main_v126 (addf : (⟨S56x8192x128, .f32⟩ : BufTy).Contents (Elt F) → (⟨S56x8192x128, .f32⟩ : BufTy).Contents (Elt F) → (⟨S56x8192x128, .f32⟩ : BufTy).Contents (Elt F)),
    StableHlo.unary main_v126 main_v127 (Host.negf : (⟨S56x8192x128, .f32⟩ : BufTy).Contents (Elt F) → (⟨S56x8192x128, .f32⟩ : BufTy).Contents (Elt F)),
    StableHlo.unary main_v127 main_v128 (Host.exp : (⟨S56x8192x128, .f32⟩ : BufTy).Contents (Elt F) → (⟨S56x8192x128, .f32⟩ : BufTy).Contents (Elt F)),
    StableHlo.nullary main_cst_32 (constant S_ .f32 0x3F800000#32),
    StableHlo.unary main_cst_32 main_v129 (broadcastInDim S56x8192x128 ![] bcast_S_S56x8192x128 : (⟨S_, .f32⟩ : BufTy).Contents (Elt F) → (⟨S56x8192x128, .f32⟩ : BufTy).Contents (Elt F)),
    StableHlo.binary main_v129 main_v128 main_v130 (addf : (⟨S56x8192x128, .f32⟩ : BufTy).Contents (Elt F) → (⟨S56x8192x128, .f32⟩ : BufTy).Contents (Elt F) → (⟨S56x8192x128, .f32⟩ : BufTy).Contents (Elt F)),
    StableHlo.nullary main_cst_33 (constant S_ .f32 0x3F800000#32),
    StableHlo.unary main_cst_33 main_v131 (broadcastInDim S56x8192x128 ![] bcast_S_S56x8192x128 : (⟨S_, .f32⟩ : BufTy).Contents (Elt F) → (⟨S56x8192x128, .f32⟩ : BufTy).Contents (Elt F)),
    StableHlo.binary main_v131 main_v130 main_v132 (Host.divf : (⟨S56x8192x128, .f32⟩ : BufTy).Contents (Elt F) → (⟨S56x8192x128, .f32⟩ : BufTy).Contents (Elt F) → (⟨S56x8192x128, .f32⟩ : BufTy).Contents (Elt F)),
    StableHlo.unary main_arg16 main_v133 ((extractStridedSlice S56x1x128x128 ![0, 0, 0, 0] · slices_S56x2x128x128_S56x1x128x128_0_0_0_0) : (⟨S56x2x128x128, .f32⟩ : BufTy).Contents (Elt F) → (⟨S56x1x128x128, .f32⟩ : BufTy).Contents (Elt F)),
    StableHlo.reshape main_v133 main_v134 rfl shapeCasts_S56x1x128x128_S56x128x128,
    StableHlo.binary main_v132 main_v134 main_v135 ((fun l r => Host.dotGeneral dot_S56x8192x128_S56x128x128_S56x8192x128_2_2_1_1_0_0 none l r) : (⟨S56x8192x128, .f32⟩ : BufTy).Contents (Elt F) → (⟨S56x128x128, .f32⟩ : BufTy).Contents (Elt F) → (⟨S56x8192x128, .f32⟩ : BufTy).Contents (Elt F)),
    StableHlo.unary main_arg17 main_v136 ((extractStridedSlice S56x1x128 ![0, 0, 0] · slices_S56x2x128_S56x1x128_0_0_0) : (⟨S56x2x128, .f32⟩ : BufTy).Contents (Elt F) → (⟨S56x1x128, .f32⟩ : BufTy).Contents (Elt F)),
    StableHlo.reshape main_v136 main_v137 rfl shapeCasts_S56x1x128_S56x128,
    StableHlo.unary main_v137 main_v138 (broadcastInDim S56x1x128 ![0, 2] bcast_S56x128_S56x1x128_0_2 : (⟨S56x128, .f32⟩ : BufTy).Contents (Elt F) → (⟨S56x1x128, .f32⟩ : BufTy).Contents (Elt F)),
    StableHlo.unary main_v138 main_v139 (broadcastInDim S56x8192x128 ![0, 1, 2] bcast_S56x1x128_S56x8192x128_0_1_2 : (⟨S56x1x128, .f32⟩ : BufTy).Contents (Elt F) → (⟨S56x8192x128, .f32⟩ : BufTy).Contents (Elt F)),
    StableHlo.binary main_v135 main_v139 main_v140 (addf : (⟨S56x8192x128, .f32⟩ : BufTy).Contents (Elt F) → (⟨S56x8192x128, .f32⟩ : BufTy).Contents (Elt F) → (⟨S56x8192x128, .f32⟩ : BufTy).Contents (Elt F)),
    StableHlo.unary main_v140 main_v141 (Host.negf : (⟨S56x8192x128, .f32⟩ : BufTy).Contents (Elt F) → (⟨S56x8192x128, .f32⟩ : BufTy).Contents (Elt F)),
    StableHlo.unary main_v141 main_v142 (Host.exp : (⟨S56x8192x128, .f32⟩ : BufTy).Contents (Elt F) → (⟨S56x8192x128, .f32⟩ : BufTy).Contents (Elt F)),
    StableHlo.nullary main_cst_34 (constant S_ .f32 0x3F800000#32),
    StableHlo.unary main_cst_34 main_v143 (broadcastInDim S56x8192x128 ![] bcast_S_S56x8192x128 : (⟨S_, .f32⟩ : BufTy).Contents (Elt F) → (⟨S56x8192x128, .f32⟩ : BufTy).Contents (Elt F)),
    StableHlo.binary main_v143 main_v142 main_v144 (addf : (⟨S56x8192x128, .f32⟩ : BufTy).Contents (Elt F) → (⟨S56x8192x128, .f32⟩ : BufTy).Contents (Elt F) → (⟨S56x8192x128, .f32⟩ : BufTy).Contents (Elt F)),
    StableHlo.nullary main_cst_35 (constant S_ .f32 0x3F800000#32),
    StableHlo.unary main_cst_35 main_v145 (broadcastInDim S56x8192x128 ![] bcast_S_S56x8192x128 : (⟨S_, .f32⟩ : BufTy).Contents (Elt F) → (⟨S56x8192x128, .f32⟩ : BufTy).Contents (Elt F)),
    StableHlo.binary main_v145 main_v144 main_v146 (Host.divf : (⟨S56x8192x128, .f32⟩ : BufTy).Contents (Elt F) → (⟨S56x8192x128, .f32⟩ : BufTy).Contents (Elt F) → (⟨S56x8192x128, .f32⟩ : BufTy).Contents (Elt F)),
    StableHlo.unary main_arg16 main_v147 ((extractStridedSlice S56x1x128x128 ![0, 1, 0, 0] · slices_S56x2x128x128_S56x1x128x128_0_1_0_0) : (⟨S56x2x128x128, .f32⟩ : BufTy).Contents (Elt F) → (⟨S56x1x128x128, .f32⟩ : BufTy).Contents (Elt F)),
    StableHlo.reshape main_v147 main_v148 rfl shapeCasts_S56x1x128x128_S56x128x128,
    StableHlo.binary main_v146 main_v148 main_v149 ((fun l r => Host.dotGeneral dot_S56x8192x128_S56x128x128_S56x8192x128_2_2_1_1_0_0 none l r) : (⟨S56x8192x128, .f32⟩ : BufTy).Contents (Elt F) → (⟨S56x128x128, .f32⟩ : BufTy).Contents (Elt F) → (⟨S56x8192x128, .f32⟩ : BufTy).Contents (Elt F)),
    StableHlo.unary main_arg17 main_v150 ((extractStridedSlice S56x1x128 ![0, 1, 0] · slices_S56x2x128_S56x1x128_0_1_0) : (⟨S56x2x128, .f32⟩ : BufTy).Contents (Elt F) → (⟨S56x1x128, .f32⟩ : BufTy).Contents (Elt F)),
    StableHlo.reshape main_v150 main_v151 rfl shapeCasts_S56x1x128_S56x128,
    StableHlo.unary main_v151 main_v152 (broadcastInDim S56x1x128 ![0, 2] bcast_S56x128_S56x1x128_0_2 : (⟨S56x128, .f32⟩ : BufTy).Contents (Elt F) → (⟨S56x1x128, .f32⟩ : BufTy).Contents (Elt F)),
    StableHlo.unary main_v152 main_v153 (broadcastInDim S56x8192x128 ![0, 1, 2] bcast_S56x1x128_S56x8192x128_0_1_2 : (⟨S56x1x128, .f32⟩ : BufTy).Contents (Elt F) → (⟨S56x8192x128, .f32⟩ : BufTy).Contents (Elt F)),
    StableHlo.binary main_v149 main_v153 main_v154 (addf : (⟨S56x8192x128, .f32⟩ : BufTy).Contents (Elt F) → (⟨S56x8192x128, .f32⟩ : BufTy).Contents (Elt F) → (⟨S56x8192x128, .f32⟩ : BufTy).Contents (Elt F)),
    StableHlo.unary main_v154 main_v155 (Host.negf : (⟨S56x8192x128, .f32⟩ : BufTy).Contents (Elt F) → (⟨S56x8192x128, .f32⟩ : BufTy).Contents (Elt F)),
    StableHlo.unary main_v155 main_v156 (Host.exp : (⟨S56x8192x128, .f32⟩ : BufTy).Contents (Elt F) → (⟨S56x8192x128, .f32⟩ : BufTy).Contents (Elt F)),
    StableHlo.nullary main_cst_36 (constant S_ .f32 0x3F800000#32),
    StableHlo.unary main_cst_36 main_v157 (broadcastInDim S56x8192x128 ![] bcast_S_S56x8192x128 : (⟨S_, .f32⟩ : BufTy).Contents (Elt F) → (⟨S56x8192x128, .f32⟩ : BufTy).Contents (Elt F)),
    StableHlo.binary main_v157 main_v156 main_v158 (addf : (⟨S56x8192x128, .f32⟩ : BufTy).Contents (Elt F) → (⟨S56x8192x128, .f32⟩ : BufTy).Contents (Elt F) → (⟨S56x8192x128, .f32⟩ : BufTy).Contents (Elt F)),
    StableHlo.nullary main_cst_37 (constant S_ .f32 0x3F800000#32),
    StableHlo.unary main_cst_37 main_v159 (broadcastInDim S56x8192x128 ![] bcast_S_S56x8192x128 : (⟨S_, .f32⟩ : BufTy).Contents (Elt F) → (⟨S56x8192x128, .f32⟩ : BufTy).Contents (Elt F)),
    StableHlo.binary main_v159 main_v158 main_v160 (Host.divf : (⟨S56x8192x128, .f32⟩ : BufTy).Contents (Elt F) → (⟨S56x8192x128, .f32⟩ : BufTy).Contents (Elt F) → (⟨S56x8192x128, .f32⟩ : BufTy).Contents (Elt F)),
    StableHlo.binary main_v160 main_arg18 main_v161 ((fun l r => Host.dotGeneral dot_S56x8192x128_S56x1x128_S56x8192x1_2_2_1_1_0_0 none l r) : (⟨S56x8192x128, .f32⟩ : BufTy).Contents (Elt F) → (⟨S56x1x128, .f32⟩ : BufTy).Contents (Elt F) → (⟨S56x8192x1, .f32⟩ : BufTy).Contents (Elt F)),
    StableHlo.reshape main_v161 main_v162 rfl shapeCasts_S56x8192x1_S56x8192,
    StableHlo.unary main_arg19 main_v163 (broadcastInDim S56x1 ![0] bcast_S56_S56x1_0 : (⟨S56, .f32⟩ : BufTy).Contents (Elt F) → (⟨S56x1, .f32⟩ : BufTy).Contents (Elt F)),
    StableHlo.unary main_v163 main_v164 (broadcastInDim S56x8192 ![0, 1] bcast_S56x1_S56x8192_0_1 : (⟨S56x1, .f32⟩ : BufTy).Contents (Elt F) → (⟨S56x8192, .f32⟩ : BufTy).Contents (Elt F)),
    StableHlo.binary main_v162 main_v164 main_v165 (addf : (⟨S56x8192, .f32⟩ : BufTy).Contents (Elt F) → (⟨S56x8192, .f32⟩ : BufTy).Contents (Elt F) → (⟨S56x8192, .f32⟩ : BufTy).Contents (Elt F)) ]
/-- The result buffers of statements 158 … 206, in order. -/
abbrev wrM3 : List (Ref sig .tc) :=
  [main_v123, main_v124, main_v125, main_v126, main_v127, main_v128, main_cst_32, main_v129, main_v130, main_cst_33, main_v131, main_v132, main_v133, main_v134, main_v135, main_v136, main_v137, main_v138, main_v139, main_v140, main_v141, main_v142, main_cst_34, main_v143, main_v144, main_cst_35, main_v145, main_v146, main_v147, main_v148, main_v149, main_v150, main_v151, main_v152, main_v153, main_v154, main_v155, main_v156, main_cst_36, main_v157, main_v158, main_cst_37, main_v159, main_v160, main_v161, main_v162, main_v163, main_v164, main_v165]
set_option maxRecDepth 8192 in
theorem opsM3_sub : (opsM3 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., unary_bufs_sub .., unary_bufs_sub .., binary_bufs_sub ..⟩

/-- Statements 207 … 261 of @main (main_c_38 … main_v211), in order. -/
abbrev opsD : List (HloOp τ sig (Elt F)) :=
  [ StableHlo.nullary main_c_38 (constantI S_ 32 28#32),
    StableHlo.unary main_c_38 main_v166 (broadcastInDim S56 ![] bcast_S_S56 : (⟨S_, .i32⟩ : BufTy).Contents (Elt F) → (⟨S56, .i32⟩ : BufTy).Contents (Elt F)),
    StableHlo.binary main_c_7 main_v166 main_v167 (addi : (⟨S56, .i32⟩ : BufTy).Contents (Elt F) → (⟨S56, .i32⟩ : BufTy).Contents (Elt F) → (⟨S56, .i32⟩ : BufTy).Contents (Elt F)),
    StableHlo.ternary main_c_8 main_v167 main_c_7 main_v168 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v168 main_v169 (broadcastInDim S56x1 ![0] bcast_S56_S56x1_0 : (⟨S56, .i32⟩ : BufTy).Contents (Elt F) → (⟨S56x1, .i32⟩ : BufTy).Contents (Elt F)),
    StableHlo.binary main_v116 main_v169 main_v170 ((fun x i => Host.gather gather_S28x8192_S56x1_S56x8192_1_0_n_n_0_1_18192 x i) : (⟨S28x8192, .f32⟩ : BufTy).Contents (Elt F) → (⟨S56x1, .i32⟩ : BufTy).Contents (Elt F) → (⟨S56x8192, .f32⟩ : BufTy).Contents (Elt F)),
    StableHlo.binary main_v165 main_v170 main_v171 (subf : (⟨S56x8192, .f32⟩ : BufTy).Contents (Elt F) → (⟨S56x8192, .f32⟩ : BufTy).Contents (Elt F) → (⟨S56x8192, .f32⟩ : BufTy).Contents (Elt F)),
    StableHlo.nullary main_c_39 (constantI S_ 32 28#32),
    StableHlo.unary main_c_39 main_v172 (broadcastInDim S56 ![] bcast_S_S56 : (⟨S_, .i32⟩ : BufTy).Contents (Elt F) → (⟨S56, .i32⟩ : BufTy).Contents (Elt F)),
    StableHlo.binary main_c_9 main_v172 main_v173 (addi : (⟨S56, .i32⟩ : BufTy).Contents (Elt F) → (⟨S56, .i32⟩ : BufTy).Contents (Elt F) → (⟨S56, .i32⟩ : BufTy).Contents (Elt F)),
    StableHlo.ternary main_c_10 main_v173 main_c_9 main_v174 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v174 main_v175 (broadcastInDim S56x1 ![0] bcast_S56_S56x1_0 : (⟨S56, .i32⟩ : BufTy).Contents (Elt F) → (⟨S56x1, .i32⟩ : BufTy).Contents (Elt F)),
    StableHlo.binary main_v116 main_v175 main_v176 ((fun x i => Host.gather gather_S28x8192_S56x1_S56x8192_1_0_n_n_0_1_18192 x i) : (⟨S28x8192, .f32⟩ : BufTy).Contents (Elt F) → (⟨S56x1, .i32⟩ : BufTy).Contents (Elt F) → (⟨S56x8192, .f32⟩ : BufTy).Contents (Elt F)),
    StableHlo.binary main_v171 main_v176 main_v177 (subf : (⟨S56x8192, .f32⟩ : BufTy).Contents (Elt F) → (⟨S56x8192, .f32⟩ : BufTy).Contents (Elt F) → (⟨S56x8192, .f32⟩ : BufTy).Contents (Elt F)),
    StableHlo.nullary main_c_40 (constantI S_ 32 28#32),
    StableHlo.unary main_c_40 main_v178 (broadcastInDim S56 ![] bcast_S_S56 : (⟨S_, .i32⟩ : BufTy).Contents (Elt F) → (⟨S56, .i32⟩ : BufTy).Contents (Elt F)),
    StableHlo.binary main_c_11 main_v178 main_v179 (addi : (⟨S56, .i32⟩ : BufTy).Contents (Elt F) → (⟨S56, .i32⟩ : BufTy).Contents (Elt F) → (⟨S56, .i32⟩ : BufTy).Contents (Elt F)),
    StableHlo.ternary main_c_12 main_v179 main_c_11 main_v180 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v180 main_v181 (broadcastInDim S56x1 ![0] bcast_S56_S56x1_0 : (⟨S56, .i32⟩ : BufTy).Contents (Elt F) → (⟨S56x1, .i32⟩ : BufTy).Contents (Elt F)),
    StableHlo.binary main_v116 main_v181 main_v182 ((fun x i => Host.gather gather_S28x8192_S56x1_S56x8192_1_0_n_n_0_1_18192 x i) : (⟨S28x8192, .f32⟩ : BufTy).Contents (Elt F) → (⟨S56x1, .i32⟩ : BufTy).Contents (Elt F) → (⟨S56x8192, .f32⟩ : BufTy).Contents (Elt F)),
    StableHlo.binary main_v177 main_v182 main_v183 (subf : (⟨S56x8192, .f32⟩ : BufTy).Contents (Elt F) → (⟨S56x8192, .f32⟩ : BufTy).Contents (Elt F) → (⟨S56x8192, .f32⟩ : BufTy).Contents (Elt F)),
    StableHlo.nullary main_c_41 (constantI S_ 32 8#32),
    StableHlo.unary main_c_41 main_v184 (broadcastInDim S56 ![] bcast_S_S56 : (⟨S_, .i32⟩ : BufTy).Contents (Elt F) → (⟨S56, .i32⟩ : BufTy).Contents (Elt F)),
    StableHlo.binary main_c_7 main_v184 main_v185 (addi : (⟨S56, .i32⟩ : BufTy).Contents (Elt F) → (⟨S56, .i32⟩ : BufTy).Contents (Elt F) → (⟨S56, .i32⟩ : BufTy).Contents (Elt F)),
    StableHlo.ternary main_c_13 main_v185 main_c_7 main_v186 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v186 main_v187 (broadcastInDim S56x1 ![0] bcast_S56_S56x1_0 : (⟨S56, .i32⟩ : BufTy).Contents (Elt F) → (⟨S56x1, .i32⟩ : BufTy).Contents (Elt F)),
    StableHlo.binary main_v52 main_v187 main_v188 ((fun x i => Host.gather gather_S8x8192_S56x1_S56x8192_1_0_n_n_0_1_18192 x i) : (⟨S8x8192, .f32⟩ : BufTy).Contents (Elt F) → (⟨S56x1, .i32⟩ : BufTy).Contents (Elt F) → (⟨S56x8192, .f32⟩ : BufTy).Contents (Elt F)),
    StableHlo.binary main_v183 main_v188 main_v189 (subf : (⟨S56x8192, .f32⟩ : BufTy).Contents (Elt F) → (⟨S56x8192, .f32⟩ : BufTy).Contents (Elt F) → (⟨S56x8192, .f32⟩ : BufTy).Contents (Elt F)),
    StableHlo.nullary main_c_42 (constantI S_ 32 8#32),
    StableHlo.unary main_c_42 main_v190 (broadcastInDim S56 ![] bcast_S_S56 : (⟨S_, .i32⟩ : BufTy).Contents (Elt F) → (⟨S56, .i32⟩ : BufTy).Contents (Elt F)),
    StableHlo.binary main_c_9 main_v190 main_v191 (addi : (⟨S56, .i32⟩ : BufTy).Contents (Elt F) → (⟨S56, .i32⟩ : BufTy).Contents (Elt F) → (⟨S56, .i32⟩ : BufTy).Contents (Elt F)),
    StableHlo.ternary main_c_14 main_v191 main_c_9 main_v192 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v192 main_v193 (broadcastInDim S56x1 ![0] bcast_S56_S56x1_0 : (⟨S56, .i32⟩ : BufTy).Contents (Elt F) → (⟨S56x1, .i32⟩ : BufTy).Contents (Elt F)),
    StableHlo.binary main_v52 main_v193 main_v194 ((fun x i => Host.gather gather_S8x8192_S56x1_S56x8192_1_0_n_n_0_1_18192 x i) : (⟨S8x8192, .f32⟩ : BufTy).Contents (Elt F) → (⟨S56x1, .i32⟩ : BufTy).Contents (Elt F) → (⟨S56x8192, .f32⟩ : BufTy).Contents (Elt F)),
    StableHlo.binary main_v189 main_v194 main_v195 (subf : (⟨S56x8192, .f32⟩ : BufTy).Contents (Elt F) → (⟨S56x8192, .f32⟩ : BufTy).Contents (Elt F) → (⟨S56x8192, .f32⟩ : BufTy).Contents (Elt F)),
    StableHlo.nullary main_c_43 (constantI S_ 32 8#32),
    StableHlo.unary main_c_43 main_v196 (broadcastInDim S56 ![] bcast_S_S56 : (⟨S_, .i32⟩ : BufTy).Contents (Elt F) → (⟨S56, .i32⟩ : BufTy).Contents (Elt F)),
    StableHlo.binary main_c_11 main_v196 main_v197 (addi : (⟨S56, .i32⟩ : BufTy).Contents (Elt F) → (⟨S56, .i32⟩ : BufTy).Contents (Elt F) → (⟨S56, .i32⟩ : BufTy).Contents (Elt F)),
    StableHlo.ternary main_c_15 main_v197 main_c_11 main_v198 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v198 main_v199 (broadcastInDim S56x1 ![0] bcast_S56_S56x1_0 : (⟨S56, .i32⟩ : BufTy).Contents (Elt F) → (⟨S56x1, .i32⟩ : BufTy).Contents (Elt F)),
    StableHlo.binary main_v52 main_v199 main_v200 ((fun x i => Host.gather gather_S8x8192_S56x1_S56x8192_1_0_n_n_0_1_18192 x i) : (⟨S8x8192, .f32⟩ : BufTy).Contents (Elt F) → (⟨S56x1, .i32⟩ : BufTy).Contents (Elt F) → (⟨S56x8192, .f32⟩ : BufTy).Contents (Elt F)),
    StableHlo.binary main_v195 main_v200 main_v201 (subf : (⟨S56x8192, .f32⟩ : BufTy).Contents (Elt F) → (⟨S56x8192, .f32⟩ : BufTy).Contents (Elt F) → (⟨S56x8192, .f32⟩ : BufTy).Contents (Elt F)),
    StableHlo.unary main_v4 main_v202 (broadcastInDim S1x8192 ![1] bcast_S8192_S1x8192_1 : (⟨S8192, .f32⟩ : BufTy).Contents (Elt F) → (⟨S1x8192, .f32⟩ : BufTy).Contents (Elt F)),
    StableHlo.unary main_v202 main_v203 (broadcastInDim S56x8192 ![0, 1] bcast_S1x8192_S56x8192_0_1 : (⟨S1x8192, .f32⟩ : BufTy).Contents (Elt F) → (⟨S56x8192, .f32⟩ : BufTy).Contents (Elt F)),
    StableHlo.binary main_v201 main_v203 main_v204 (subf : (⟨S56x8192, .f32⟩ : BufTy).Contents (Elt F) → (⟨S56x8192, .f32⟩ : BufTy).Contents (Elt F) → (⟨S56x8192, .f32⟩ : BufTy).Contents (Elt F)),
    StableHlo.nullary main_cst_44 (constant S_ .f32 0x00000000#32),
    StableHlo.binary main_v52 main_cst_44 main_v205 ((fun x v => Host.reduceAdd x v reducesTo_S8x8192_S8192_d0 h_S_) : (⟨S8x8192, .f32⟩ : BufTy).Contents (Elt F) → (⟨S_, .f32⟩ : BufTy).Contents (Elt F) → (⟨S8192, .f32⟩ : BufTy).Contents (Elt F)),
    StableHlo.binary main_v4 main_v205 main_v206 (addf : (⟨S8192, .f32⟩ : BufTy).Contents (Elt F) → (⟨S8192, .f32⟩ : BufTy).Contents (Elt F) → (⟨S8192, .f32⟩ : BufTy).Contents (Elt F)),
    StableHlo.nullary main_cst_45 (constant S_ .f32 0x00000000#32),
    StableHlo.binary main_v116 main_cst_45 main_v207 ((fun x v => Host.reduceAdd x v reducesTo_S28x8192_S8192_d0 h_S_) : (⟨S28x8192, .f32⟩ : BufTy).Contents (Elt F) → (⟨S_, .f32⟩ : BufTy).Contents (Elt F) → (⟨S8192, .f32⟩ : BufTy).Contents (Elt F)),
    StableHlo.binary main_v206 main_v207 main_v208 (addf : (⟨S8192, .f32⟩ : BufTy).Contents (Elt F) → (⟨S8192, .f32⟩ : BufTy).Contents (Elt F) → (⟨S8192, .f32⟩ : BufTy).Contents (Elt F)),
    StableHlo.nullary main_cst_46 (constant S_ .f32 0x00000000#32),
    StableHlo.binary main_v204 main_cst_46 main_v209 ((fun x v => Host.reduceAdd x v reducesTo_S56x8192_S8192_d0 h_S_) : (⟨S56x8192, .f32⟩ : BufTy).Contents (Elt F) → (⟨S_, .f32⟩ : BufTy).Contents (Elt F) → (⟨S8192, .f32⟩ : BufTy).Contents (Elt F)),
    StableHlo.binary main_v208 main_v209 main_v210 (addf : (⟨S8192, .f32⟩ : BufTy).Contents (Elt F) → (⟨S8192, .f32⟩ : BufTy).Contents (Elt F) → (⟨S8192, .f32⟩ : BufTy).Contents (Elt F)),
    StableHlo.unary main_v210 main_v211 (broadcastInDim S8192x1 ![0] bcast_S8192_S8192x1_0 : (⟨S8192, .f32⟩ : BufTy).Contents (Elt F) → (⟨S8192x1, .f32⟩ : BufTy).Contents (Elt F)) ]
/-- The result buffers of statements 207 … 261, in order. -/
abbrev wrD : List (Ref sig .tc) :=
  [main_c_38, main_v166, main_v167, main_v168, main_v169, main_v170, main_v171, main_c_39, main_v172, main_v173, main_v174, main_v175, main_v176, main_v177, main_c_40, main_v178, main_v179, main_v180, main_v181, main_v182, main_v183, main_c_41, main_v184, main_v185, main_v186, main_v187, main_v188, main_v189, main_c_42, main_v190, main_v191, main_v192, main_v193, main_v194, main_v195, main_c_43, main_v196, main_v197, main_v198, main_v199, main_v200, main_v201, main_v202, main_v203, main_v204, main_cst_44, main_v205, main_v206, main_cst_45, main_v207, main_v208, main_cst_46, main_v209, main_v210, main_v211]
set_option maxRecDepth 8192 in
theorem opsD_sub : (opsD : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., binary_bufs_sub .., binary_bufs_sub .., nullary_bufs_sub .., binary_bufs_sub .., binary_bufs_sub .., nullary_bufs_sub .., binary_bufs_sub .., binary_bufs_sub .., unary_bufs_sub ..⟩

-- table: end

/-- @main's 261 operations, in order. -/
abbrev ops : List (HloOp τ sig (Elt F)) := opsA ++ opsM1 ++ opsB ++ opsM2 ++ opsC ++ opsM3 ++ opsD

/-! ## The program is the line of its operations

@main runs five windows of its statements one after the other, sixty statements each and what is left in the last.
Each window is the line of the corresponding sixty entries of `ops`, by unfolding; a line of a concatenation is the lines
run one after the other (`seq_append`). -/

/-- A list is its five consecutive windows of sixty (the last one what is left). -/
theorem windows {α : Type} (l : List α) :
    l = l.take 60 ++ ((l.drop 60).take 60 ++ (((l.drop 60).drop 60).take 60
          ++ ((((l.drop 60).drop 60).drop 60).take 60 ++ (((l.drop 60).drop 60).drop 60).drop 60))) := by
  simp only [List.take_append_drop]

set_option maxRecDepth 8192 in
set_option maxHeartbeats 4000000 in
theorem part0_eq (c : Dev nD) : main_part0 (F := F) c = seq ((ops (F := F)).take 60) := rfl
set_option maxRecDepth 8192 in
set_option maxHeartbeats 4000000 in
theorem part1_eq (c : Dev nD) : main_part1 (F := F) c = seq (((ops (F := F)).drop 60).take 60) := rfl
set_option maxRecDepth 8192 in
set_option maxHeartbeats 4000000 in
theorem part2_eq (c : Dev nD) : main_part2 (F := F) c = seq ((((ops (F := F)).drop 60).drop 60).take 60) := rfl
set_option maxRecDepth 8192 in
set_option maxHeartbeats 4000000 in
theorem part3_eq (c : Dev nD) : main_part3 (F := F) c = seq (((((ops (F := F)).drop 60).drop 60).drop 60).take 60) := rfl
set_option maxRecDepth 8192 in
set_option maxHeartbeats 4000000 in
theorem part4_eq (c : Dev nD) : main_part4 (F := F) c = seq (((((ops (F := F)).drop 60).drop 60).drop 60).drop 60) := rfl

theorem main_eq (c : Dev nD) : main (F := F) c = seq ops := by
  rw [windows (ops (F := F))]
  simp only [seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch. -/
theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h) | h
    exacts [List.forall_iff_forall_mem.mp opsA_sub op h,
      List.forall_iff_forall_mem.mp opsM1_sub op h,
      List.forall_iff_forall_mem.mp opsB_sub op h,
      List.forall_iff_forall_mem.mp opsM2_sub op h,
      List.forall_iff_forall_mem.mp opsC_sub op h,
      List.forall_iff_forall_mem.mp opsM3_sub op h,
      List.forall_iff_forall_mem.mp opsD_sub op h]

/-! ## Every operation determines its results -/

theorem opsA_fresh : ∀ op ∈ (opsA : List (HloOp τ sig (Elt F))), op.fresh = ∅ := by
  intro _ h; (repeat (cases h with | head => rfl | tail _ h => ?_)); exact nomatch h
theorem opsM1_fresh : ∀ op ∈ (opsM1 : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsM2_fresh : ∀ op ∈ (opsM2 : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsM3_fresh : ∀ op ∈ (opsM3 : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [opsA_fresh op h, opsM1_fresh op h, opsB_fresh op h, opsM2_fresh op h, opsC_fresh op h, opsM3_fresh op h, opsD_fresh op h]

/-! ## The run -/

/-- On every device, for any float values, from any memory with zero counters: every weakly fair execution of @main
    terminates, and each buffer of the TensorCore ends at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What a stretch does not write it keeps

Each operation writes its one result buffer, which is in its stretch's list `wr…`; so a reference outside that list is
written by no operation of the stretch, and the fold over the stretch leaves it as it was. The fold over a
concatenation is the folds composed. -/

/-- The fold over a concatenation: the first list's fold, then the second's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
theorem opsA_writes : (opsA : List (HloOp τ sig (Elt F))).Forall fun op =>
    op.writes ⊆ (wrA.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsM1_writes : (opsM1 : List (HloOp τ sig (Elt F))).Forall fun op =>
    op.writes ⊆ (wrM1.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsB_writes : (opsB : List (HloOp τ sig (Elt F))).Forall fun op =>
    op.writes ⊆ (wrB.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsM2_writes : (opsM2 : List (HloOp τ sig (Elt F))).Forall fun op =>
    op.writes ⊆ (wrM2.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsC_writes : (opsC : List (HloOp τ sig (Elt F))).Forall fun op =>
    op.writes ⊆ (wrC.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsM3_writes : (opsM3 : List (HloOp τ sig (Elt F))).Forall fun op =>
    op.writes ⊆ (wrM3.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)
set_option maxRecDepth 8192 in
theorem opsD_writes : (opsD : List (HloOp τ sig (Elt F))).Forall fun op =>
    op.writes ⊆ (wrD.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)

/-- A reference that is the result buffer of no statement keeps its contents through the whole line. -/
theorem keep (V : Valuation τ sig (Elt F)) (r : Ref sig .tc)
    (hA : r ∉ wrA) (hM1 : r ∉ wrM1) (hB : r ∉ wrB) (hM2 : r ∉ wrM2) (hC : r ∉ wrC) (hM3 : r ∉ wrM3) (hD : r ∉ wrD) :
    after (ops (F := F)) V (Proc.devRef .tc r) = V (Proc.devRef .tc r) := by
  simp only [ops, after_append]
  rw [after_of_writes_sub opsD _ opsD_writes hD, after_of_writes_sub opsM3 _ opsM3_writes hM3,
    after_of_writes_sub opsC _ opsC_writes hC, after_of_writes_sub opsM2 _ opsM2_writes hM2,
    after_of_writes_sub opsB _ opsB_writes hB, after_of_writes_sub opsM1 _ opsM1_writes hM1,
    after_of_writes_sub opsA _ opsA_writes hA]

/-! ## The arguments are kept -/

set_option maxRecDepth 8192 in
theorem arg_kept0 (V : Valuation τ sig (Elt F)) :
    after (ops (F := F)) V (Proc.devRef .tc main_arg0) = V (Proc.devRef .tc main_arg0) :=
  keep V main_arg0 (by decide) (by decide) (by decide) (by decide) (by decide) (by decide) (by decide)
set_option maxRecDepth 8192 in
theorem arg_kept1 (V : Valuation τ sig (Elt F)) :
    after (ops (F := F)) V (Proc.devRef .tc main_arg1) = V (Proc.devRef .tc main_arg1) :=
  keep V main_arg1 (by decide) (by decide) (by decide) (by decide) (by decide) (by decide) (by decide)
set_option maxRecDepth 8192 in
theorem arg_kept2 (V : Valuation τ sig (Elt F)) :
    after (ops (F := F)) V (Proc.devRef .tc main_arg2) = V (Proc.devRef .tc main_arg2) :=
  keep V main_arg2 (by decide) (by decide) (by decide) (by decide) (by decide) (by decide) (by decide)
set_option maxRecDepth 8192 in
theorem arg_kept3 (V : Valuation τ sig (Elt F)) :
    after (ops (F := F)) V (Proc.devRef .tc main_arg3) = V (Proc.devRef .tc main_arg3) :=
  keep V main_arg3 (by decide) (by decide) (by decide) (by decide) (by decide) (by decide) (by decide)
set_option maxRecDepth 8192 in
theorem arg_kept4 (V : Valuation τ sig (Elt F)) :
    after (ops (F := F)) V (Proc.devRef .tc main_arg4) = V (Proc.devRef .tc main_arg4) :=
  keep V main_arg4 (by decide) (by decide) (by decide) (by decide) (by decide) (by decide) (by decide)
set_option maxRecDepth 8192 in
theorem arg_kept5 (V : Valuation τ sig (Elt F)) :
    after (ops (F := F)) V (Proc.devRef .tc main_arg5) = V (Proc.devRef .tc main_arg5) :=
  keep V main_arg5 (by decide) (by decide) (by decide) (by decide) (by decide) (by decide) (by decide)
set_option maxRecDepth 8192 in
theorem arg_kept6 (V : Valuation τ sig (Elt F)) :
    after (ops (F := F)) V (Proc.devRef .tc main_arg6) = V (Proc.devRef .tc main_arg6) :=
  keep V main_arg6 (by decide) (by decide) (by decide) (by decide) (by decide) (by decide) (by decide)
set_option maxRecDepth 8192 in
theorem arg_kept7 (V : Valuation τ sig (Elt F)) :
    after (ops (F := F)) V (Proc.devRef .tc main_arg7) = V (Proc.devRef .tc main_arg7) :=
  keep V main_arg7 (by decide) (by decide) (by decide) (by decide) (by decide) (by decide) (by decide)
set_option maxRecDepth 8192 in
theorem arg_kept8 (V : Valuation τ sig (Elt F)) :
    after (ops (F := F)) V (Proc.devRef .tc main_arg8) = V (Proc.devRef .tc main_arg8) :=
  keep V main_arg8 (by decide) (by decide) (by decide) (by decide) (by decide) (by decide) (by decide)
set_option maxRecDepth 8192 in
theorem arg_kept9 (V : Valuation τ sig (Elt F)) :
    after (ops (F := F)) V (Proc.devRef .tc main_arg9) = V (Proc.devRef .tc main_arg9) :=
  keep V main_arg9 (by decide) (by decide) (by decide) (by decide) (by decide) (by decide) (by decide)
set_option maxRecDepth 8192 in
theorem arg_kept10 (V : Valuation τ sig (Elt F)) :
    after (ops (F := F)) V (Proc.devRef .tc main_arg10) = V (Proc.devRef .tc main_arg10) :=
  keep V main_arg10 (by decide) (by decide) (by decide) (by decide) (by decide) (by decide) (by decide)
set_option maxRecDepth 8192 in
theorem arg_kept11 (V : Valuation τ sig (Elt F)) :
    after (ops (F := F)) V (Proc.devRef .tc main_arg11) = V (Proc.devRef .tc main_arg11) :=
  keep V main_arg11 (by decide) (by decide) (by decide) (by decide) (by decide) (by decide) (by decide)
set_option maxRecDepth 8192 in
theorem arg_kept12 (V : Valuation τ sig (Elt F)) :
    after (ops (F := F)) V (Proc.devRef .tc main_arg12) = V (Proc.devRef .tc main_arg12) :=
  keep V main_arg12 (by decide) (by decide) (by decide) (by decide) (by decide) (by decide) (by decide)
set_option maxRecDepth 8192 in
theorem arg_kept13 (V : Valuation τ sig (Elt F)) :
    after (ops (F := F)) V (Proc.devRef .tc main_arg13) = V (Proc.devRef .tc main_arg13) :=
  keep V main_arg13 (by decide) (by decide) (by decide) (by decide) (by decide) (by decide) (by decide)
set_option maxRecDepth 8192 in
theorem arg_kept14 (V : Valuation τ sig (Elt F)) :
    after (ops (F := F)) V (Proc.devRef .tc main_arg14) = V (Proc.devRef .tc main_arg14) :=
  keep V main_arg14 (by decide) (by decide) (by decide) (by decide) (by decide) (by decide) (by decide)
set_option maxRecDepth 8192 in
theorem arg_kept15 (V : Valuation τ sig (Elt F)) :
    after (ops (F := F)) V (Proc.devRef .tc main_arg15) = V (Proc.devRef .tc main_arg15) :=
  keep V main_arg15 (by decide) (by decide) (by decide) (by decide) (by decide) (by decide) (by decide)
set_option maxRecDepth 8192 in
theorem arg_kept16 (V : Valuation τ sig (Elt F)) :
    after (ops (F := F)) V (Proc.devRef .tc main_arg16) = V (Proc.devRef .tc main_arg16) :=
  keep V main_arg16 (by decide) (by decide) (by decide) (by decide) (by decide) (by decide) (by decide)
set_option maxRecDepth 8192 in
theorem arg_kept17 (V : Valuation τ sig (Elt F)) :
    after (ops (F := F)) V (Proc.devRef .tc main_arg17) = V (Proc.devRef .tc main_arg17) :=
  keep V main_arg17 (by decide) (by decide) (by decide) (by decide) (by decide) (by decide) (by decide)
set_option maxRecDepth 8192 in
theorem arg_kept18 (V : Valuation τ sig (Elt F)) :
    after (ops (F := F)) V (Proc.devRef .tc main_arg18) = V (Proc.devRef .tc main_arg18) :=
  keep V main_arg18 (by decide) (by decide) (by decide) (by decide) (by decide) (by decide) (by decide)
set_option maxRecDepth 8192 in
theorem arg_kept19 (V : Valuation τ sig (Elt F)) :
    after (ops (F := F)) V (Proc.devRef .tc main_arg19) = V (Proc.devRef .tc main_arg19) :=
  keep V main_arg19 (by decide) (by decide) (by decide) (by decide) (by decide) (by decide) (by decide)

/-- The reference runs, and its twenty argument arrays end unchanged. -/
theorem frame_ri : Cert.frame_ReferenceIdeal := fun m g _ =>
  (θ_run (defs (F := Ideal)) _ _).mono
    (fun _ h c => ⟨(h c main_arg0).trans (arg_kept0 _),
      (h c main_arg1).trans (arg_kept1 _),
      (h c main_arg2).trans (arg_kept2 _),
      (h c main_arg3).trans (arg_kept3 _),
      (h c main_arg4).trans (arg_kept4 _),
      (h c main_arg5).trans (arg_kept5 _),
      (h c main_arg6).trans (arg_kept6 _),
      (h c main_arg7).trans (arg_kept7 _),
      (h c main_arg8).trans (arg_kept8 _),
      (h c main_arg9).trans (arg_kept9 _),
      (h c main_arg10).trans (arg_kept10 _),
      (h c main_arg11).trans (arg_kept11 _),
      (h c main_arg12).trans (arg_kept12 _),
      (h c main_arg13).trans (arg_kept13 _),
      (h c main_arg14).trans (arg_kept14 _),
      (h c main_arg15).trans (arg_kept15 _),
      (h c main_arg16).trans (arg_kept16 _),
      (h c main_arg17).trans (arg_kept17 _),
      (h c main_arg18).trans (arg_kept18 _),
      (h c main_arg19).trans (arg_kept19 _)⟩)
    (run_after (F := Ideal) m g)

end Cert.ReferenceIdeal.RefRun

end
-- ==== Proof.KWrites.lean ====
/-
  WHICH BUFFERS THE KERNEL'S FOUR HOST STRETCHES WRITE.

  Each host operation writes exactly its result buffer.  Listing the result buffers of a stretch once lets any other
  buffer be carried through the stretch unchanged: a reference outside the list keeps its contents.
-/
import proofs.«100548_j68015102099709_1_alg».proof.Proof.Gen.KernelIdeal.Launch

set_option maxRecDepth 16384

noncomputable section

namespace Cert.KernelIdeal.KWrites

open Cert.KernelIdeal Cert.KernelIdeal.Gen Idealize.ShloMosaic Idealize.ShloMosaic.TcCoe Idealize.ShloMosaic.StableHlo

variable {F : FTy → Type} [FloatOps F]

-- table: begin
/-- The result buffers of the first stretch, in order. -/
abbrev wr0 : List (Ref sig .tc) :=
  [main_c, main_c_0, main_c_1, main_c_2, main_c_3, main_c_4, main_c_5, main_c_6, main_c_7, main_c_8, main_c_9, main_c_10, main_c_11, main_c_12, main_c_13, main_c_14, main_c_15, main_cst, main_v0, main_v1, main_v2, main_v3, main_v4]

/-- The result buffers of the second stretch, in order. -/
abbrev wr1 : List (Ref sig .tc) :=
  [main_v6, main_v7, main_v8, main_c_16, main_v9, main_v10, main_v11, main_v12, main_v13, main_v14]

/-- The result buffers of the third stretch, in order. -/
abbrev wr2 : List (Ref sig .tc) :=
  [main_c_17, main_v16, main_v17, main_v18, main_v19, main_v20, main_v21, main_c_18, main_v22, main_v23, main_v24, main_v25, main_v26, main_v27, main_v28, main_v29, main_v30, main_c_19, main_v31, main_v32, main_v33, main_v34, main_v35, main_v36]

/-- The result buffers of the last stretch, in order. -/
abbrev wr3 : List (Ref sig .tc) :=
  [main_c_20, main_v38, main_v39, main_v40, main_v41, main_v42, main_v43, main_c_21, main_v44, main_v45, main_v46, main_v47, main_v48, main_v49, main_c_22, main_v50, main_v51, main_v52, main_v53, main_v54, main_v55, main_c_23, main_v56, main_v57, main_v58, main_v59, main_v60, main_v61, main_c_24, main_v62, main_v63, main_v64, main_v65, main_v66, main_v67, main_c_25, main_v68, main_v69, main_v70, main_v71, main_v72, main_v73, main_v74, main_v75, main_v76, main_cst_26, main_v77, main_v78, main_cst_27, main_v79, main_v80, main_cst_28, main_v81, main_v82, main_v83]

-- table: end

theorem hostOps0_writes : (hostOps0 : List (HloOp τ sig (Elt F))).Forall fun op =>
    op.writes ⊆ (wr0.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)

/-- A reference the first stretch does not write keeps its contents through it. -/
theorem keep0 (V : Valuation τ sig (Elt F)) (r : Ref sig .tc) (h : r ∉ wr0) :
    after (hostOps0 (F := F)) V (Proc.devRef .tc r) = V (Proc.devRef .tc r) :=
  after_of_writes_sub hostOps0 V hostOps0_writes h

theorem hostOps1_writes : (hostOps1 : List (HloOp τ sig (Elt F))).Forall fun op =>
    op.writes ⊆ (wr1.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)

/-- A reference the second stretch does not write keeps its contents through it. -/
theorem keep1 (V : Valuation τ sig (Elt F)) (r : Ref sig .tc) (h : r ∉ wr1) :
    after (hostOps1 (F := F)) V (Proc.devRef .tc r) = V (Proc.devRef .tc r) :=
  after_of_writes_sub hostOps1 V hostOps1_writes h

theorem hostOps2_writes : (hostOps2 : List (HloOp τ sig (Elt F))).Forall fun op =>
    op.writes ⊆ (wr2.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)

/-- A reference the third stretch does not write keeps its contents through it. -/
theorem keep2 (V : Valuation τ sig (Elt F)) (r : Ref sig .tc) (h : r ∉ wr2) :
    after (hostOps2 (F := F)) V (Proc.devRef .tc r) = V (Proc.devRef .tc r) :=
  after_of_writes_sub hostOps2 V hostOps2_writes h

theorem hostOps3_writes : (hostOps3 : List (HloOp τ sig (Elt F))).Forall fun op =>
    op.writes ⊆ (wr3.map (Proc.devRef (τ := τ) .tc)).toFinset := by
  simp only [List.Forall, nullary_writes, unary_writes, binary_writes, ternary_writes, reshape_writes,
    Finset.singleton_subset_iff, List.mem_toFinset]
  repeat' (first | exact List.mem_map_of_mem (by decide) | constructor)

/-- A reference the last stretch does not write keeps its contents through it. -/
theorem keep3 (V : Valuation τ sig (Elt F)) (r : Ref sig .tc) (h : r ∉ wr3) :
    after (hostOps3 (F := F)) V (Proc.devRef .tc r) = V (Proc.devRef .tc r) :=
  after_of_writes_sub hostOps3 V hostOps3_writes h

end Cert.KernelIdeal.KWrites

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.LibGroupedMlp.lean ====
/-
  GROUPED SIGMOID NETWORKS, READ AT AN ENTRY.

  A group of G small networks, network g applied to every row n of its own input X[g, n, ·]:

      hidden(a, W, b)[q] = σ( Σ_k a[k] · W[q, k] + b[q] )                        (one layer; σ the logistic function)
      net(X)[g, n]       = Σ_h hidden(hidden(hidden(X[g,n,·], Win[g], bin[g]), Wh[g,0], bh[g,0]), Wh[g,1], bh[g,1])[h] · Wo[g,0,h] + bo[g]

  Two programs spell this.  One works on a block of rows with a batched product of an [G, B, K] by an [G, N, K] operand
  (batch axis 0, the LAST axis of both contracted: A·Bᵀ inside each group) into a zero accumulator, the logistic
  function as one operation, biases viewed [G, 1, N] and spread over the rows.  The other works on whole arrays with the
  same batched product as a dot_general, biases spread by two broadcast_in_dims, and the logistic function written
  1 / (1 + e^(-v)) with the literal 1.0.  Over the extended reals both read, at every entry, as the formula above: the
  product is a finite sum in either spelling, and 1 / (1 + e^(-v)) IS the logistic function at every extended real, the
  two infinities included, so nothing here asks an entry to be finite.

  Everything is generic in the extents G (groups), B (rows), K, N, D (widths); the hidden stack has exactly two layers
  (the weights' second axis has extent 2).
-/
import Idealize.ShloMosaic.PureOps.Ideal.Laws
import Idealize.ShloMosaic.Lib.ValueIdx
import Idealize.ShloMosaic.Lib.Pipeline.Value
import proofs.«100548_j68015102099709_1_alg».proof.Proof.LibLogistic

noncomputable section

open scoped BigOperators

namespace Cert.GroupedMlp

open Idealize.ShloMosaic Idealize.ShloMosaic.ValueIdx

/-! ## The batched product A·Bᵀ -/

section Product

variable {G M K N : ℕ}

/-- The dimension numbers: [G, M, K] by [G, N, K] into [G, M, N], batch axis 0 of both, axis 2 of both contracted. -/
abbrev ntDims (G M K N : ℕ)
    (wf : DotDims.WF ⟨3, ![G, M, K]⟩ ⟨3, ![G, N, K]⟩ ⟨3, ![G, M, N]⟩ [2] [2] [1] [1] [0] [0]) :
    DotDims ⟨3, ![G, M, K]⟩ ⟨3, ![G, N, K]⟩ ⟨3, ![G, M, N]⟩ where
  lhsContracting := [2]
  rhsContracting := [2]
  lhsNonContracting := [1]
  rhsNonContracting := [1]
  lhsBatch := [0]
  rhsBatch := [0]
  wf := wf

section Written

variable (wf : DotDims.WF ⟨3, ![G, M, K]⟩ ⟨3, ![G, N, K]⟩ ⟨3, ![G, M, N]⟩ [2] [2] [1] [1] [0] [0])

/-- At output (g, p, q) and contraction position k the left operand is read at (g, p, k). -/
theorem lhsIdx_nt (g : Fin G) (p : Fin M) (q : Fin N) (k : Fin K) :
    (ntDims G M K N wf).lhsIdx (ix3 g p q) ((contrEquiv1 (ntDims G M K N wf) K rfl rfl).symm k) = ix3 g p k :=
  funext fun a => Fin.ext (by
    match a with
    | ⟨0, _⟩ => rfl
    | ⟨1, _⟩ => rfl
    | ⟨2, _⟩ =>
      exact ((ntDims G M K N wf).lhsIdx_val_of_single rfl (ix3 g p q) _).trans
        (contrEquiv1_symm_val (ntDims G M K N wf) K rfl rfl k))

/-- At output (g, p, q) and contraction position k the right operand is read at (g, q, k). -/
theorem rhsIdx_nt (g : Fin G) (p : Fin M) (q : Fin N) (k : Fin K) :
    (ntDims G M K N wf).rhsIdx (ix3 g p q) ((contrEquiv1 (ntDims G M K N wf) K rfl rfl).symm k) = ix3 g q k :=
  funext fun a => Fin.ext (by
    match a with
    | ⟨0, _⟩ => rfl
    | ⟨1, _⟩ => rfl
    | ⟨2, _⟩ =>
      exact ((ntDims G M K N wf).rhsIdx_val_of_single rfl (ix3 g p q) _).trans
        (contrEquiv1_symm_val (ntDims G M K N wf) K rfl rfl k))

theorem matmul_ntDims_apply {φ₁ φ₂ : FTy} (prec : Option ContractPrecision)
    (l : FVec Ideal ⟨3, ![G, M, K]⟩ φ₁) (r : FVec Ideal ⟨3, ![G, N, K]⟩ φ₂) (g : Fin G) (p : Fin M) (q : Fin N) :
    matmul (ntDims G M K N wf) prec l r (constant (F := Ideal) ⟨3, ![G, M, N]⟩ .f32 0x00000000#32) (ix3 g p q)
      = ∑ k : Fin K, l (ix3 g p k) * r (ix3 g q k) := by
  simp only [matmul]
  rw [Ideal.matmul_constant_zero_apply, ← Equiv.sum_comp (contrEquiv1 (ntDims G M K N wf) K rfl rfl).symm]
  refine Finset.sum_congr rfl fun k _ => ?_
  rw [lhsIdx_nt, rhsIdx_nt]

theorem dotGeneral_ntDims_apply {φ₁ φ₂ : FTy} (prec : Option ContractPrecision)
    (l : FVec Ideal ⟨3, ![G, M, K]⟩ φ₁) (r : FVec Ideal ⟨3, ![G, N, K]⟩ φ₂) (g : Fin G) (p : Fin M) (q : Fin N) :
    Host.dotGeneral (ntDims G M K N wf) prec l r (ix3 g p q) = ∑ k : Fin K, l (ix3 g p k) * r (ix3 g q k) := by
  show FloatOps.dotGeneral (ntDims G M K N wf) prec .single l r (ix3 g p q) = _
  rw [Ideal.dotGeneral_apply, ← Equiv.sum_comp (contrEquiv1 (ntDims G M K N wf) K rfl rfl).symm]
  refine Finset.sum_congr rfl fun k _ => ?_
  rw [lhsIdx_nt, rhsIdx_nt]

end Written

/-- A record has the dimension numbers of the batched A·Bᵀ. -/
structure IsNT (d : DotDims ⟨3, ![G, M, K]⟩ ⟨3, ![G, N, K]⟩ ⟨3, ![G, M, N]⟩) : Prop where
  lc : d.lhsContracting = [2]
  rc : d.rhsContracting = [2]
  ln : d.lhsNonContracting = [1]
  rn : d.rhsNonContracting = [1]
  lb : d.lhsBatch = [0]
  rb : d.rhsBatch = [0]

/-- The batched A·Bᵀ on the matrix unit, into zeros, at (g, p, q): Σ_k l[g,p,k] · r[g,q,k]. -/
theorem matmul_nt_apply {φ₁ φ₂ : FTy} (d : DotDims ⟨3, ![G, M, K]⟩ ⟨3, ![G, N, K]⟩ ⟨3, ![G, M, N]⟩) (hd : IsNT d)
    (prec : Option ContractPrecision) (l : FVec Ideal ⟨3, ![G, M, K]⟩ φ₁) (r : FVec Ideal ⟨3, ![G, N, K]⟩ φ₂)
    (g : Fin G) (p : Fin M) (q : Fin N) :
    matmul d prec l r (constant (F := Ideal) ⟨3, ![G, M, N]⟩ .f32 0x00000000#32) (ix3 g p q)
      = ∑ k : Fin K, l (ix3 g p k) * r (ix3 g q k) := by
  obtain ⟨lc, rc, ln, rn, lb, rb, wf⟩ := d
  obtain ⟨h1, h2, h3, h4, h5, h6⟩ := hd
  simp only at h1 h2 h3 h4 h5 h6
  subst h1 h2 h3 h4 h5 h6
  exact matmul_ntDims_apply wf prec l r g p q

/-- The same product as a host dot_general. -/
theorem dotGeneral_nt_apply {φ₁ φ₂ : FTy} (d : DotDims ⟨3, ![G, M, K]⟩ ⟨3, ![G, N, K]⟩ ⟨3, ![G, M, N]⟩) (hd : IsNT d)
    (prec : Option ContractPrecision) (l : FVec Ideal ⟨3, ![G, M, K]⟩ φ₁) (r : FVec Ideal ⟨3, ![G, N, K]⟩ φ₂)
    (g : Fin G) (p : Fin M) (q : Fin N) :
    Host.dotGeneral d prec l r (ix3 g p q) = ∑ k : Fin K, l (ix3 g p k) * r (ix3 g q k) := by
  obtain ⟨lc, rc, ln, rn, lb, rb, wf⟩ := d
  obtain ⟨h1, h2, h3, h4, h5, h6⟩ := hd
  simp only at h1 h2 h3 h4 h5 h6
  subst h1 h2 h3 h4 h5 h6
  exact dotGeneral_ntDims_apply wf prec l r g p q

end Product

/-! ## Layout operations read at an entry -/

section Layout

variable {α : Type} {G B N H K : ℕ}

/-- A [G, N] bias viewed [G, 1, N] and spread over B rows reads, at (g, p, q), the bias at (g, q). -/
theorem biasSpread_block (bias : (⟨2, ![G, N]⟩ : Shape).Idx → α)
    (h1 : (⟨2, ![G, N]⟩ : Shape).ShapeCasts ⟨3, ![G, 1, N]⟩) (h2 : (⟨3, ![G, 1, N]⟩ : Shape).Broadcasts ⟨3, ![G, B, N]⟩)
    (g : Fin G) (p : Fin B) (q : Fin N) :
    broadcastTo ⟨3, ![G, B, N]⟩ (shapeCast ⟨3, ![G, 1, N]⟩ bias h1) h2 (ix3 g p q) = bias (ix2 g q) := by
  have e : broadcastTo ⟨3, ![G, B, N]⟩ (shapeCast ⟨3, ![G, 1, N]⟩ bias h1) h2 (ix3 g p q)
      = shapeCast ⟨3, ![G, 1, N]⟩ bias h1 (ix3 g (0 : Fin 1) q) := by
    refine broadcastTo_apply _ h2 (ix3 g p q) (ix3 g (0 : Fin 1) q) fun ax => ?_
    match ax with
    | ⟨0, _⟩ =>
      show g.val = if G = 1 then 0 else g.val
      split
      · have := g.isLt; omega
      · rfl
    | ⟨1, _⟩ => rfl
    | ⟨2, _⟩ =>
      show q.val = if N = 1 then 0 else q.val
      split
      · have := q.isLt; omega
      · rfl
  rw [e]
  exact shapeCast_apply bias h1 _ _ (by
    rw [Shape.rowMajor_val_two, Shape.rowMajor_val_three]
    show g.val * N + q.val = (g.val * 1 + 0) * N + q.val
    rw [Nat.mul_one, Nat.add_zero])

/-- The same spread by two broadcast_in_dims ([G, N] to [G, 1, N] on axes 0 and 2, then to [G, B, N]). -/
theorem biasSpread_host (bias : (⟨2, ![G, N]⟩ : Shape).Idx → α)
    (h1 : (⟨2, ![G, N]⟩ : Shape).BroadcastsInDim ⟨3, ![G, 1, N]⟩ ![0, 2])
    (h2 : (⟨3, ![G, 1, N]⟩ : Shape).BroadcastsInDim ⟨3, ![G, B, N]⟩ ![0, 1, 2])
    (g : Fin G) (p : Fin B) (q : Fin N) :
    broadcastInDim ⟨3, ![G, B, N]⟩ ![0, 1, 2] h2 (broadcastInDim ⟨3, ![G, 1, N]⟩ ![0, 2] h1 bias) (ix3 g p q) = bias (ix2 g q) := by
  have e : broadcastInDim ⟨3, ![G, B, N]⟩ ![0, 1, 2] h2 (broadcastInDim ⟨3, ![G, 1, N]⟩ ![0, 2] h1 bias) (ix3 g p q)
      = broadcastInDim ⟨3, ![G, 1, N]⟩ ![0, 2] h1 bias (ix3 g (0 : Fin 1) q) := by
    refine broadcastInDim_apply ![0, 1, 2] h2 _ (ix3 g p q) (ix3 g (0 : Fin 1) q) fun ax => ?_
    match ax with
    | ⟨0, _⟩ =>
      show g.val = if G = 1 then 0 else g.val
      split
      · have := g.isLt; omega
      · rfl
    | ⟨1, _⟩ => rfl
    | ⟨2, _⟩ =>
      show q.val = if N = 1 then 0 else q.val
      split
      · have := q.isLt; omega
      · rfl
  rw [e]
  refine broadcastInDim_apply ![0, 2] h1 bias (ix3 g (0 : Fin 1) q) (ix2 g q) fun ax => ?_
  match ax with
  | ⟨0, _⟩ =>
    show g.val = if G = 1 then 0 else g.val
    split
    · have := g.isLt; omega
    · rfl
  | ⟨1, _⟩ =>
    show q.val = if N = 1 then 0 else q.val
    split
    · have := q.isLt; omega
    · rfl

/-- Layer l of a [G, 2, H, K] stack of weight matrices (a unit slice along axis 1, the unit axis dropped) reads,
    at (g, q, k), the stack at (g, l, q, k). -/
theorem weightSlice (l : ℕ) (hl : l < 2) (W : (⟨4, ![G, 2, H, K]⟩ : Shape).Idx → α)
    (hs : (⟨4, ![G, 2, H, K]⟩ : Shape).Slices ![0, l, 0, 0] ⟨4, ![G, 1, H, K]⟩)
    (hc : (⟨4, ![G, 1, H, K]⟩ : Shape).ShapeCasts ⟨3, ![G, H, K]⟩) (g : Fin G) (q : Fin H) (k : Fin K) :
    shapeCast ⟨3, ![G, H, K]⟩ (extractStridedSlice ⟨4, ![G, 1, H, K]⟩ ![0, l, 0, 0] W hs) hc (ix3 g q k)
      = W (ix4 g (⟨l, hl⟩ : Fin 2) q k) := by
  have e : shapeCast ⟨3, ![G, H, K]⟩ (extractStridedSlice ⟨4, ![G, 1, H, K]⟩ ![0, l, 0, 0] W hs) hc (ix3 g q k)
      = extractStridedSlice ⟨4, ![G, 1, H, K]⟩ ![0, l, 0, 0] W hs (ix4 g (0 : Fin 1) q k) :=
    shapeCast_apply _ hc _ _ (by
      rw [Shape.rowMajor_val_four, Shape.rowMajor_val_three]
      show ((g.val * 1 + 0) * H + q.val) * K + k.val = (g.val * H + q.val) * K + k.val
      rw [Nat.mul_one, Nat.add_zero])
  rw [e]
  refine extractStridedSlice_apply _ W hs (ix4 g (0 : Fin 1) q k) (ix4 g (⟨l, hl⟩ : Fin 2) q k) fun ax => ?_
  match ax with
  | ⟨0, _⟩ => exact (Nat.zero_add _).symm
  | ⟨1, _⟩ => exact (Nat.add_zero _).symm
  | ⟨2, _⟩ => exact (Nat.zero_add _).symm
  | ⟨3, _⟩ => exact (Nat.zero_add _).symm

/-- Layer l of a [G, 2, N] stack of biases reads, at (g, q), the stack at (g, l, q). -/
theorem biasSlice (l : ℕ) (hl : l < 2) (b : (⟨3, ![G, 2, N]⟩ : Shape).Idx → α)
    (hs : (⟨3, ![G, 2, N]⟩ : Shape).Slices ![0, l, 0] ⟨3, ![G, 1, N]⟩)
    (hc : (⟨3, ![G, 1, N]⟩ : Shape).ShapeCasts ⟨2, ![G, N]⟩) (g : Fin G) (q : Fin N) :
    shapeCast ⟨2, ![G, N]⟩ (extractStridedSlice ⟨3, ![G, 1, N]⟩ ![0, l, 0] b hs) hc (ix2 g q) = b (ix3 g (⟨l, hl⟩ : Fin 2) q) := by
  have e : shapeCast ⟨2, ![G, N]⟩ (extractStridedSlice ⟨3, ![G, 1, N]⟩ ![0, l, 0] b hs) hc (ix2 g q)
      = extractStridedSlice ⟨3, ![G, 1, N]⟩ ![0, l, 0] b hs (ix3 g (0 : Fin 1) q) :=
    shapeCast_apply _ hc _ _ (by
      rw [Shape.rowMajor_val_three, Shape.rowMajor_val_two]
      show (g.val * 1 + 0) * N + q.val = g.val * N + q.val
      rw [Nat.mul_one, Nat.add_zero])
  rw [e]
  refine extractStridedSlice_apply _ b hs (ix3 g (0 : Fin 1) q) (ix3 g (⟨l, hl⟩ : Fin 2) q) fun ax => ?_
  match ax with
  | ⟨0, _⟩ => exact (Nat.zero_add _).symm
  | ⟨1, _⟩ => exact (Nat.add_zero _).symm
  | ⟨2, _⟩ => exact (Nat.zero_add _).symm

/-- A [G, B, 1] array with its unit axis dropped reads, at (g, p), the array at (g, p, 0). -/
theorem dropLast (x : (⟨3, ![G, B, 1]⟩ : Shape).Idx → α) (hc : (⟨3, ![G, B, 1]⟩ : Shape).ShapeCasts ⟨2, ![G, B]⟩)
    (g : Fin G) (p : Fin B) : shapeCast ⟨2, ![G, B]⟩ x hc (ix2 g p) = x (ix3 g p (0 : Fin 1)) :=
  shapeCast_apply x hc _ _ (by
    rw [Shape.rowMajor_val_three, Shape.rowMajor_val_two]
    show (g.val * B + p.val) * 1 + 0 = g.val * B + p.val
    rw [Nat.mul_one, Nat.add_zero])

/-- A [G] vector viewed as a column and spread over B entries reads, at (g, p), the vector at g. -/
theorem colSpread_block (v : (⟨1, ![G]⟩ : Shape).Idx → α) (h1 : (⟨1, ![G]⟩ : Shape).ShapeCasts ⟨2, ![G, 1]⟩)
    (h2 : (⟨2, ![G, 1]⟩ : Shape).Broadcasts ⟨2, ![G, B]⟩) (g : Fin G) (p : Fin B) :
    broadcastTo ⟨2, ![G, B]⟩ (shapeCast ⟨2, ![G, 1]⟩ v h1) h2 (ix2 g p) = v (ix1 g) := by
  have e : broadcastTo ⟨2, ![G, B]⟩ (shapeCast ⟨2, ![G, 1]⟩ v h1) h2 (ix2 g p)
      = shapeCast ⟨2, ![G, 1]⟩ v h1 (ix2 g (0 : Fin 1)) := by
    refine broadcastTo_apply _ h2 (ix2 g p) (ix2 g (0 : Fin 1)) fun ax => ?_
    match ax with
    | ⟨0, _⟩ =>
      show g.val = if G = 1 then 0 else g.val
      split
      · have := g.isLt; omega
      · rfl
    | ⟨1, _⟩ => rfl
  rw [e]
  exact shapeCast_apply v h1 _ _ (by
    rw [Shape.rowMajor_val_two, Shape.rowMajor_val_one]
    show g.val = g.val * 1 + 0
    rw [Nat.mul_one, Nat.add_zero])

/-- The same spread by two broadcast_in_dims. -/
theorem colSpread_host (v : (⟨1, ![G]⟩ : Shape).Idx → α) (h1 : (⟨1, ![G]⟩ : Shape).BroadcastsInDim ⟨2, ![G, 1]⟩ ![0])
    (h2 : (⟨2, ![G, 1]⟩ : Shape).BroadcastsInDim ⟨2, ![G, B]⟩ ![0, 1]) (g : Fin G) (p : Fin B) :
    broadcastInDim ⟨2, ![G, B]⟩ ![0, 1] h2 (broadcastInDim ⟨2, ![G, 1]⟩ ![0] h1 v) (ix2 g p) = v (ix1 g) := by
  have e : broadcastInDim ⟨2, ![G, B]⟩ ![0, 1] h2 (broadcastInDim ⟨2, ![G, 1]⟩ ![0] h1 v) (ix2 g p)
      = broadcastInDim ⟨2, ![G, 1]⟩ ![0] h1 v (ix2 g (0 : Fin 1)) := by
    refine broadcastInDim_apply ![0, 1] h2 _ (ix2 g p) (ix2 g (0 : Fin 1)) fun ax => ?_
    match ax with
    | ⟨0, _⟩ =>
      show g.val = if G = 1 then 0 else g.val
      split
      · have := g.isLt; omega
      · rfl
    | ⟨1, _⟩ => rfl
  rw [e]
  refine broadcastInDim_apply ![0] h1 v (ix2 g (0 : Fin 1)) (ix1 g) fun ax => ?_
  match ax with
  | ⟨0, _⟩ =>
    show g.val = if G = 1 then 0 else g.val
    split
    · have := g.isLt; omega
    · rfl

/-- A scalar spread over any shape reads the scalar everywhere. -/
theorem scalarSpread {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

end Layout

/-! ## The specification -/

section Spec

/-- One hidden layer at output unit q: the logistic function of the row's inner product with weight row q plus the
    bias. -/
def hidden {K N : ℕ} (a : Fin K → EReal) (w : Fin N → Fin K → EReal) (b : Fin N → EReal) (q : Fin N) : EReal :=
  Ideal.logistic ((∑ k : Fin K, a k * w q k) + b q)

/-- One network on one row: three logistic layers (input and two hidden) and a linear read-out. -/
def row {D H : ℕ} (x : Fin D → EReal) (win : Fin H → Fin D → EReal) (bin : Fin H → EReal)
    (wa : Fin H → Fin H → EReal) (ba : Fin H → EReal) (wb : Fin H → Fin H → EReal) (bb : Fin H → EReal)
    (wo : Fin H → EReal) (bo : EReal) : EReal :=
  (∑ h : Fin H, hidden (hidden (hidden x win bin) wa ba) wb bb h * wo h) + bo

/-- Network g of the group on row n of its input. -/
def netAt {G B D H : ℕ} (X : (⟨3, ![G, B, D]⟩ : Shape).Idx → EReal) (Win : (⟨3, ![G, H, D]⟩ : Shape).Idx → EReal)
    (bin : (⟨2, ![G, H]⟩ : Shape).Idx → EReal) (Wh : (⟨4, ![G, 2, H, H]⟩ : Shape).Idx → EReal)
    (bh : (⟨3, ![G, 2, H]⟩ : Shape).Idx → EReal) (Wo : (⟨3, ![G, 1, H]⟩ : Shape).Idx → EReal)
    (bo : (⟨1, ![G]⟩ : Shape).Idx → EReal) (g : Fin G) (n : Fin B) : EReal :=
  row (fun d => X (ix3 g n d)) (fun h d => Win (ix3 g h d)) (fun h => bin (ix2 g h))
    (fun q k => Wh (ix4 g (⟨0, Nat.zero_lt_two⟩ : Fin 2) q k)) (fun q => bh (ix3 g (⟨0, Nat.zero_lt_two⟩ : Fin 2) q))
    (fun q k => Wh (ix4 g (⟨1, Nat.one_lt_two⟩ : Fin 2) q k)) (fun q => bh (ix3 g (⟨1, Nat.one_lt_two⟩ : Fin 2) q))
    (fun h => Wo (ix3 g (0 : Fin 1) h)) (bo (ix1 g))

/-- A row of the network only reads its own row of the input: two inputs (of possibly different row counts) that
    agree on a row give the same value there. -/
theorem netAt_congr {G B B' D H : ℕ} (X : (⟨3, ![G, B, D]⟩ : Shape).Idx → EReal) (X' : (⟨3, ![G, B', D]⟩ : Shape).Idx → EReal)
    (Win : (⟨3, ![G, H, D]⟩ : Shape).Idx → EReal) (bin : (⟨2, ![G, H]⟩ : Shape).Idx → EReal)
    (Wh : (⟨4, ![G, 2, H, H]⟩ : Shape).Idx → EReal) (bh : (⟨3, ![G, 2, H]⟩ : Shape).Idx → EReal)
    (Wo : (⟨3, ![G, 1, H]⟩ : Shape).Idx → EReal) (bo : (⟨1, ![G]⟩ : Shape).Idx → EReal) (g : Fin G) (n : Fin B) (n' : Fin B')
    (hX : ∀ d : Fin D, X (ix3 g n d) = X' (ix3 g n' d)) :
    netAt X Win bin Wh bh Wo bo g n = netAt X' Win bin Wh bh Wo bo g n' := by
  unfold netAt
  rw [show (fun d => X (ix3 g n d)) = fun d => X' (ix3 g n' d) from funext hX]

end Spec

/-! ## The two spellings of a layer and of the read-out, at an entry -/

section Layers

variable {G B K N : ℕ}

/-- A hidden layer on the matrix unit. -/
theorem layer_block (d : DotDims ⟨3, ![G, B, K]⟩ ⟨3, ![G, N, K]⟩ ⟨3, ![G, B, N]⟩) (hd : IsNT d)
    (a : FVec Ideal ⟨3, ![G, B, K]⟩ .f32) (w : FVec Ideal ⟨3, ![G, N, K]⟩ .f32) (bias : FVec Ideal ⟨2, ![G, N]⟩ .f32)
    (h1 : (⟨2, ![G, N]⟩ : Shape).ShapeCasts ⟨3, ![G, 1, N]⟩) (h2 : (⟨3, ![G, 1, N]⟩ : Shape).Broadcasts ⟨3, ![G, B, N]⟩)
    (g : Fin G) (p : Fin B) (q : Fin N) :
    logistic (addf (matmul d none a w (constant (F := Ideal) ⟨3, ![G, B, N]⟩ .f32 0x00000000#32))
        (broadcastTo ⟨3, ![G, B, N]⟩ (shapeCast ⟨3, ![G, 1, N]⟩ bias h1) h2)) (ix3 g p q)
      = hidden (fun k => a (ix3 g p k)) (fun q k => w (ix3 g q k)) (fun q => bias (ix2 g q)) q := by
  show Ideal.logistic (matmul d none a w (constant (F := Ideal) ⟨3, ![G, B, N]⟩ .f32 0x00000000#32) (ix3 g p q)
      + broadcastTo ⟨3, ![G, B, N]⟩ (shapeCast ⟨3, ![G, 1, N]⟩ bias h1) h2 (ix3 g p q)) = _
  rw [matmul_nt_apply d hd, biasSpread_block]
  rfl

/-- The same layer on whole arrays: dot_general, bias by two broadcast_in_dims, 1 / (1 + e^(-v)) with the literal 1.0. -/
theorem layer_host (d : DotDims ⟨3, ![G, B, K]⟩ ⟨3, ![G, N, K]⟩ ⟨3, ![G, B, N]⟩) (hd : IsNT d)
    (a : FVec Ideal ⟨3, ![G, B, K]⟩ .f32) (w : FVec Ideal ⟨3, ![G, N, K]⟩ .f32) (bias : FVec Ideal ⟨2, ![G, N]⟩ .f32)
    (h1 : (⟨2, ![G, N]⟩ : Shape).BroadcastsInDim ⟨3, ![G, 1, N]⟩ ![0, 2])
    (h2 : (⟨3, ![G, 1, N]⟩ : Shape).BroadcastsInDim ⟨3, ![G, B, N]⟩ ![0, 1, 2])
    (hs hs' : (⟨0, ![]⟩ : Shape).BroadcastsInDim ⟨3, ![G, B, N]⟩ ![])
    (g : Fin G) (p : Fin B) (q : Fin N) :
    Host.divf (broadcastInDim ⟨3, ![G, B, N]⟩ ![] hs (constant (F := Ideal) ⟨0, ![]⟩ .f32 0x3F800000#32))
        (addf (broadcastInDim ⟨3, ![G, B, N]⟩ ![] hs' (constant (F := Ideal) ⟨0, ![]⟩ .f32 0x3F800000#32))
          (Host.exp (Host.negf (addf (Host.dotGeneral d none a w)
            (broadcastInDim ⟨3, ![G, B, N]⟩ ![0, 1, 2] h2 (broadcastInDim ⟨3, ![G, 1, N]⟩ ![0, 2] h1 bias)))))) (ix3 g p q)
      = hidden (fun k => a (ix3 g p k)) (fun q k => w (ix3 g q k)) (fun q => bias (ix2 g q)) q := by
  show Ideal.div (broadcastInDim ⟨3, ![G, B, N]⟩ ![] hs (constant (F := Ideal) ⟨0, ![]⟩ .f32 0x3F800000#32) (ix3 g p q))
      (broadcastInDim ⟨3, ![G, B, N]⟩ ![] hs' (constant (F := Ideal) ⟨0, ![]⟩ .f32 0x3F800000#32) (ix3 g p q)
        + Ideal.exp (-(Host.dotGeneral d none a w (ix3 g p q)
            + broadcastInDim ⟨3, ![G, B, N]⟩ ![0, 1, 2] h2 (broadcastInDim ⟨3, ![G, 1, N]⟩ ![0, 2] h1 bias) (ix3 g p q)))) = _
  rw [scalarSpread, constant_apply, Cert.Logistic.one_div_one_add_exp_neg, dotGeneral_nt_apply d hd, biasSpread_host]
  rfl

/-- The linear read-out on the matrix unit: the product with the [G, 1, K] read-out weights, the unit axis dropped,
    plus the [G] bias spread over the rows. -/
theorem readout_block (d : DotDims ⟨3, ![G, B, K]⟩ ⟨3, ![G, 1, K]⟩ ⟨3, ![G, B, 1]⟩) (hd : IsNT d)
    (a : FVec Ideal ⟨3, ![G, B, K]⟩ .f32) (w : FVec Ideal ⟨3, ![G, 1, K]⟩ .f32) (bo : FVec Ideal ⟨1, ![G]⟩ .f32)
    (hc : (⟨3, ![G, B, 1]⟩ : Shape).ShapeCasts ⟨2, ![G, B]⟩) (h1 : (⟨1, ![G]⟩ : Shape).ShapeCasts ⟨2, ![G, 1]⟩)
    (h2 : (⟨2, ![G, 1]⟩ : Shape).Broadcasts ⟨2, ![G, B]⟩) (g : Fin G) (p : Fin B) :
    addf (shapeCast ⟨2, ![G, B]⟩ (matmul d none a w (constant (F := Ideal) ⟨3, ![G, B, 1]⟩ .f32 0x00000000#32)) hc)
        (broadcastTo ⟨2, ![G, B]⟩ (shapeCast ⟨2, ![G, 1]⟩ bo h1) h2) (ix2 g p)
      = (∑ k : Fin K, a (ix3 g p k) * w (ix3 g (0 : Fin 1) k)) + bo (ix1 g) := by
  show shapeCast ⟨2, ![G, B]⟩ (matmul d none a w (constant (F := Ideal) ⟨3, ![G, B, 1]⟩ .f32 0x00000000#32)) hc (ix2 g p)
      + broadcastTo ⟨2, ![G, B]⟩ (shapeCast ⟨2, ![G, 1]⟩ bo h1) h2 (ix2 g p) = _
  rw [dropLast, matmul_nt_apply d hd, colSpread_block]

/-- The same read-out on whole arrays. -/
theorem readout_host (d : DotDims ⟨3, ![G, B, K]⟩ ⟨3, ![G, 1, K]⟩ ⟨3, ![G, B, 1]⟩) (hd : IsNT d)
    (a : FVec Ideal ⟨3, ![G, B, K]⟩ .f32) (w : FVec Ideal ⟨3, ![G, 1, K]⟩ .f32) (bo : FVec Ideal ⟨1, ![G]⟩ .f32)
    (hc : (⟨3, ![G, B, 1]⟩ : Shape).ShapeCasts ⟨2, ![G, B]⟩) (h1 : (⟨1, ![G]⟩ : Shape).BroadcastsInDim ⟨2, ![G, 1]⟩ ![0])
    (h2 : (⟨2, ![G, 1]⟩ : Shape).BroadcastsInDim ⟨2, ![G, B]⟩ ![0, 1]) (g : Fin G) (p : Fin B) :
    addf (shapeCast ⟨2, ![G, B]⟩ (Host.dotGeneral d none a w) hc)
        (broadcastInDim ⟨2, ![G, B]⟩ ![0, 1] h2 (broadcastInDim ⟨2, ![G, 1]⟩ ![0] h1 bo)) (ix2 g p)
      = (∑ k : Fin K, a (ix3 g p k) * w (ix3 g (0 : Fin 1) k)) + bo (ix1 g) := by
  show shapeCast ⟨2, ![G, B]⟩ (Host.dotGeneral d none a w) hc (ix2 g p)
      + broadcastInDim ⟨2, ![G, B]⟩ ![0, 1] h2 (broadcastInDim ⟨2, ![G, 1]⟩ ![0] h1 bo) (ix2 g p) = _
  rw [dropLast, dotGeneral_nt_apply d hd, colSpread_host]

end Layers

end Cert.GroupedMlp

end
-- ==== Proof.Region0.lean ====
/-
  THE FIRST KERNEL REGION'S OUTPUT ARRAY.

  The region runs the grouped network on a grid of 8 points.  Point t stages rows t·1024 … t·1024+1023 of the
  [8, 8192, 1] input (all 8 groups), the whole of every parameter array, computes the block
  out[g, p] = net(g, row t·1024+p) for p < 1024, and writes it back as columns t·1024 … of the [8, 8192] output.

  Read at an entry, the body's one stored value is the network's formula on the staged row (the batched products as
  finite sums, the biases spread over the rows); a row's value only depends on that row, and the staged row (g, p) of
  point t IS row (g, t·1024+p) of the input array; the 8 blocks tile the output.  So the output array ends holding
  net(g, n) at every (g, n), whatever the region found in it.
-/
import proofs.«100548_j68015102099709_1_alg».proof.Proof.Gen.KernelIdeal.Frame
import proofs.«100548_j68015102099709_1_alg».proof.Proof.LibGroupedMlp

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.GroupedMlp

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's stored value at (g, p): the network's formula on the staged row. -/
theorem pay_apply (x0 : Vec Ideal S8x1024x1 .f32) (x1 : Vec Ideal S8x128x1 .f32) (x2 : Vec Ideal S8x128 .f32)
    (x3 : Vec Ideal S8x2x128x128 .f32) (x4 : Vec Ideal S8x2x128 .f32) (x5 : Vec Ideal S8x1x128 .f32) (x6 : Vec Ideal S8 .f32)
    (g : Fin 8) (p : Fin 1024) :
    k0_pay1 (F := Ideal) x0 x1 x2 x3 x4 x5 x6 (ix2 g p)
      = netAt (G := 8) (B := 1024) (D := 1) (H := 128) x0 x1 x2 x3 x4 x5 x6 g p := by
  have hd1 : IsNT dot_S8x1024x1_S8x128x1_S8x1024x128_2_2_1_1_0_0 := ⟨rfl, rfl, rfl, rfl, rfl, rfl⟩
  have hd2 : IsNT dot_S8x1024x128_S8x128x128_S8x1024x128_2_2_1_1_0_0 := ⟨rfl, rfl, rfl, rfl, rfl, rfl⟩
  have hd3 : IsNT dot_S8x1024x128_S8x1x128_S8x1024x1_2_2_1_1_0_0 := ⟨rfl, rfl, rfl, rfl, rfl, rfl⟩
  unfold k0_pay1
  simp only [shapeCast_self]
  rw [readout_block dot_S8x1024x128_S8x1x128_S8x1024x1_2_2_1_1_0_0 hd3]
  simp only [layer_block dot_S8x1024x128_S8x128x128_S8x1024x128_2_2_1_1_0_0 hd2, layer_block dot_S8x1024x1_S8x128x1_S8x1024x128_2_2_1_1_0_0 hd1, weightSlice 0 Nat.zero_lt_two, weightSlice 1 Nat.one_lt_two,
    biasSlice 0 Nat.zero_lt_two, biasSlice 1 Nat.one_lt_two]
  rfl

/-- The stored value at (g, p) from blocks that are row n of the input array and the whole parameter arrays. -/
theorem point_eq (X : S8x8192x1.Idx → EReal) (x0 : Vec Ideal S8x1024x1 .f32) (x1 : Vec Ideal S8x128x1 .f32) (x2 : Vec Ideal S8x128 .f32)
    (x3 : Vec Ideal S8x2x128x128 .f32) (x4 : Vec Ideal S8x2x128 .f32) (x5 : Vec Ideal S8x1x128 .f32) (x6 : Vec Ideal S8 .f32)
    (g : Fin 8) (p : Fin 1024) (n : Fin 8192) (h0 : ∀ d : Fin 1, x0 (ix3 g p d) = X (ix3 g n d)) :
    k0_pay1 (F := Ideal) x0 x1 x2 x3 x4 x5 x6 (ix2 g p)
      = netAt (G := 8) (B := 8192) (D := 1) (H := 128) X x1 x2 x3 x4 x5 x6 g n := by
  rw [pay_apply]
  exact netAt_congr x0 X x1 x2 x3 x4 x5 x6 g p n h0

variable (V : (c : Dev nD) → (b : Ref sig .tc) → Buf (Elt Ideal) ((c : Thread nD τ).loc b))

/-- What the output array ends holding: the network of the arrays the region finds. -/
def out (c : Dev nD) : S8x8192.Idx → EReal := fun i =>
  netAt (G := 8) (B := 8192) (D := 1) (H := 128) (V c main_v4) (V c main_arg2) (V c main_arg3) (V c main_arg4) (V c main_arg5) (V c main_arg6) (V c main_arg7) (i 0) (i 1)

/-- The printed index maps over the grid: the input's and the output's blocks move along the row axis with the point,
    every parameter window stays at block 0. -/
theorem idx_facts : ∀ t : Fin cfg0.N, win0_0.index t (0 : Fin 3) = 0
    ∧ win0_0.index t (1 : Fin 3) = t.val
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 4) = 0
    ∧ win0_3.index t (1 : Fin 4) = 0
    ∧ win0_3.index t (2 : Fin 4) = 0
    ∧ win0_3.index t (3 : Fin 4) = 0
    ∧ win0_4.index t (0 : Fin 3) = 0
    ∧ win0_4.index t (1 : Fin 3) = 0
    ∧ win0_4.index t (2 : Fin 3) = 0
    ∧ win0_5.index t (0 : Fin 3) = 0
    ∧ win0_5.index t (1 : Fin 3) = 0
    ∧ win0_5.index t (2 : Fin 3) = 0
    ∧ win0_6.index t (0 : Fin 1) = 0
    ∧ win0_7.index t (0 : Fin 2) = 0
    ∧ win0_7.index t (1 : Fin 2) = t.val :=
  (by decide +kernel : ∀ t : Fin grid0.N, _)

/-- What point t writes back is block t of `out`. -/
theorem flushed_eq (c : Dev nD) (t : Fin cfg0.N) :
    (dat0 (F := Ideal) V c).flushed 7 t = ((cfg0.win 7).blk t).view.read (Elt Ideal) (out V c) := by
  show (cfg0.win 7).cut (grid0.coords t) ((dat0 V c).after 7 t) = _
  rw [after0_7]
  unfold out0_7
  rw [View.canon_unit_zero hz2]
  simp only [View.ld_unit_zero (S := S8x1024x1) hz3, View.ld_unit_zero (S := S8x128x1) hz3, View.ld_unit_zero (S := S8x128) hz2,
    View.ld_unit_zero (S := S8x2x128x128) hz4, View.ld_unit_zero (S := S8x2x128) hz3, View.ld_unit_zero (S := S8x1x128) hz3,
    View.ld_unit_zero (S := S8) hz1]
  obtain ⟨e0, e1, e2, e3, e4, e5, e6, e7, e8, e9, e10, e11, e12, e13, e14, e15, e16, e17, e18, e19, e20⟩ := idx_facts t
  funext j
  obtain ⟨g, p, rfl⟩ : ∃ (g : Fin 8) (p : Fin 1024), j = ix2 g p := ⟨j 0, j 1, eq_ix2 j⟩
  have ht : t.val < 8 := lt_of_lt_of_eq t.isLt N_0
  have hn : t.val * 1024 + p.val < 8192 := by have := p.isLt; omega
  have hemb : ((cfg0.win 7).blk t).view.emb (ix2 g p) = ix2 g (⟨t.val * 1024 + p.val, hn⟩ : Fin 8192) := by
    funext a; apply Fin.ext
    match a with
    | ⟨0, _⟩ => show win0_7.index t (0 : Fin 2) * 8 + 1 * g.val = g.val; rw [e19, Nat.zero_mul, Nat.one_mul, Nat.zero_add]
    | ⟨1, _⟩ => show win0_7.index t (1 : Fin 2) * 1024 + 1 * p.val = t.val * 1024 + p.val; rw [e20, Nat.one_mul]
  show k0_pay1 (F := Ideal) (iblk0 V c 0 t) (iblk0 V c 1 t) (iblk0 V c 2 t) (iblk0 V c 3 t) (iblk0 V c 4 t) (iblk0 V c 5 t) (iblk0 V c 6 t) (ix2 g p)
    = out V c (((cfg0.win 7).blk t).view.emb (ix2 g p))
  rw [hemb]
  have b1 : iblk0 V c 1 t = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 3) * 8 + 1 * (y 0).val = (y 0).val; rw [e3, Nat.zero_mul, Nat.one_mul, Nat.zero_add]
    | ⟨1, _⟩ => show win0_1.index t (1 : Fin 3) * 128 + 1 * (y 1).val = (y 1).val; rw [e4, Nat.zero_mul, Nat.one_mul, Nat.zero_add]
    | ⟨2, _⟩ => show win0_1.index t (2 : Fin 3) * 1 + 1 * (y 2).val = (y 2).val; rw [e5, Nat.zero_mul, Nat.one_mul, Nat.zero_add]
  have b2 : iblk0 V c 2 t = V c main_arg3 := by
    funext y
    show V c main_arg3 (((cfg0.win 2).blk t).view.emb y) = V c main_arg3 y
    refine congrArg (V c main_arg3) (funext fun a => Fin.ext ?_)
    match a with
    | ⟨0, _⟩ => show win0_2.index t (0 : Fin 2) * 8 + 1 * (y 0).val = (y 0).val; rw [e6, Nat.zero_mul, Nat.one_mul, Nat.zero_add]
    | ⟨1, _⟩ => show win0_2.index t (1 : Fin 2) * 128 + 1 * (y 1).val = (y 1).val; rw [e7, Nat.zero_mul, Nat.one_mul, Nat.zero_add]
  have b3 : iblk0 V c 3 t = V c main_arg4 := by
    funext y
    show V c main_arg4 (((cfg0.win 3).blk t).view.emb y) = V c main_arg4 y
    refine congrArg (V c main_arg4) (funext fun a => Fin.ext ?_)
    match a with
    | ⟨0, _⟩ => show win0_3.index t (0 : Fin 4) * 8 + 1 * (y 0).val = (y 0).val; rw [e8, Nat.zero_mul, Nat.one_mul, Nat.zero_add]
    | ⟨1, _⟩ => show win0_3.index t (1 : Fin 4) * 2 + 1 * (y 1).val = (y 1).val; rw [e9, Nat.zero_mul, Nat.one_mul, Nat.zero_add]
    | ⟨2, _⟩ => show win0_3.index t (2 : Fin 4) * 128 + 1 * (y 2).val = (y 2).val; rw [e10, Nat.zero_mul, Nat.one_mul, Nat.zero_add]
    | ⟨3, _⟩ => show win0_3.index t (3 : Fin 4) * 128 + 1 * (y 3).val = (y 3).val; rw [e11, Nat.zero_mul, Nat.one_mul, Nat.zero_add]
  have b4 : iblk0 V c 4 t = V c main_arg5 := by
    funext y
    show V c main_arg5 (((cfg0.win 4).blk t).view.emb y) = V c main_arg5 y
    refine congrArg (V c main_arg5) (funext fun a => Fin.ext ?_)
    match a with
    | ⟨0, _⟩ => show win0_4.index t (0 : Fin 3) * 8 + 1 * (y 0).val = (y 0).val; rw [e12, Nat.zero_mul, Nat.one_mul, Nat.zero_add]
    | ⟨1, _⟩ => show win0_4.index t (1 : Fin 3) * 2 + 1 * (y 1).val = (y 1).val; rw [e13, Nat.zero_mul, Nat.one_mul, Nat.zero_add]
    | ⟨2, _⟩ => show win0_4.index t (2 : Fin 3) * 128 + 1 * (y 2).val = (y 2).val; rw [e14, Nat.zero_mul, Nat.one_mul, Nat.zero_add]
  have b5 : iblk0 V c 5 t = V c main_arg6 := by
    funext y
    show V c main_arg6 (((cfg0.win 5).blk t).view.emb y) = V c main_arg6 y
    refine congrArg (V c main_arg6) (funext fun a => Fin.ext ?_)
    match a with
    | ⟨0, _⟩ => show win0_5.index t (0 : Fin 3) * 8 + 1 * (y 0).val = (y 0).val; rw [e15, Nat.zero_mul, Nat.one_mul, Nat.zero_add]
    | ⟨1, _⟩ => show win0_5.index t (1 : Fin 3) * 1 + 1 * (y 1).val = (y 1).val; rw [e16, Nat.zero_mul, Nat.one_mul, Nat.zero_add]
    | ⟨2, _⟩ => show win0_5.index t (2 : Fin 3) * 128 + 1 * (y 2).val = (y 2).val; rw [e17, Nat.zero_mul, Nat.one_mul, Nat.zero_add]
  have b6 : iblk0 V c 6 t = V c main_arg7 := by
    funext y
    show V c main_arg7 (((cfg0.win 6).blk t).view.emb y) = V c main_arg7 y
    refine congrArg (V c main_arg7) (funext fun a => Fin.ext ?_)
    match a with
    | ⟨0, _⟩ => show win0_6.index t (0 : Fin 1) * 8 + 1 * (y 0).val = (y 0).val; rw [e18, Nat.zero_mul, Nat.one_mul, Nat.zero_add]
  rw [b1, b2, b3, b4, b5, b6]
  unfold out
  exact point_eq (V c main_v4) (iblk0 V c 0 t) (V c main_arg2) (V c main_arg3) (V c main_arg4) (V c main_arg5) (V c main_arg6)
    (V c main_arg7) g p ⟨t.val * 1024 + p.val, hn⟩ (fun d => by
      show V c main_v4 (((cfg0.win 0).blk t).view.emb (ix3 g p d)) = V c main_v4 (ix3 g ⟨t.val * 1024 + p.val, hn⟩ d)
      refine congrArg (V c main_v4) (funext fun a => Fin.ext ?_)
      match a with
      | ⟨0, _⟩ => show win0_0.index t (0 : Fin 3) * 8 + 1 * g.val = g.val; rw [e0, Nat.zero_mul, Nat.one_mul, Nat.zero_add]
      | ⟨1, _⟩ => show win0_0.index t (1 : Fin 3) * 1024 + 1 * p.val = t.val * 1024 + p.val; rw [e1, Nat.one_mul]
      | ⟨2, _⟩ => show win0_0.index t (2 : Fin 3) * 1 + 1 * d.val = d.val; rw [e2, Nat.zero_mul, Nat.one_mul, Nat.zero_add])

/-- An index of the output array is in point t's block iff each coordinate is in the block's range on its axis. -/
theorem mem_blk (t : Fin cfg0.N) (i : S8x8192.Idx) :
    i ∈ ((cfg0.win 7).blk t).view.set ↔ ∀ a : Fin 2, win0_7.index t a * S8x1024.size a ≤ (i a).val
      ∧ (i a).val < win0_7.index t a * S8x1024.size a + S8x1024.size a := by
  show i ∈ ((View.whole main_v5).slice (win0_7.rect t)).set ↔ _
  rw [View.set_slice_whole, Rect.mem_set_unit]
  exact Iff.rfl

/-- The blocks tile the output: entry (g, n) is in the block of the point n / 1024. -/
theorem cover (i : S8x8192.Idx) : ∃ t : Fin cfg0.N, (cfg0.win 7).flush t = true ∧ i ∈ ((cfg0.win 7).blk t).view.set := by
  have hi0 : (i 0).val < 8 := (i 0).isLt
  have hi1 : (i 1).val < 8192 := (i 1).isLt
  have hlt : (i 1).val / 1024 < grid0.N := by rw [N_0]; omega
  obtain ⟨e0, e1, e2, e3, e4, e5, e6, e7, e8, e9, e10, e11, e12, e13, e14, e15, e16, e17, e18, e19, e20⟩ :=
    idx_facts (⟨(i 1).val / 1024, hlt⟩ : Fin cfg0.N)
  refine ⟨⟨(i 1).val / 1024, hlt⟩, flush0_7 _, ?_⟩
  rw [mem_blk]
  intro a
  match a with
  | ⟨0, _⟩ =>
    show win0_7.index (⟨(i 1).val / 1024, hlt⟩ : Fin cfg0.N) (0 : Fin 2) * 8 ≤ (i 0).val
      ∧ (i 0).val < win0_7.index (⟨(i 1).val / 1024, hlt⟩ : Fin cfg0.N) (0 : Fin 2) * 8 + 8
    rw [e19]; omega
  | ⟨1, _⟩ =>
    show win0_7.index (⟨(i 1).val / 1024, hlt⟩ : Fin cfg0.N) (1 : Fin 2) * 1024 ≤ (i 1).val
      ∧ (i 1).val < win0_7.index (⟨(i 1).val / 1024, hlt⟩ : Fin cfg0.N) (1 : Fin 2) * 1024 + 1024
    rw [e20]
    show (i 1).val / 1024 * 1024 ≤ (i 1).val ∧ (i 1).val < (i 1).val / 1024 * 1024 + 1024
    omega

/-- THE OUTPUT ARRAY after the region: the network of the arrays the region found, at every entry. -/
theorem arr_eq (c : Dev nD) : (dat0 (F := Ideal) V c).arrAt 7 cfg0.N = out V c :=
  (dat0 V c).arrAt_eq_of_cover 7 (out V c) (fun t _ => flushed_eq V c t) (cover)

end Cert.KernelIdeal.Region0

end
-- ==== Proof.Region1.lean ====
/-
  THE SECOND KERNEL REGION'S OUTPUT ARRAY.

  The region runs the grouped network on a grid of 16 points.  Point t stages rows t·512 … t·512+511 of the
  [28, 8192, 2] input (all 28 groups), the whole of every parameter array, computes the block
  out[g, p] = net(g, row t·512+p) for p < 512, and writes it back as columns t·512 … of the [28, 8192] output.

  Read at an entry, the body's one stored value is the network's formula on the staged row (the batched products as
  finite sums, the biases spread over the rows); a row's value only depends on that row, and the staged row (g, p) of
  point t IS row (g, t·512+p) of the input array; the 16 blocks tile the output.  So the output array ends holding
  net(g, n) at every (g, n), whatever the region found in it.
-/
import proofs.«100548_j68015102099709_1_alg».proof.Proof.Gen.KernelIdeal.Frame
import proofs.«100548_j68015102099709_1_alg».proof.Proof.LibGroupedMlp

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.GroupedMlp

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's stored value at (g, p): the network's formula on the staged row. -/
theorem pay_apply (x0 : Vec Ideal S28x512x2 .f32) (x1 : Vec Ideal S28x128x2 .f32) (x2 : Vec Ideal S28x128 .f32)
    (x3 : Vec Ideal S28x2x128x128 .f32) (x4 : Vec Ideal S28x2x128 .f32) (x5 : Vec Ideal S28x1x128 .f32) (x6 : Vec Ideal S28 .f32)
    (g : Fin 28) (p : Fin 512) :
    k1_pay1 (F := Ideal) x0 x1 x2 x3 x4 x5 x6 (ix2 g p)
      = netAt (G := 28) (B := 512) (D := 2) (H := 128) x0 x1 x2 x3 x4 x5 x6 g p := by
  have hd1 : IsNT dot_S28x512x2_S28x128x2_S28x512x128_2_2_1_1_0_0 := ⟨rfl, rfl, rfl, rfl, rfl, rfl⟩
  have hd2 : IsNT dot_S28x512x128_S28x128x128_S28x512x128_2_2_1_1_0_0 := ⟨rfl, rfl, rfl, rfl, rfl, rfl⟩
  have hd3 : IsNT dot_S28x512x128_S28x1x128_S28x512x1_2_2_1_1_0_0 := ⟨rfl, rfl, rfl, rfl, rfl, rfl⟩
  unfold k1_pay1
  simp only [shapeCast_self]
  rw [readout_block dot_S28x512x128_S28x1x128_S28x512x1_2_2_1_1_0_0 hd3]
  simp only [layer_block dot_S28x512x128_S28x128x128_S28x512x128_2_2_1_1_0_0 hd2, layer_block dot_S28x512x2_S28x128x2_S28x512x128_2_2_1_1_0_0 hd1, weightSlice 0 Nat.zero_lt_two, weightSlice 1 Nat.one_lt_two,
    biasSlice 0 Nat.zero_lt_two, biasSlice 1 Nat.one_lt_two]
  rfl

/-- The stored value at (g, p) from blocks that are row n of the input array and the whole parameter arrays. -/
theorem point_eq (X : S28x8192x2.Idx → EReal) (x0 : Vec Ideal S28x512x2 .f32) (x1 : Vec Ideal S28x128x2 .f32) (x2 : Vec Ideal S28x128 .f32)
    (x3 : Vec Ideal S28x2x128x128 .f32) (x4 : Vec Ideal S28x2x128 .f32) (x5 : Vec Ideal S28x1x128 .f32) (x6 : Vec Ideal S28 .f32)
    (g : Fin 28) (p : Fin 512) (n : Fin 8192) (h0 : ∀ d : Fin 2, x0 (ix3 g p d) = X (ix3 g n d)) :
    k1_pay1 (F := Ideal) x0 x1 x2 x3 x4 x5 x6 (ix2 g p)
      = netAt (G := 28) (B := 8192) (D := 2) (H := 128) X x1 x2 x3 x4 x5 x6 g n := by
  rw [pay_apply]
  exact netAt_congr x0 X x1 x2 x3 x4 x5 x6 g p n h0

variable (V : (c : Dev nD) → (b : Ref sig .tc) → Buf (Elt Ideal) ((c : Thread nD τ).loc b))

/-- What the output array ends holding: the network of the arrays the region finds. -/
def out (c : Dev nD) : S28x8192.Idx → EReal := fun i =>
  netAt (G := 28) (B := 8192) (D := 2) (H := 128) (V c main_v14) (V c main_arg8) (V c main_arg9) (V c main_arg10) (V c main_arg11) (V c main_arg12) (V c main_arg13) (i 0) (i 1)

/-- The printed index maps over the grid: the input's and the output's blocks move along the row axis with the point,
    every parameter window stays at block 0. -/
theorem idx_facts : ∀ t : Fin cfg1.N, win1_0.index t (0 : Fin 3) = 0
    ∧ win1_0.index t (1 : Fin 3) = t.val
    ∧ win1_0.index t (2 : Fin 3) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 4) = 0
    ∧ win1_3.index t (1 : Fin 4) = 0
    ∧ win1_3.index t (2 : Fin 4) = 0
    ∧ win1_3.index t (3 : Fin 4) = 0
    ∧ win1_4.index t (0 : Fin 3) = 0
    ∧ win1_4.index t (1 : Fin 3) = 0
    ∧ win1_4.index t (2 : Fin 3) = 0
    ∧ win1_5.index t (0 : Fin 3) = 0
    ∧ win1_5.index t (1 : Fin 3) = 0
    ∧ win1_5.index t (2 : Fin 3) = 0
    ∧ win1_6.index t (0 : Fin 1) = 0
    ∧ win1_7.index t (0 : Fin 2) = 0
    ∧ win1_7.index t (1 : Fin 2) = t.val :=
  (by decide +kernel : ∀ t : Fin grid1.N, _)

/-- What point t writes back is block t of `out`. -/
theorem flushed_eq (c : Dev nD) (t : Fin cfg1.N) :
    (dat1 (F := Ideal) V c).flushed 7 t = ((cfg1.win 7).blk t).view.read (Elt Ideal) (out V c) := by
  show (cfg1.win 7).cut (grid1.coords t) ((dat1 V c).after 7 t) = _
  rw [after1_7]
  unfold out1_7
  rw [View.canon_unit_zero hz2]
  simp only [View.ld_unit_zero (S := S28x512x2) hz3, View.ld_unit_zero (S := S28x128x2) hz3, View.ld_unit_zero (S := S28x128) hz2,
    View.ld_unit_zero (S := S28x2x128x128) hz4, View.ld_unit_zero (S := S28x2x128) hz3, View.ld_unit_zero (S := S28x1x128) hz3,
    View.ld_unit_zero (S := S28) hz1]
  obtain ⟨e0, e1, e2, e3, e4, e5, e6, e7, e8, e9, e10, e11, e12, e13, e14, e15, e16, e17, e18, e19, e20⟩ := idx_facts t
  funext j
  obtain ⟨g, p, rfl⟩ : ∃ (g : Fin 28) (p : Fin 512), j = ix2 g p := ⟨j 0, j 1, eq_ix2 j⟩
  have ht : t.val < 16 := lt_of_lt_of_eq t.isLt N_1
  have hn : t.val * 512 + p.val < 8192 := by have := p.isLt; omega
  have hemb : ((cfg1.win 7).blk t).view.emb (ix2 g p) = ix2 g (⟨t.val * 512 + p.val, hn⟩ : Fin 8192) := by
    funext a; apply Fin.ext
    match a with
    | ⟨0, _⟩ => show win1_7.index t (0 : Fin 2) * 28 + 1 * g.val = g.val; rw [e19, Nat.zero_mul, Nat.one_mul, Nat.zero_add]
    | ⟨1, _⟩ => show win1_7.index t (1 : Fin 2) * 512 + 1 * p.val = t.val * 512 + p.val; rw [e20, Nat.one_mul]
  show k1_pay1 (F := Ideal) (iblk1 V c 0 t) (iblk1 V c 1 t) (iblk1 V c 2 t) (iblk1 V c 3 t) (iblk1 V c 4 t) (iblk1 V c 5 t) (iblk1 V c 6 t) (ix2 g p)
    = out V c (((cfg1.win 7).blk t).view.emb (ix2 g p))
  rw [hemb]
  have b1 : iblk1 V c 1 t = V c main_arg8 := by
    funext y
    show V c main_arg8 (((cfg1.win 1).blk t).view.emb y) = V c main_arg8 y
    refine congrArg (V c main_arg8) (funext fun a => Fin.ext ?_)
    match a with
    | ⟨0, _⟩ => show win1_1.index t (0 : Fin 3) * 28 + 1 * (y 0).val = (y 0).val; rw [e3, Nat.zero_mul, Nat.one_mul, Nat.zero_add]
    | ⟨1, _⟩ => show win1_1.index t (1 : Fin 3) * 128 + 1 * (y 1).val = (y 1).val; rw [e4, Nat.zero_mul, Nat.one_mul, Nat.zero_add]
    | ⟨2, _⟩ => show win1_1.index t (2 : Fin 3) * 2 + 1 * (y 2).val = (y 2).val; rw [e5, Nat.zero_mul, Nat.one_mul, Nat.zero_add]
  have b2 : iblk1 V c 2 t = V c main_arg9 := by
    funext y
    show V c main_arg9 (((cfg1.win 2).blk t).view.emb y) = V c main_arg9 y
    refine congrArg (V c main_arg9) (funext fun a => Fin.ext ?_)
    match a with
    | ⟨0, _⟩ => show win1_2.index t (0 : Fin 2) * 28 + 1 * (y 0).val = (y 0).val; rw [e6, Nat.zero_mul, Nat.one_mul, Nat.zero_add]
    | ⟨1, _⟩ => show win1_2.index t (1 : Fin 2) * 128 + 1 * (y 1).val = (y 1).val; rw [e7, Nat.zero_mul, Nat.one_mul, Nat.zero_add]
  have b3 : iblk1 V c 3 t = V c main_arg10 := by
    funext y
    show V c main_arg10 (((cfg1.win 3).blk t).view.emb y) = V c main_arg10 y
    refine congrArg (V c main_arg10) (funext fun a => Fin.ext ?_)
    match a with
    | ⟨0, _⟩ => show win1_3.index t (0 : Fin 4) * 28 + 1 * (y 0).val = (y 0).val; rw [e8, Nat.zero_mul, Nat.one_mul, Nat.zero_add]
    | ⟨1, _⟩ => show win1_3.index t (1 : Fin 4) * 2 + 1 * (y 1).val = (y 1).val; rw [e9, Nat.zero_mul, Nat.one_mul, Nat.zero_add]
    | ⟨2, _⟩ => show win1_3.index t (2 : Fin 4) * 128 + 1 * (y 2).val = (y 2).val; rw [e10, Nat.zero_mul, Nat.one_mul, Nat.zero_add]
    | ⟨3, _⟩ => show win1_3.index t (3 : Fin 4) * 128 + 1 * (y 3).val = (y 3).val; rw [e11, Nat.zero_mul, Nat.one_mul, Nat.zero_add]
  have b4 : iblk1 V c 4 t = V c main_arg11 := by
    funext y
    show V c main_arg11 (((cfg1.win 4).blk t).view.emb y) = V c main_arg11 y
    refine congrArg (V c main_arg11) (funext fun a => Fin.ext ?_)
    match a with
    | ⟨0, _⟩ => show win1_4.index t (0 : Fin 3) * 28 + 1 * (y 0).val = (y 0).val; rw [e12, Nat.zero_mul, Nat.one_mul, Nat.zero_add]
    | ⟨1, _⟩ => show win1_4.index t (1 : Fin 3) * 2 + 1 * (y 1).val = (y 1).val; rw [e13, Nat.zero_mul, Nat.one_mul, Nat.zero_add]
    | ⟨2, _⟩ => show win1_4.index t (2 : Fin 3) * 128 + 1 * (y 2).val = (y 2).val; rw [e14, Nat.zero_mul, Nat.one_mul, Nat.zero_add]
  have b5 : iblk1 V c 5 t = V c main_arg12 := by
    funext y
    show V c main_arg12 (((cfg1.win 5).blk t).view.emb y) = V c main_arg12 y
    refine congrArg (V c main_arg12) (funext fun a => Fin.ext ?_)
    match a with
    | ⟨0, _⟩ => show win1_5.index t (0 : Fin 3) * 28 + 1 * (y 0).val = (y 0).val; rw [e15, Nat.zero_mul, Nat.one_mul, Nat.zero_add]
    | ⟨1, _⟩ => show win1_5.index t (1 : Fin 3) * 1 + 1 * (y 1).val = (y 1).val; rw [e16, Nat.zero_mul, Nat.one_mul, Nat.zero_add]
    | ⟨2, _⟩ => show win1_5.index t (2 : Fin 3) * 128 + 1 * (y 2).val = (y 2).val; rw [e17, Nat.zero_mul, Nat.one_mul, Nat.zero_add]
  have b6 : iblk1 V c 6 t = V c main_arg13 := by
    funext y
    show V c main_arg13 (((cfg1.win 6).blk t).view.emb y) = V c main_arg13 y
    refine congrArg (V c main_arg13) (funext fun a => Fin.ext ?_)
    match a with
    | ⟨0, _⟩ => show win1_6.index t (0 : Fin 1) * 28 + 1 * (y 0).val = (y 0).val; rw [e18, Nat.zero_mul, Nat.one_mul, Nat.zero_add]
  rw [b1, b2, b3, b4, b5, b6]
  unfold out
  exact point_eq (V c main_v14) (iblk1 V c 0 t) (V c main_arg8) (V c main_arg9) (V c main_arg10) (V c main_arg11) (V c main_arg12)
    (V c main_arg13) g p ⟨t.val * 512 + p.val, hn⟩ (fun d => by
      show V c main_v14 (((cfg1.win 0).blk t).view.emb (ix3 g p d)) = V c main_v14 (ix3 g ⟨t.val * 512 + p.val, hn⟩ d)
      refine congrArg (V c main_v14) (funext fun a => Fin.ext ?_)
      match a with
      | ⟨0, _⟩ => show win1_0.index t (0 : Fin 3) * 28 + 1 * g.val = g.val; rw [e0, Nat.zero_mul, Nat.one_mul, Nat.zero_add]
      | ⟨1, _⟩ => show win1_0.index t (1 : Fin 3) * 512 + 1 * p.val = t.val * 512 + p.val; rw [e1, Nat.one_mul]
      | ⟨2, _⟩ => show win1_0.index t (2 : Fin 3) * 2 + 1 * d.val = d.val; rw [e2, Nat.zero_mul, Nat.one_mul, Nat.zero_add])

/-- An index of the output array is in point t's block iff each coordinate is in the block's range on its axis. -/
theorem mem_blk (t : Fin cfg1.N) (i : S28x8192.Idx) :
    i ∈ ((cfg1.win 7).blk t).view.set ↔ ∀ a : Fin 2, win1_7.index t a * S28x512.size a ≤ (i a).val
      ∧ (i a).val < win1_7.index t a * S28x512.size a + S28x512.size a := by
  show i ∈ ((View.whole main_v15).slice (win1_7.rect t)).set ↔ _
  rw [View.set_slice_whole, Rect.mem_set_unit]
  exact Iff.rfl

/-- The blocks tile the output: entry (g, n) is in the block of the point n / 512. -/
theorem cover (i : S28x8192.Idx) : ∃ t : Fin cfg1.N, (cfg1.win 7).flush t = true ∧ i ∈ ((cfg1.win 7).blk t).view.set := by
  have hi0 : (i 0).val < 28 := (i 0).isLt
  have hi1 : (i 1).val < 8192 := (i 1).isLt
  have hlt : (i 1).val / 512 < grid1.N := by rw [N_1]; omega
  obtain ⟨e0, e1, e2, e3, e4, e5, e6, e7, e8, e9, e10, e11, e12, e13, e14, e15, e16, e17, e18, e19, e20⟩ :=
    idx_facts (⟨(i 1).val / 512, hlt⟩ : Fin cfg1.N)
  refine ⟨⟨(i 1).val / 512, hlt⟩, flush1_7 _, ?_⟩
  rw [mem_blk]
  intro a
  match a with
  | ⟨0, _⟩ =>
    show win1_7.index (⟨(i 1).val / 512, hlt⟩ : Fin cfg1.N) (0 : Fin 2) * 28 ≤ (i 0).val
      ∧ (i 0).val < win1_7.index (⟨(i 1).val / 512, hlt⟩ : Fin cfg1.N) (0 : Fin 2) * 28 + 28
    rw [e19]; omega
  | ⟨1, _⟩ =>
    show win1_7.index (⟨(i 1).val / 512, hlt⟩ : Fin cfg1.N) (1 : Fin 2) * 512 ≤ (i 1).val
      ∧ (i 1).val < win1_7.index (⟨(i 1).val / 512, hlt⟩ : Fin cfg1.N) (1 : Fin 2) * 512 + 512
    rw [e20]
    show (i 1).val / 512 * 512 ≤ (i 1).val ∧ (i 1).val < (i 1).val / 512 * 512 + 512
    omega

/-- THE OUTPUT ARRAY after the region: the network of the arrays the region found, at every entry. -/
theorem arr_eq (c : Dev nD) : (dat1 (F := Ideal) V c).arrAt 7 cfg1.N = out V c :=
  (dat1 V c).arrAt_eq_of_cover 7 (out V c) (fun t _ => flushed_eq V c t) (cover)

end Cert.KernelIdeal.Region1

end
-- ==== Proof.Region2.lean ====
/-
  THE THIRD KERNEL REGION'S OUTPUT ARRAY.

  The region runs the grouped network on a grid of 32 points.  Point t stages rows t·256 … t·256+255 of the
  [56, 8192, 3] input (all 56 groups), the whole of every parameter array, computes the block
  out[g, p] = net(g, row t·256+p) for p < 256, and writes it back as columns t·256 … of the [56, 8192] output.

  Read at an entry, the body's one stored value is the network's formula on the staged row (the batched products as
  finite sums, the biases spread over the rows); a row's value only depends on that row, and the staged row (g, p) of
  point t IS row (g, t·256+p) of the input array; the 32 blocks tile the output.  So the output array ends holding
  net(g, n) at every (g, n), whatever the region found in it.
-/
import proofs.«100548_j68015102099709_1_alg».proof.Proof.Gen.KernelIdeal.Frame
import proofs.«100548_j68015102099709_1_alg».proof.Proof.LibGroupedMlp

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.GroupedMlp

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's stored value at (g, p): the network's formula on the staged row. -/
theorem pay_apply (x0 : Vec Ideal S56x256x3 .f32) (x1 : Vec Ideal S56x128x3 .f32) (x2 : Vec Ideal S56x128 .f32)
    (x3 : Vec Ideal S56x2x128x128 .f32) (x4 : Vec Ideal S56x2x128 .f32) (x5 : Vec Ideal S56x1x128 .f32) (x6 : Vec Ideal S56 .f32)
    (g : Fin 56) (p : Fin 256) :
    k2_pay1 (F := Ideal) x0 x1 x2 x3 x4 x5 x6 (ix2 g p)
      = netAt (G := 56) (B := 256) (D := 3) (H := 128) x0 x1 x2 x3 x4 x5 x6 g p := by
  have hd1 : IsNT dot_S56x256x3_S56x128x3_S56x256x128_2_2_1_1_0_0 := ⟨rfl, rfl, rfl, rfl, rfl, rfl⟩
  have hd2 : IsNT dot_S56x256x128_S56x128x128_S56x256x128_2_2_1_1_0_0 := ⟨rfl, rfl, rfl, rfl, rfl, rfl⟩
  have hd3 : IsNT dot_S56x256x128_S56x1x128_S56x256x1_2_2_1_1_0_0 := ⟨rfl, rfl, rfl, rfl, rfl, rfl⟩
  unfold k2_pay1
  simp only [shapeCast_self]
  rw [readout_block dot_S56x256x128_S56x1x128_S56x256x1_2_2_1_1_0_0 hd3]
  simp only [layer_block dot_S56x256x128_S56x128x128_S56x256x128_2_2_1_1_0_0 hd2, layer_block dot_S56x256x3_S56x128x3_S56x256x128_2_2_1_1_0_0 hd1, weightSlice 0 Nat.zero_lt_two, weightSlice 1 Nat.one_lt_two,
    biasSlice 0 Nat.zero_lt_two, biasSlice 1 Nat.one_lt_two]
  rfl

/-- The stored value at (g, p) from blocks that are row n of the input array and the whole parameter arrays. -/
theorem point_eq (X : S56x8192x3.Idx → EReal) (x0 : Vec Ideal S56x256x3 .f32) (x1 : Vec Ideal S56x128x3 .f32) (x2 : Vec Ideal S56x128 .f32)
    (x3 : Vec Ideal S56x2x128x128 .f32) (x4 : Vec Ideal S56x2x128 .f32) (x5 : Vec Ideal S56x1x128 .f32) (x6 : Vec Ideal S56 .f32)
    (g : Fin 56) (p : Fin 256) (n : Fin 8192) (h0 : ∀ d : Fin 3, x0 (ix3 g p d) = X (ix3 g n d)) :
    k2_pay1 (F := Ideal) x0 x1 x2 x3 x4 x5 x6 (ix2 g p)
      = netAt (G := 56) (B := 8192) (D := 3) (H := 128) X x1 x2 x3 x4 x5 x6 g n := by
  rw [pay_apply]
  exact netAt_congr x0 X x1 x2 x3 x4 x5 x6 g p n h0

variable (V : (c : Dev nD) → (b : Ref sig .tc) → Buf (Elt Ideal) ((c : Thread nD τ).loc b))

/-- What the output array ends holding: the network of the arrays the region finds. -/
def out (c : Dev nD) : S56x8192.Idx → EReal := fun i =>
  netAt (G := 56) (B := 8192) (D := 3) (H := 128) (V c main_v36) (V c main_arg14) (V c main_arg15) (V c main_arg16) (V c main_arg17) (V c main_arg18) (V c main_arg19) (i 0) (i 1)

/-- The printed index maps over the grid: the input's and the output's blocks move along the row axis with the point,
    every parameter window stays at block 0. -/
theorem idx_facts : ∀ t : Fin cfg2.N, win2_0.index t (0 : Fin 3) = 0
    ∧ win2_0.index t (1 : Fin 3) = t.val
    ∧ win2_0.index t (2 : Fin 3) = 0
    ∧ win2_1.index t (0 : Fin 3) = 0
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 4) = 0
    ∧ win2_3.index t (1 : Fin 4) = 0
    ∧ win2_3.index t (2 : Fin 4) = 0
    ∧ win2_3.index t (3 : Fin 4) = 0
    ∧ win2_4.index t (0 : Fin 3) = 0
    ∧ win2_4.index t (1 : Fin 3) = 0
    ∧ win2_4.index t (2 : Fin 3) = 0
    ∧ win2_5.index t (0 : Fin 3) = 0
    ∧ win2_5.index t (1 : Fin 3) = 0
    ∧ win2_5.index t (2 : Fin 3) = 0
    ∧ win2_6.index t (0 : Fin 1) = 0
    ∧ win2_7.index t (0 : Fin 2) = 0
    ∧ win2_7.index t (1 : Fin 2) = t.val :=
  (by decide +kernel : ∀ t : Fin grid2.N, _)

/-- What point t writes back is block t of `out`. -/
theorem flushed_eq (c : Dev nD) (t : Fin cfg2.N) :
    (dat2 (F := Ideal) V c).flushed 7 t = ((cfg2.win 7).blk t).view.read (Elt Ideal) (out V c) := by
  show (cfg2.win 7).cut (grid2.coords t) ((dat2 V c).after 7 t) = _
  rw [after2_7]
  unfold out2_7
  rw [View.canon_unit_zero hz2]
  simp only [View.ld_unit_zero (S := S56x256x3) hz3, View.ld_unit_zero (S := S56x128x3) hz3, View.ld_unit_zero (S := S56x128) hz2,
    View.ld_unit_zero (S := S56x2x128x128) hz4, View.ld_unit_zero (S := S56x2x128) hz3, View.ld_unit_zero (S := S56x1x128) hz3,
    View.ld_unit_zero (S := S56) hz1]
  obtain ⟨e0, e1, e2, e3, e4, e5, e6, e7, e8, e9, e10, e11, e12, e13, e14, e15, e16, e17, e18, e19, e20⟩ := idx_facts t
  funext j
  obtain ⟨g, p, rfl⟩ : ∃ (g : Fin 56) (p : Fin 256), j = ix2 g p := ⟨j 0, j 1, eq_ix2 j⟩
  have ht : t.val < 32 := lt_of_lt_of_eq t.isLt N_2
  have hn : t.val * 256 + p.val < 8192 := by have := p.isLt; omega
  have hemb : ((cfg2.win 7).blk t).view.emb (ix2 g p) = ix2 g (⟨t.val * 256 + p.val, hn⟩ : Fin 8192) := by
    funext a; apply Fin.ext
    match a with
    | ⟨0, _⟩ => show win2_7.index t (0 : Fin 2) * 56 + 1 * g.val = g.val; rw [e19, Nat.zero_mul, Nat.one_mul, Nat.zero_add]
    | ⟨1, _⟩ => show win2_7.index t (1 : Fin 2) * 256 + 1 * p.val = t.val * 256 + p.val; rw [e20, Nat.one_mul]
  show k2_pay1 (F := Ideal) (iblk2 V c 0 t) (iblk2 V c 1 t) (iblk2 V c 2 t) (iblk2 V c 3 t) (iblk2 V c 4 t) (iblk2 V c 5 t) (iblk2 V c 6 t) (ix2 g p)
    = out V c (((cfg2.win 7).blk t).view.emb (ix2 g p))
  rw [hemb]
  have b1 : iblk2 V c 1 t = V c main_arg14 := by
    funext y
    show V c main_arg14 (((cfg2.win 1).blk t).view.emb y) = V c main_arg14 y
    refine congrArg (V c main_arg14) (funext fun a => Fin.ext ?_)
    match a with
    | ⟨0, _⟩ => show win2_1.index t (0 : Fin 3) * 56 + 1 * (y 0).val = (y 0).val; rw [e3, Nat.zero_mul, Nat.one_mul, Nat.zero_add]
    | ⟨1, _⟩ => show win2_1.index t (1 : Fin 3) * 128 + 1 * (y 1).val = (y 1).val; rw [e4, Nat.zero_mul, Nat.one_mul, Nat.zero_add]
    | ⟨2, _⟩ => show win2_1.index t (2 : Fin 3) * 3 + 1 * (y 2).val = (y 2).val; rw [e5, Nat.zero_mul, Nat.one_mul, Nat.zero_add]
  have b2 : iblk2 V c 2 t = V c main_arg15 := by
    funext y
    show V c main_arg15 (((cfg2.win 2).blk t).view.emb y) = V c main_arg15 y
    refine congrArg (V c main_arg15) (funext fun a => Fin.ext ?_)
    match a with
    | ⟨0, _⟩ => show win2_2.index t (0 : Fin 2) * 56 + 1 * (y 0).val = (y 0).val; rw [e6, Nat.zero_mul, Nat.one_mul, Nat.zero_add]
    | ⟨1, _⟩ => show win2_2.index t (1 : Fin 2) * 128 + 1 * (y 1).val = (y 1).val; rw [e7, Nat.zero_mul, Nat.one_mul, Nat.zero_add]
  have b3 : iblk2 V c 3 t = V c main_arg16 := by
    funext y
    show V c main_arg16 (((cfg2.win 3).blk t).view.emb y) = V c main_arg16 y
    refine congrArg (V c main_arg16) (funext fun a => Fin.ext ?_)
    match a with
    | ⟨0, _⟩ => show win2_3.index t (0 : Fin 4) * 56 + 1 * (y 0).val = (y 0).val; rw [e8, Nat.zero_mul, Nat.one_mul, Nat.zero_add]
    | ⟨1, _⟩ => show win2_3.index t (1 : Fin 4) * 2 + 1 * (y 1).val = (y 1).val; rw [e9, Nat.zero_mul, Nat.one_mul, Nat.zero_add]
    | ⟨2, _⟩ => show win2_3.index t (2 : Fin 4) * 128 + 1 * (y 2).val = (y 2).val; rw [e10, Nat.zero_mul, Nat.one_mul, Nat.zero_add]
    | ⟨3, _⟩ => show win2_3.index t (3 : Fin 4) * 128 + 1 * (y 3).val = (y 3).val; rw [e11, Nat.zero_mul, Nat.one_mul, Nat.zero_add]
  have b4 : iblk2 V c 4 t = V c main_arg17 := by
    funext y
    show V c main_arg17 (((cfg2.win 4).blk t).view.emb y) = V c main_arg17 y
    refine congrArg (V c main_arg17) (funext fun a => Fin.ext ?_)
    match a with
    | ⟨0, _⟩ => show win2_4.index t (0 : Fin 3) * 56 + 1 * (y 0).val = (y 0).val; rw [e12, Nat.zero_mul, Nat.one_mul, Nat.zero_add]
    | ⟨1, _⟩ => show win2_4.index t (1 : Fin 3) * 2 + 1 * (y 1).val = (y 1).val; rw [e13, Nat.zero_mul, Nat.one_mul, Nat.zero_add]
    | ⟨2, _⟩ => show win2_4.index t (2 : Fin 3) * 128 + 1 * (y 2).val = (y 2).val; rw [e14, Nat.zero_mul, Nat.one_mul, Nat.zero_add]
  have b5 : iblk2 V c 5 t = V c main_arg18 := by
    funext y
    show V c main_arg18 (((cfg2.win 5).blk t).view.emb y) = V c main_arg18 y
    refine congrArg (V c main_arg18) (funext fun a => Fin.ext ?_)
    match a with
    | ⟨0, _⟩ => show win2_5.index t (0 : Fin 3) * 56 + 1 * (y 0).val = (y 0).val; rw [e15, Nat.zero_mul, Nat.one_mul, Nat.zero_add]
    | ⟨1, _⟩ => show win2_5.index t (1 : Fin 3) * 1 + 1 * (y 1).val = (y 1).val; rw [e16, Nat.zero_mul, Nat.one_mul, Nat.zero_add]
    | ⟨2, _⟩ => show win2_5.index t (2 : Fin 3) * 128 + 1 * (y 2).val = (y 2).val; rw [e17, Nat.zero_mul, Nat.one_mul, Nat.zero_add]
  have b6 : iblk2 V c 6 t = V c main_arg19 := by
    funext y
    show V c main_arg19 (((cfg2.win 6).blk t).view.emb y) = V c main_arg19 y
    refine congrArg (V c main_arg19) (funext fun a => Fin.ext ?_)
    match a with
    | ⟨0, _⟩ => show win2_6.index t (0 : Fin 1) * 56 + 1 * (y 0).val = (y 0).val; rw [e18, Nat.zero_mul, Nat.one_mul, Nat.zero_add]
  rw [b1, b2, b3, b4, b5, b6]
  unfold out
  exact point_eq (V c main_v36) (iblk2 V c 0 t) (V c main_arg14) (V c main_arg15) (V c main_arg16) (V c main_arg17) (V c main_arg18)
    (V c main_arg19) g p ⟨t.val * 256 + p.val, hn⟩ (fun d => by
      show V c main_v36 (((cfg2.win 0).blk t).view.emb (ix3 g p d)) = V c main_v36 (ix3 g ⟨t.val * 256 + p.val, hn⟩ d)
      refine congrArg (V c main_v36) (funext fun a => Fin.ext ?_)
      match a with
      | ⟨0, _⟩ => show win2_0.index t (0 : Fin 3) * 56 + 1 * g.val = g.val; rw [e0, Nat.zero_mul, Nat.one_mul, Nat.zero_add]
      | ⟨1, _⟩ => show win2_0.index t (1 : Fin 3) * 256 + 1 * p.val = t.val * 256 + p.val; rw [e1, Nat.one_mul]
      | ⟨2, _⟩ => show win2_0.index t (2 : Fin 3) * 3 + 1 * d.val = d.val; rw [e2, Nat.zero_mul, Nat.one_mul, Nat.zero_add])

/-- An index of the output array is in point t's block iff each coordinate is in the block's range on its axis. -/
theorem mem_blk (t : Fin cfg2.N) (i : S56x8192.Idx) :
    i ∈ ((cfg2.win 7).blk t).view.set ↔ ∀ a : Fin 2, win2_7.index t a * S56x256.size a ≤ (i a).val
      ∧ (i a).val < win2_7.index t a * S56x256.size a + S56x256.size a := by
  show i ∈ ((View.whole main_v37).slice (win2_7.rect t)).set ↔ _
  rw [View.set_slice_whole, Rect.mem_set_unit]
  exact Iff.rfl

/-- The blocks tile the output: entry (g, n) is in the block of the point n / 256. -/
theorem cover (i : S56x8192.Idx) : ∃ t : Fin cfg2.N, (cfg2.win 7).flush t = true ∧ i ∈ ((cfg2.win 7).blk t).view.set := by
  have hi0 : (i 0).val < 56 := (i 0).isLt
  have hi1 : (i 1).val < 8192 := (i 1).isLt
  have hlt : (i 1).val / 256 < grid2.N := by rw [N_2]; omega
  obtain ⟨e0, e1, e2, e3, e4, e5, e6, e7, e8, e9, e10, e11, e12, e13, e14, e15, e16, e17, e18, e19, e20⟩ :=
    idx_facts (⟨(i 1).val / 256, hlt⟩ : Fin cfg2.N)
  refine ⟨⟨(i 1).val / 256, hlt⟩, flush2_7 _, ?_⟩
  rw [mem_blk]
  intro a
  match a with
  | ⟨0, _⟩ =>
    show win2_7.index (⟨(i 1).val / 256, hlt⟩ : Fin cfg2.N) (0 : Fin 2) * 56 ≤ (i 0).val
      ∧ (i 0).val < win2_7.index (⟨(i 1).val / 256, hlt⟩ : Fin cfg2.N) (0 : Fin 2) * 56 + 56
    rw [e19]; omega
  | ⟨1, _⟩ =>
    show win2_7.index (⟨(i 1).val / 256, hlt⟩ : Fin cfg2.N) (1 : Fin 2) * 256 ≤ (i 1).val
      ∧ (i 1).val < win2_7.index (⟨(i 1).val / 256, hlt⟩ : Fin cfg2.N) (1 : Fin 2) * 256 + 256
    rw [e20]
    show (i 1).val / 256 * 256 ≤ (i 1).val ∧ (i 1).val < (i 1).val / 256 * 256 + 256
    omega

/-- THE OUTPUT ARRAY after the region: the network of the arrays the region found, at every entry. -/
theorem arr_eq (c : Dev nD) : (dat2 (F := Ideal) V c).arrAt 7 cfg2.N = out V c :=
  (dat2 V c).arrAt_eq_of_cover 7 (out V c) (fun t _ => flushed_eq V c t) (cover)

end Cert.KernelIdeal.Region2

end
-- ==== Proof.RefNet.lean ====
/-
  THE REFERENCE'S THREE GROUPED NETWORKS, READ AT AN ENTRY.

  Each of the three middle stretches of the reference program is one grouped sigmoid network on whole arrays: the
  batched product of the input with the input weights plus the spread bias, through 1 / (1 + e^(-v)); twice more with
  layer 0 and layer 1 of the hidden stack (a unit slice of the stack with the unit axis dropped); then the product
  with the read-out weights, the unit axis dropped, plus the spread read-out bias.  Folding the stretch's operations
  over any contents U, the stretch's last buffer holds, at entry (g, n), the network's formula on row n of group g of
  what U holds at the stretch's input buffer and at the seven parameter arrays.
-/
import proofs.«100548_j68015102099709_1_alg».proof.Proof.RefRun
import proofs.«100548_j68015102099709_1_alg».proof.Proof.LibGroupedMlp

set_option maxRecDepth 16384

noncomputable section

namespace Cert.ReferenceIdeal.RefNet

open Cert.ReferenceIdeal Cert.ReferenceIdeal.RefRun Idealize.ShloMosaic Idealize.ShloMosaic.ValueIdx Idealize.ShloMosaic.StableHlo
open Cert.GroupedMlp

/-! ## The shapes of the buffers a reshape writes (read off the signature) -/

theorem shape_v18 : (main_v18 : Ref sig .tc).ty.shape = S8x128x128 := rfl
theorem shape_v21 : (main_v21 : Ref sig .tc).ty.shape = S8x128 := rfl
theorem shape_v32 : (main_v32 : Ref sig .tc).ty.shape = S8x128x128 := rfl
theorem shape_v35 : (main_v35 : Ref sig .tc).ty.shape = S8x128 := rfl
theorem shape_v46 : (main_v46 : Ref sig .tc).ty.shape = S8x8192 := rfl

set_option maxHeartbeats 4000000 in
/-- Stretch 1 of the three: at entry (g, n) its last buffer holds network g of the group of 8 on row n. -/
theorem host_net1 (U : Valuation τ sig (Elt Ideal)) :
    after (opsM1 (F := Ideal)) U (Proc.devRef .tc main_v49)
      = fun i => netAt (G := 8) (B := 8192) (D := 1) (H := 128) (U (Proc.devRef .tc main_v6)) (U (Proc.devRef .tc main_arg2))
          (U (Proc.devRef .tc main_arg3)) (U (Proc.devRef .tc main_arg4)) (U (Proc.devRef .tc main_arg5))
          (U (Proc.devRef .tc main_arg6)) (U (Proc.devRef .tc main_arg7)) (i 0) (i 1) := by
  have hd1 : IsNT dot_S8x8192x1_S8x128x1_S8x8192x128_2_2_1_1_0_0 := ⟨rfl, rfl, rfl, rfl, rfl, rfl⟩
  have hd2 : IsNT dot_S8x8192x128_S8x128x128_S8x8192x128_2_2_1_1_0_0 := ⟨rfl, rfl, rfl, rfl, rfl, rfl⟩
  have hd3 : IsNT dot_S8x8192x128_S8x1x128_S8x8192x1_2_2_1_1_0_0 := ⟨rfl, rfl, rfl, rfl, rfl, rfl⟩
  funext i
  obtain ⟨g, n, rfl⟩ : ∃ (g : Fin 8) (n : Fin 8192), i = ix2 g n := ⟨i 0, i 1, eq_ix2 i⟩
  show _ = netAt (G := 8) (B := 8192) (D := 1) (H := 128) (U (Proc.devRef .tc main_v6)) (U (Proc.devRef .tc main_arg2))
          (U (Proc.devRef .tc main_arg3)) (U (Proc.devRef .tc main_arg4)) (U (Proc.devRef .tc main_arg5))
          (U (Proc.devRef .tc main_arg6)) (U (Proc.devRef .tc main_arg7)) g n
  -- the fold, as the composed term over U's contents at the stretch's inputs
  simp only [opsM1]
  after_results_simp
  dsimp only [shape_v18, shape_v21, shape_v32, shape_v35, shape_v46]
  -- the read-out, then the three layers from the outside in, then the slices of the two stacks
  refine (readout_host dot_S8x8192x128_S8x1x128_S8x8192x1_2_2_1_1_0_0 hd3 _ _ _ _ _ _ g n).trans ?_
  simp only [layer_host dot_S8x8192x128_S8x128x128_S8x8192x128_2_2_1_1_0_0 hd2, layer_host dot_S8x8192x1_S8x128x1_S8x8192x128_2_2_1_1_0_0 hd1,
    weightSlice 0 Nat.zero_lt_two, weightSlice 1 Nat.one_lt_two, biasSlice 0 Nat.zero_lt_two, biasSlice 1 Nat.one_lt_two]
  rfl

theorem shape_v70 : (main_v70 : Ref sig .tc).ty.shape = S28x128x128 := rfl
theorem shape_v73 : (main_v73 : Ref sig .tc).ty.shape = S28x128 := rfl
theorem shape_v84 : (main_v84 : Ref sig .tc).ty.shape = S28x128x128 := rfl
theorem shape_v87 : (main_v87 : Ref sig .tc).ty.shape = S28x128 := rfl
theorem shape_v98 : (main_v98 : Ref sig .tc).ty.shape = S28x8192 := rfl

set_option maxHeartbeats 4000000 in
/-- Stretch 2 of the three: at entry (g, n) its last buffer holds network g of the group of 28 on row n. -/
theorem host_net2 (U : Valuation τ sig (Elt Ideal)) :
    after (opsM2 (F := Ideal)) U (Proc.devRef .tc main_v101)
      = fun i => netAt (G := 28) (B := 8192) (D := 2) (H := 128) (U (Proc.devRef .tc main_v58)) (U (Proc.devRef .tc main_arg8))
          (U (Proc.devRef .tc main_arg9)) (U (Proc.devRef .tc main_arg10)) (U (Proc.devRef .tc main_arg11))
          (U (Proc.devRef .tc main_arg12)) (U (Proc.devRef .tc main_arg13)) (i 0) (i 1) := by
  have hd1 : IsNT dot_S28x8192x2_S28x128x2_S28x8192x128_2_2_1_1_0_0 := ⟨rfl, rfl, rfl, rfl, rfl, rfl⟩
  have hd2 : IsNT dot_S28x8192x128_S28x128x128_S28x8192x128_2_2_1_1_0_0 := ⟨rfl, rfl, rfl, rfl, rfl, rfl⟩
  have hd3 : IsNT dot_S28x8192x128_S28x1x128_S28x8192x1_2_2_1_1_0_0 := ⟨rfl, rfl, rfl, rfl, rfl, rfl⟩
  funext i
  obtain ⟨g, n, rfl⟩ : ∃ (g : Fin 28) (n : Fin 8192), i = ix2 g n := ⟨i 0, i 1, eq_ix2 i⟩
  show _ = netAt (G := 28) (B := 8192) (D := 2) (H := 128) (U (Proc.devRef .tc main_v58)) (U (Proc.devRef .tc main_arg8))
          (U (Proc.devRef .tc main_arg9)) (U (Proc.devRef .tc main_arg10)) (U (Proc.devRef .tc main_arg11))
          (U (Proc.devRef .tc main_arg12)) (U (Proc.devRef .tc main_arg13)) g n
  -- the fold, as the composed term over U's contents at the stretch's inputs
  simp only [opsM2]
  after_results_simp
  dsimp only [shape_v70, shape_v73, shape_v84, shape_v87, shape_v98]
  -- the read-out, then the three layers from the outside in, then the slices of the two stacks
  refine (readout_host dot_S28x8192x128_S28x1x128_S28x8192x1_2_2_1_1_0_0 hd3 _ _ _ _ _ _ g n).trans ?_
  simp only [layer_host dot_S28x8192x128_S28x128x128_S28x8192x128_2_2_1_1_0_0 hd2, layer_host dot_S28x8192x2_S28x128x2_S28x8192x128_2_2_1_1_0_0 hd1,
    weightSlice 0 Nat.zero_lt_two, weightSlice 1 Nat.one_lt_two, biasSlice 0 Nat.zero_lt_two, biasSlice 1 Nat.one_lt_two]
  rfl

theorem shape_v134 : (main_v134 : Ref sig .tc).ty.shape = S56x128x128 := rfl
theorem shape_v137 : (main_v137 : Ref sig .tc).ty.shape = S56x128 := rfl
theorem shape_v148 : (main_v148 : Ref sig .tc).ty.shape = S56x128x128 := rfl
theorem shape_v151 : (main_v151 : Ref sig .tc).ty.shape = S56x128 := rfl
theorem shape_v162 : (main_v162 : Ref sig .tc).ty.shape = S56x8192 := rfl

set_option maxHeartbeats 4000000 in
/-- Stretch 3 of the three: at entry (g, n) its last buffer holds network g of the group of 56 on row n. -/
theorem host_net3 (U : Valuation τ sig (Elt Ideal)) :
    after (opsM3 (F := Ideal)) U (Proc.devRef .tc main_v165)
      = fun i => netAt (G := 56) (B := 8192) (D := 3) (H := 128) (U (Proc.devRef .tc main_v122)) (U (Proc.devRef .tc main_arg14))
          (U (Proc.devRef .tc main_arg15)) (U (Proc.devRef .tc main_arg16)) (U (Proc.devRef .tc main_arg17))
          (U (Proc.devRef .tc main_arg18)) (U (Proc.devRef .tc main_arg19)) (i 0) (i 1) := by
  have hd1 : IsNT dot_S56x8192x3_S56x128x3_S56x8192x128_2_2_1_1_0_0 := ⟨rfl, rfl, rfl, rfl, rfl, rfl⟩
  have hd2 : IsNT dot_S56x8192x128_S56x128x128_S56x8192x128_2_2_1_1_0_0 := ⟨rfl, rfl, rfl, rfl, rfl, rfl⟩
  have hd3 : IsNT dot_S56x8192x128_S56x1x128_S56x8192x1_2_2_1_1_0_0 := ⟨rfl, rfl, rfl, rfl, rfl, rfl⟩
  funext i
  obtain ⟨g, n, rfl⟩ : ∃ (g : Fin 56) (n : Fin 8192), i = ix2 g n := ⟨i 0, i 1, eq_ix2 i⟩
  show _ = netAt (G := 56) (B := 8192) (D := 3) (H := 128) (U (Proc.devRef .tc main_v122)) (U (Proc.devRef .tc main_arg14))
          (U (Proc.devRef .tc main_arg15)) (U (Proc.devRef .tc main_arg16)) (U (Proc.devRef .tc main_arg17))
          (U (Proc.devRef .tc main_arg18)) (U (Proc.devRef .tc main_arg19)) g n
  -- the fold, as the composed term over U's contents at the stretch's inputs
  simp only [opsM3]
  after_results_simp
  dsimp only [shape_v134, shape_v137, shape_v148, shape_v151, shape_v162]
  -- the read-out, then the three layers from the outside in, then the slices of the two stacks
  refine (readout_host dot_S56x8192x128_S56x1x128_S56x8192x1_2_2_1_1_0_0 hd3 _ _ _ _ _ _ g n).trans ?_
  simp only [layer_host dot_S56x8192x128_S56x128x128_S56x8192x128_2_2_1_1_0_0 hd2, layer_host dot_S56x8192x3_S56x128x3_S56x8192x128_2_2_1_1_0_0 hd1,
    weightSlice 0 Nat.zero_lt_two, weightSlice 1 Nat.one_lt_two, biasSlice 0 Nat.zero_lt_two, biasSlice 1 Nat.one_lt_two]
  rfl

end Cert.ReferenceIdeal.RefNet

end
-- ==== Proof.Stages.lean ====
/-
  THE HOST STRETCHES OF THE TWO PROGRAMS, ONE AGAINST THE OTHER.

  Around its three kernel regions the kernel's @main applies the same host operations, in the same order and with the
  same constants and index tables, as the reference applies around its three grouped networks: the constant f0 spread
  over the batch, the transposed or gathered inputs of each order, the subtraction of the lower-order terms gathered by
  the static pair and triple tables, and the final sums over the groups.  The two programs number their buffers
  differently, so each stretch is compared as a function: from contents that agree on the buffers the stretch reads,
  the buffers it is read at afterwards agree.  Nothing inside a stretch is opened: both sides unfold to the same
  operations applied to the agreeing inputs.
-/
import proofs.«100548_j68015102099709_1_alg».proof.Proof.Gen.KernelIdeal.Launch
import proofs.«100548_j68015102099709_1_alg».proof.Proof.RefRun

set_option maxRecDepth 16384

noncomputable section

namespace Cert.Stages

open Idealize.ShloMosaic Idealize.ShloMosaic.TcCoe Idealize.SL.Sem Idealize.ShloMosaic.StableHlo

variable (WK : Valuation Cert.KernelIdeal.τ Cert.KernelIdeal.sig (Elt Ideal)) (UR : Valuation Cert.ReferenceIdeal.τ Cert.ReferenceIdeal.sig (Elt Ideal))

-- table: begin
/-! ## The first stretch: f0 spread over the batch, the first network's input, the static tables -/

/-- The constant term: f0 times a vector of ones, over the batch. -/
theorem A_f0 (ha1 : WK (Proc.devRef .tc Cert.KernelIdeal.main_arg1) = UR (Proc.devRef .tc Cert.ReferenceIdeal.main_arg1)) :
    after (Cert.KernelIdeal.Gen.hostOps0 (F := Ideal)) WK (Proc.devRef .tc Cert.KernelIdeal.main_v2) = after (Cert.ReferenceIdeal.RefRun.opsA (F := Ideal)) UR (Proc.devRef .tc Cert.ReferenceIdeal.main_v4) := by
  unfold Cert.KernelIdeal.Gen.hostOps0 Cert.ReferenceIdeal.RefRun.opsA
  after_results_simp
  rw [ha1]
  try rfl

/-- The first network's input: x transposed, a unit axis added. -/
theorem A_in (ha0 : WK (Proc.devRef .tc Cert.KernelIdeal.main_arg0) = UR (Proc.devRef .tc Cert.ReferenceIdeal.main_arg0)) :
    after (Cert.KernelIdeal.Gen.hostOps0 (F := Ideal)) WK (Proc.devRef .tc Cert.KernelIdeal.main_v4) = after (Cert.ReferenceIdeal.RefRun.opsA (F := Ideal)) UR (Proc.devRef .tc Cert.ReferenceIdeal.main_v6) := by
  unfold Cert.KernelIdeal.Gen.hostOps0 Cert.ReferenceIdeal.RefRun.opsA
  after_results_simp
  rw [ha0]
  try rfl

/-- A static table (or its all-false mask) is the same literal in both programs. -/
theorem A_c :
    after (Cert.KernelIdeal.Gen.hostOps0 (F := Ideal)) WK (Proc.devRef .tc Cert.KernelIdeal.main_c) = after (Cert.ReferenceIdeal.RefRun.opsA (F := Ideal)) UR (Proc.devRef .tc Cert.ReferenceIdeal.main_c) := by
  unfold Cert.KernelIdeal.Gen.hostOps0 Cert.ReferenceIdeal.RefRun.opsA
  after_results_simp
  try rfl

/-- A static table (or its all-false mask) is the same literal in both programs. -/
theorem A_c_0 :
    after (Cert.KernelIdeal.Gen.hostOps0 (F := Ideal)) WK (Proc.devRef .tc Cert.KernelIdeal.main_c_0) = after (Cert.ReferenceIdeal.RefRun.opsA (F := Ideal)) UR (Proc.devRef .tc Cert.ReferenceIdeal.main_c_0) := by
  unfold Cert.KernelIdeal.Gen.hostOps0 Cert.ReferenceIdeal.RefRun.opsA
  after_results_simp
  try rfl

/-- A static table (or its all-false mask) is the same literal in both programs. -/
theorem A_c_1 :
    after (Cert.KernelIdeal.Gen.hostOps0 (F := Ideal)) WK (Proc.devRef .tc Cert.KernelIdeal.main_c_1) = after (Cert.ReferenceIdeal.RefRun.opsA (F := Ideal)) UR (Proc.devRef .tc Cert.ReferenceIdeal.main_c_1) := by
  unfold Cert.KernelIdeal.Gen.hostOps0 Cert.ReferenceIdeal.RefRun.opsA
  after_results_simp
  try rfl

/-- A static table (or its all-false mask) is the same literal in both programs. -/
theorem A_c_2 :
    after (Cert.KernelIdeal.Gen.hostOps0 (F := Ideal)) WK (Proc.devRef .tc Cert.KernelIdeal.main_c_2) = after (Cert.ReferenceIdeal.RefRun.opsA (F := Ideal)) UR (Proc.devRef .tc Cert.ReferenceIdeal.main_c_2) := by
  unfold Cert.KernelIdeal.Gen.hostOps0 Cert.ReferenceIdeal.RefRun.opsA
  after_results_simp
  try rfl

/-- A static table (or its all-false mask) is the same literal in both programs. -/
theorem A_c_3 :
    after (Cert.KernelIdeal.Gen.hostOps0 (F := Ideal)) WK (Proc.devRef .tc Cert.KernelIdeal.main_c_3) = after (Cert.ReferenceIdeal.RefRun.opsA (F := Ideal)) UR (Proc.devRef .tc Cert.ReferenceIdeal.main_c_3) := by
  unfold Cert.KernelIdeal.Gen.hostOps0 Cert.ReferenceIdeal.RefRun.opsA
  after_results_simp
  try rfl

/-- A static table (or its all-false mask) is the same literal in both programs. -/
theorem A_c_4 :
    after (Cert.KernelIdeal.Gen.hostOps0 (F := Ideal)) WK (Proc.devRef .tc Cert.KernelIdeal.main_c_4) = after (Cert.ReferenceIdeal.RefRun.opsA (F := Ideal)) UR (Proc.devRef .tc Cert.ReferenceIdeal.main_c_4) := by
  unfold Cert.KernelIdeal.Gen.hostOps0 Cert.ReferenceIdeal.RefRun.opsA
  after_results_simp
  try rfl

/-- A static table (or its all-false mask) is the same literal in both programs. -/
theorem A_c_5 :
    after (Cert.KernelIdeal.Gen.hostOps0 (F := Ideal)) WK (Proc.devRef .tc Cert.KernelIdeal.main_c_5) = after (Cert.ReferenceIdeal.RefRun.opsA (F := Ideal)) UR (Proc.devRef .tc Cert.ReferenceIdeal.main_c_5) := by
  unfold Cert.KernelIdeal.Gen.hostOps0 Cert.ReferenceIdeal.RefRun.opsA
  after_results_simp
  try rfl

/-- A static table (or its all-false mask) is the same literal in both programs. -/
theorem A_c_6 :
    after (Cert.KernelIdeal.Gen.hostOps0 (F := Ideal)) WK (Proc.devRef .tc Cert.KernelIdeal.main_c_6) = after (Cert.ReferenceIdeal.RefRun.opsA (F := Ideal)) UR (Proc.devRef .tc Cert.ReferenceIdeal.main_c_6) := by
  unfold Cert.KernelIdeal.Gen.hostOps0 Cert.ReferenceIdeal.RefRun.opsA
  after_results_simp
  try rfl

/-- A static table (or its all-false mask) is the same literal in both programs. -/
theorem A_c_7 :
    after (Cert.KernelIdeal.Gen.hostOps0 (F := Ideal)) WK (Proc.devRef .tc Cert.KernelIdeal.main_c_7) = after (Cert.ReferenceIdeal.RefRun.opsA (F := Ideal)) UR (Proc.devRef .tc Cert.ReferenceIdeal.main_c_7) := by
  unfold Cert.KernelIdeal.Gen.hostOps0 Cert.ReferenceIdeal.RefRun.opsA
  after_results_simp
  try rfl

/-- A static table (or its all-false mask) is the same literal in both programs. -/
theorem A_c_8 :
    after (Cert.KernelIdeal.Gen.hostOps0 (F := Ideal)) WK (Proc.devRef .tc Cert.KernelIdeal.main_c_8) = after (Cert.ReferenceIdeal.RefRun.opsA (F := Ideal)) UR (Proc.devRef .tc Cert.ReferenceIdeal.main_c_8) := by
  unfold Cert.KernelIdeal.Gen.hostOps0 Cert.ReferenceIdeal.RefRun.opsA
  after_results_simp
  try rfl

/-- A static table (or its all-false mask) is the same literal in both programs. -/
theorem A_c_9 :
    after (Cert.KernelIdeal.Gen.hostOps0 (F := Ideal)) WK (Proc.devRef .tc Cert.KernelIdeal.main_c_9) = after (Cert.ReferenceIdeal.RefRun.opsA (F := Ideal)) UR (Proc.devRef .tc Cert.ReferenceIdeal.main_c_9) := by
  unfold Cert.KernelIdeal.Gen.hostOps0 Cert.ReferenceIdeal.RefRun.opsA
  after_results_simp
  try rfl

/-- A static table (or its all-false mask) is the same literal in both programs. -/
theorem A_c_10 :
    after (Cert.KernelIdeal.Gen.hostOps0 (F := Ideal)) WK (Proc.devRef .tc Cert.KernelIdeal.main_c_10) = after (Cert.ReferenceIdeal.RefRun.opsA (F := Ideal)) UR (Proc.devRef .tc Cert.ReferenceIdeal.main_c_10) := by
  unfold Cert.KernelIdeal.Gen.hostOps0 Cert.ReferenceIdeal.RefRun.opsA
  after_results_simp
  try rfl

/-- A static table (or its all-false mask) is the same literal in both programs. -/
theorem A_c_11 :
    after (Cert.KernelIdeal.Gen.hostOps0 (F := Ideal)) WK (Proc.devRef .tc Cert.KernelIdeal.main_c_11) = after (Cert.ReferenceIdeal.RefRun.opsA (F := Ideal)) UR (Proc.devRef .tc Cert.ReferenceIdeal.main_c_11) := by
  unfold Cert.KernelIdeal.Gen.hostOps0 Cert.ReferenceIdeal.RefRun.opsA
  after_results_simp
  try rfl

/-- A static table (or its all-false mask) is the same literal in both programs. -/
theorem A_c_12 :
    after (Cert.KernelIdeal.Gen.hostOps0 (F := Ideal)) WK (Proc.devRef .tc Cert.KernelIdeal.main_c_12) = after (Cert.ReferenceIdeal.RefRun.opsA (F := Ideal)) UR (Proc.devRef .tc Cert.ReferenceIdeal.main_c_12) := by
  unfold Cert.KernelIdeal.Gen.hostOps0 Cert.ReferenceIdeal.RefRun.opsA
  after_results_simp
  try rfl

/-- A static table (or its all-false mask) is the same literal in both programs. -/
theorem A_c_13 :
    after (Cert.KernelIdeal.Gen.hostOps0 (F := Ideal)) WK (Proc.devRef .tc Cert.KernelIdeal.main_c_13) = after (Cert.ReferenceIdeal.RefRun.opsA (F := Ideal)) UR (Proc.devRef .tc Cert.ReferenceIdeal.main_c_13) := by
  unfold Cert.KernelIdeal.Gen.hostOps0 Cert.ReferenceIdeal.RefRun.opsA
  after_results_simp
  try rfl

/-- A static table (or its all-false mask) is the same literal in both programs. -/
theorem A_c_14 :
    after (Cert.KernelIdeal.Gen.hostOps0 (F := Ideal)) WK (Proc.devRef .tc Cert.KernelIdeal.main_c_14) = after (Cert.ReferenceIdeal.RefRun.opsA (F := Ideal)) UR (Proc.devRef .tc Cert.ReferenceIdeal.main_c_14) := by
  unfold Cert.KernelIdeal.Gen.hostOps0 Cert.ReferenceIdeal.RefRun.opsA
  after_results_simp
  try rfl

/-- A static table (or its all-false mask) is the same literal in both programs. -/
theorem A_c_15 :
    after (Cert.KernelIdeal.Gen.hostOps0 (F := Ideal)) WK (Proc.devRef .tc Cert.KernelIdeal.main_c_15) = after (Cert.ReferenceIdeal.RefRun.opsA (F := Ideal)) UR (Proc.devRef .tc Cert.ReferenceIdeal.main_c_15) := by
  unfold Cert.KernelIdeal.Gen.hostOps0 Cert.ReferenceIdeal.RefRun.opsA
  after_results_simp
  try rfl

/-! ## The second stretch -/

/-- The first-order terms f_j = (first network) − f0. -/
theorem B_low (h5 : WK (Proc.devRef .tc Cert.KernelIdeal.main_v5) = UR (Proc.devRef .tc Cert.ReferenceIdeal.main_v49))
    (h2 : WK (Proc.devRef .tc Cert.KernelIdeal.main_v2) = UR (Proc.devRef .tc Cert.ReferenceIdeal.main_v4)) :
    after (Cert.KernelIdeal.Gen.hostOps1 (F := Ideal)) WK (Proc.devRef .tc Cert.KernelIdeal.main_v8) = after (Cert.ReferenceIdeal.RefRun.opsB (F := Ideal)) UR (Proc.devRef .tc Cert.ReferenceIdeal.main_v52) := by
  unfold Cert.KernelIdeal.Gen.hostOps1 Cert.ReferenceIdeal.RefRun.opsB
  after_results_simp
  rw [h5, h2]
  try rfl

/-- The second network's input: x gathered by the pair table, transposed. -/
theorem B_in (hc : WK (Proc.devRef .tc Cert.KernelIdeal.main_c) = UR (Proc.devRef .tc Cert.ReferenceIdeal.main_c))
    (hc0 : WK (Proc.devRef .tc Cert.KernelIdeal.main_c_0) = UR (Proc.devRef .tc Cert.ReferenceIdeal.main_c_0))
    (ha0 : WK (Proc.devRef .tc Cert.KernelIdeal.main_arg0) = UR (Proc.devRef .tc Cert.ReferenceIdeal.main_arg0)) :
    after (Cert.KernelIdeal.Gen.hostOps1 (F := Ideal)) WK (Proc.devRef .tc Cert.KernelIdeal.main_v14) = after (Cert.ReferenceIdeal.RefRun.opsB (F := Ideal)) UR (Proc.devRef .tc Cert.ReferenceIdeal.main_v58) := by
  unfold Cert.KernelIdeal.Gen.hostOps1 Cert.ReferenceIdeal.RefRun.opsB
  after_results_simp
  rw [hc, hc0, ha0]
  try rfl

/-! ## The third stretch -/

/-- The second-order terms f_jj = (second network) − f_j[first of pair] − f_j[second of pair] − f0. -/
theorem C_low (h15 : WK (Proc.devRef .tc Cert.KernelIdeal.main_v15) = UR (Proc.devRef .tc Cert.ReferenceIdeal.main_v101))
    (h8 : WK (Proc.devRef .tc Cert.KernelIdeal.main_v8) = UR (Proc.devRef .tc Cert.ReferenceIdeal.main_v52))
    (h2 : WK (Proc.devRef .tc Cert.KernelIdeal.main_v2) = UR (Proc.devRef .tc Cert.ReferenceIdeal.main_v4))
    (hc1 : WK (Proc.devRef .tc Cert.KernelIdeal.main_c_1) = UR (Proc.devRef .tc Cert.ReferenceIdeal.main_c_1))
    (hc2 : WK (Proc.devRef .tc Cert.KernelIdeal.main_c_2) = UR (Proc.devRef .tc Cert.ReferenceIdeal.main_c_2))
    (hc3 : WK (Proc.devRef .tc Cert.KernelIdeal.main_c_3) = UR (Proc.devRef .tc Cert.ReferenceIdeal.main_c_3))
    (hc4 : WK (Proc.devRef .tc Cert.KernelIdeal.main_c_4) = UR (Proc.devRef .tc Cert.ReferenceIdeal.main_c_4)) :
    after (Cert.KernelIdeal.Gen.hostOps2 (F := Ideal)) WK (Proc.devRef .tc Cert.KernelIdeal.main_v30) = after (Cert.ReferenceIdeal.RefRun.opsC (F := Ideal)) UR (Proc.devRef .tc Cert.ReferenceIdeal.main_v116) := by
  unfold Cert.KernelIdeal.Gen.hostOps2 Cert.ReferenceIdeal.RefRun.opsC
  after_results_simp
  rw [h15, h8, h2, hc1, hc2, hc3, hc4]
  try rfl

/-- The third network's input: x gathered by the triple table, transposed. -/
theorem C_in (hc5 : WK (Proc.devRef .tc Cert.KernelIdeal.main_c_5) = UR (Proc.devRef .tc Cert.ReferenceIdeal.main_c_5))
    (hc6 : WK (Proc.devRef .tc Cert.KernelIdeal.main_c_6) = UR (Proc.devRef .tc Cert.ReferenceIdeal.main_c_6))
    (ha0 : WK (Proc.devRef .tc Cert.KernelIdeal.main_arg0) = UR (Proc.devRef .tc Cert.ReferenceIdeal.main_arg0)) :
    after (Cert.KernelIdeal.Gen.hostOps2 (F := Ideal)) WK (Proc.devRef .tc Cert.KernelIdeal.main_v36) = after (Cert.ReferenceIdeal.RefRun.opsC (F := Ideal)) UR (Proc.devRef .tc Cert.ReferenceIdeal.main_v122) := by
  unfold Cert.KernelIdeal.Gen.hostOps2 Cert.ReferenceIdeal.RefRun.opsC
  after_results_simp
  rw [hc5, hc6, ha0]
  try rfl

/-! ## The last stretch -/

set_option maxHeartbeats 16000000 in
/-- The result: the third-order terms (third network minus the gathered lower-order terms and f0), and f0 + Σ f_j + Σ f_jj + Σ f_jjj as a column. -/
theorem D_out (h37 : WK (Proc.devRef .tc Cert.KernelIdeal.main_v37) = UR (Proc.devRef .tc Cert.ReferenceIdeal.main_v165))
    (h30 : WK (Proc.devRef .tc Cert.KernelIdeal.main_v30) = UR (Proc.devRef .tc Cert.ReferenceIdeal.main_v116))
    (h8 : WK (Proc.devRef .tc Cert.KernelIdeal.main_v8) = UR (Proc.devRef .tc Cert.ReferenceIdeal.main_v52))
    (h2 : WK (Proc.devRef .tc Cert.KernelIdeal.main_v2) = UR (Proc.devRef .tc Cert.ReferenceIdeal.main_v4))
    (hc7 : WK (Proc.devRef .tc Cert.KernelIdeal.main_c_7) = UR (Proc.devRef .tc Cert.ReferenceIdeal.main_c_7))
    (hc8 : WK (Proc.devRef .tc Cert.KernelIdeal.main_c_8) = UR (Proc.devRef .tc Cert.ReferenceIdeal.main_c_8))
    (hc9 : WK (Proc.devRef .tc Cert.KernelIdeal.main_c_9) = UR (Proc.devRef .tc Cert.ReferenceIdeal.main_c_9))
    (hc10 : WK (Proc.devRef .tc Cert.KernelIdeal.main_c_10) = UR (Proc.devRef .tc Cert.ReferenceIdeal.main_c_10))
    (hc11 : WK (Proc.devRef .tc Cert.KernelIdeal.main_c_11) = UR (Proc.devRef .tc Cert.ReferenceIdeal.main_c_11))
    (hc12 : WK (Proc.devRef .tc Cert.KernelIdeal.main_c_12) = UR (Proc.devRef .tc Cert.ReferenceIdeal.main_c_12))
    (hc13 : WK (Proc.devRef .tc Cert.KernelIdeal.main_c_13) = UR (Proc.devRef .tc Cert.ReferenceIdeal.main_c_13))
    (hc14 : WK (Proc.devRef .tc Cert.KernelIdeal.main_c_14) = UR (Proc.devRef .tc Cert.ReferenceIdeal.main_c_14))
    (hc15 : WK (Proc.devRef .tc Cert.KernelIdeal.main_c_15) = UR (Proc.devRef .tc Cert.ReferenceIdeal.main_c_15)) :
    after (Cert.KernelIdeal.Gen.hostOps3 (F := Ideal)) WK (Proc.devRef .tc Cert.KernelIdeal.main_v83) = after (Cert.ReferenceIdeal.RefRun.opsD (F := Ideal)) UR (Proc.devRef .tc Cert.ReferenceIdeal.main_v211) := by
  unfold Cert.KernelIdeal.Gen.hostOps3 Cert.ReferenceIdeal.RefRun.opsD
  after_results_simp
  rw [h37, h30, h8, h2, hc7, hc8, hc9, hc10, hc11, hc12, hc13, hc14, hc15]
  try rfl

-- table: end
end Cert.Stages

end
-- ==== Proof.Bridge.lean ====
/-
  THE TWO PROGRAMS COMPUTE ONE RESULT.

  The kernel's @main is four stretches of host operations around three kernel regions; the reference's is the same four
  stretches around three grouped networks written as host operations.  Both runs are followed boundary by boundary
  (after each stretch, after each region or network), the kernel's buffer contents W0 … W7 beside the reference's
  U0 … U7, keeping the list of buffers on which they agree:

    at the launch       the twenty arguments (the memories agree on them);
    after a stretch     what the stretch computes from agreeing buffers (the stretch read as a function, never opened);
    after a network     the network's output: on the kernel's side the region's output array IS the network of the
                        arrays the region found (its blocks tile the array and each row's value only reads that row),
                        on the reference's side the stretch of host operations IS the same network, entry by entry;
    in between          a buffer neither side writes keeps its contents.

  At the last boundary the result buffers agree.  No entry is ever asked to be finite: the comparison is of functions of
  the inputs, and the one identity used inside a network, 1 / (1 + e^(-v)) = logistic v, holds at every extended real.
-/
import proofs.«100548_j68015102099709_1_alg».proof.Proof.KRun
import proofs.«100548_j68015102099709_1_alg».proof.Proof.KWrites
import proofs.«100548_j68015102099709_1_alg».proof.Proof.Region0
import proofs.«100548_j68015102099709_1_alg».proof.Proof.Region1
import proofs.«100548_j68015102099709_1_alg».proof.Proof.Region2
import proofs.«100548_j68015102099709_1_alg».proof.Proof.RefRun
import proofs.«100548_j68015102099709_1_alg».proof.Proof.RefNet
import proofs.«100548_j68015102099709_1_alg».proof.Proof.Stages

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The reference's buffer contents at the seven boundaries -/

abbrev U0 : Valuation Cert.ReferenceIdeal.τ Cert.ReferenceIdeal.sig (Elt Ideal) := launchContents m' c
abbrev U1 : Valuation Cert.ReferenceIdeal.τ Cert.ReferenceIdeal.sig (Elt Ideal) := after (Cert.ReferenceIdeal.RefRun.opsA (F := Ideal)) (U0 m' c)
abbrev U2 : Valuation Cert.ReferenceIdeal.τ Cert.ReferenceIdeal.sig (Elt Ideal) := after (Cert.ReferenceIdeal.RefRun.opsM1 (F := Ideal)) (U1 m' c)
abbrev U3 : Valuation Cert.ReferenceIdeal.τ Cert.ReferenceIdeal.sig (Elt Ideal) := after (Cert.ReferenceIdeal.RefRun.opsB (F := Ideal)) (U2 m' c)
abbrev U4 : Valuation Cert.ReferenceIdeal.τ Cert.ReferenceIdeal.sig (Elt Ideal) := after (Cert.ReferenceIdeal.RefRun.opsM2 (F := Ideal)) (U3 m' c)
abbrev U5 : Valuation Cert.ReferenceIdeal.τ Cert.ReferenceIdeal.sig (Elt Ideal) := after (Cert.ReferenceIdeal.RefRun.opsC (F := Ideal)) (U4 m' c)
abbrev U6 : Valuation Cert.ReferenceIdeal.τ Cert.ReferenceIdeal.sig (Elt Ideal) := after (Cert.ReferenceIdeal.RefRun.opsM3 (F := Ideal)) (U5 m' c)
abbrev U7 : Valuation Cert.ReferenceIdeal.τ Cert.ReferenceIdeal.sig (Elt Ideal) := after (Cert.ReferenceIdeal.RefRun.opsD (F := Ideal)) (U6 m' c)

/-- The whole line of the reference's operations is the seven stretches one after the other. -/
theorem U7_eq : after (Cert.ReferenceIdeal.RefRun.ops (F := Ideal)) (launchContents m' c) = U7 m' c := by
  simp only [Cert.ReferenceIdeal.RefRun.ops, Cert.ReferenceIdeal.RefRun.after_append]

/-! ## A buffer nobody writes keeps its contents: the kernel's side -/

section KernelKeeps

open Cert.KernelIdeal Cert.KernelIdeal.Gen Cert.KernelIdeal.KWrites

variable (b : Ref sig .tc)

theorem k01 (h0 : b ∉ wr0) : W1 m ρ c (Proc.devRef .tc b) = W0 m ρ c (Proc.devRef .tc b) := keep0 _ b h0
theorem k12 (h1 : ∀ w, Pipeline.arrRef spec0 w ≠ b) : W2 m ρ c (Proc.devRef .tc b) = W1 m ρ c (Proc.devRef .tc b) :=
  W2_of_ne m ρ c b h1
theorem k23 (h2 : b ∉ wr1) : W3 m ρ c (Proc.devRef .tc b) = W2 m ρ c (Proc.devRef .tc b) := keep1 _ b h2
theorem k34 (h3 : ∀ w, Pipeline.arrRef spec1 w ≠ b) : W4 m ρ c (Proc.devRef .tc b) = W3 m ρ c (Proc.devRef .tc b) :=
  W4_of_ne m ρ c b h3
theorem k45 (h4 : b ∉ wr2) : W5 m ρ c (Proc.devRef .tc b) = W4 m ρ c (Proc.devRef .tc b) := keep2 _ b h4
theorem k56 (h5 : ∀ w, Pipeline.arrRef spec2 w ≠ b) : W6 m ρ c (Proc.devRef .tc b) = W5 m ρ c (Proc.devRef .tc b) :=
  W6_of_ne m ρ c b h5
theorem k02 (h0 : b ∉ wr0) (h1 : ∀ w, Pipeline.arrRef spec0 w ≠ b) :
    W2 m ρ c (Proc.devRef .tc b) = W0 m ρ c (Proc.devRef .tc b) := (k12 m ρ c b h1).trans (k01 m ρ c b h0)
theorem k03 (h0 : b ∉ wr0) (h1 : ∀ w, Pipeline.arrRef spec0 w ≠ b) (h2 : b ∉ wr1) :
    W3 m ρ c (Proc.devRef .tc b) = W0 m ρ c (Proc.devRef .tc b) := (k23 m ρ c b h2).trans (k02 m ρ c b h0 h1)
theorem k04 (h0 : b ∉ wr0) (h1 : ∀ w, Pipeline.arrRef spec0 w ≠ b) (h2 : b ∉ wr1) (h3 : ∀ w, Pipeline.arrRef spec1 w ≠ b) :
    W4 m ρ c (Proc.devRef .tc b) = W0 m ρ c (Proc.devRef .tc b) := (k34 m ρ c b h3).trans (k03 m ρ c b h0 h1 h2)
theorem k05 (h0 : b ∉ wr0) (h1 : ∀ w, Pipeline.arrRef spec0 w ≠ b) (h2 : b ∉ wr1) (h3 : ∀ w, Pipeline.arrRef spec1 w ≠ b)
    (h4 : b ∉ wr2) : W5 m ρ c (Proc.devRef .tc b) = W0 m ρ c (Proc.devRef .tc b) :=
  (k45 m ρ c b h4).trans (k04 m ρ c b h0 h1 h2 h3)
theorem k14 (h1 : ∀ w, Pipeline.arrRef spec0 w ≠ b) (h2 : b ∉ wr1) (h3 : ∀ w, Pipeline.arrRef spec1 w ≠ b) :
    W4 m ρ c (Proc.devRef .tc b) = W1 m ρ c (Proc.devRef .tc b) :=
  (k34 m ρ c b h3).trans ((k23 m ρ c b h2).trans (k12 m ρ c b h1))
theorem k36 (h3 : ∀ w, Pipeline.arrRef spec1 w ≠ b) (h4 : b ∉ wr2) (h5 : ∀ w, Pipeline.arrRef spec2 w ≠ b) :
    W6 m ρ c (Proc.devRef .tc b) = W3 m ρ c (Proc.devRef .tc b) :=
  (k56 m ρ c b h5).trans ((k45 m ρ c b h4).trans (k34 m ρ c b h3))
theorem k16 (h1 : ∀ w, Pipeline.arrRef spec0 w ≠ b) (h2 : b ∉ wr1) (h3 : ∀ w, Pipeline.arrRef spec1 w ≠ b) (h4 : b ∉ wr2)
    (h5 : ∀ w, Pipeline.arrRef spec2 w ≠ b) : W6 m ρ c (Proc.devRef .tc b) = W1 m ρ c (Proc.devRef .tc b) :=
  (k36 m ρ c b h3 h4 h5).trans ((k23 m ρ c b h2).trans (k12 m ρ c b h1))

end KernelKeeps

/-! ## The same on the reference's side -/

section ReferenceKeeps

open Cert.ReferenceIdeal Cert.ReferenceIdeal.RefRun

variable (r : Ref sig .tc)

theorem r01 (h0 : r ∉ wrA) : U1 m' c (Proc.devRef .tc r) = U0 m' c (Proc.devRef .tc r) := after_of_writes_sub opsA _ opsA_writes h0
theorem r12 (h1 : r ∉ wrM1) : U2 m' c (Proc.devRef .tc r) = U1 m' c (Proc.devRef .tc r) := after_of_writes_sub opsM1 _ opsM1_writes h1
theorem r23 (h2 : r ∉ wrB) : U3 m' c (Proc.devRef .tc r) = U2 m' c (Proc.devRef .tc r) := after_of_writes_sub opsB _ opsB_writes h2
theorem r34 (h3 : r ∉ wrM2) : U4 m' c (Proc.devRef .tc r) = U3 m' c (Proc.devRef .tc r) := after_of_writes_sub opsM2 _ opsM2_writes h3
theorem r45 (h4 : r ∉ wrC) : U5 m' c (Proc.devRef .tc r) = U4 m' c (Proc.devRef .tc r) := after_of_writes_sub opsC _ opsC_writes h4
theorem r56 (h5 : r ∉ wrM3) : U6 m' c (Proc.devRef .tc r) = U5 m' c (Proc.devRef .tc r) := after_of_writes_sub opsM3 _ opsM3_writes h5
theorem r02 (h0 : r ∉ wrA) (h1 : r ∉ wrM1) : U2 m' c (Proc.devRef .tc r) = U0 m' c (Proc.devRef .tc r) :=
  (r12 m' c r h1).trans (r01 m' c r h0)
theorem r03 (h0 : r ∉ wrA) (h1 : r ∉ wrM1) (h2 : r ∉ wrB) : U3 m' c (Proc.devRef .tc r) = U0 m' c (Proc.devRef .tc r) :=
  (r23 m' c r h2).trans (r02 m' c r h0 h1)
theorem r04 (h0 : r ∉ wrA) (h1 : r ∉ wrM1) (h2 : r ∉ wrB) (h3 : r ∉ wrM2) :
    U4 m' c (Proc.devRef .tc r) = U0 m' c (Proc.devRef .tc r) := (r34 m' c r h3).trans (r03 m' c r h0 h1 h2)
theorem r05 (h0 : r ∉ wrA) (h1 : r ∉ wrM1) (h2 : r ∉ wrB) (h3 : r ∉ wrM2) (h4 : r ∉ wrC) :
    U5 m' c (Proc.devRef .tc r) = U0 m' c (Proc.devRef .tc r) := (r45 m' c r h4).trans (r04 m' c r h0 h1 h2 h3)
theorem r14 (h1 : r ∉ wrM1) (h2 : r ∉ wrB) (h3 : r ∉ wrM2) : U4 m' c (Proc.devRef .tc r) = U1 m' c (Proc.devRef .tc r) :=
  (r34 m' c r h3).trans ((r23 m' c r h2).trans (r12 m' c r h1))
theorem r36 (h3 : r ∉ wrM2) (h4 : r ∉ wrC) (h5 : r ∉ wrM3) : U6 m' c (Proc.devRef .tc r) = U3 m' c (Proc.devRef .tc r) :=
  (r56 m' c r h5).trans ((r45 m' c r h4).trans (r34 m' c r h3))
theorem r16 (h1 : r ∉ wrM1) (h2 : r ∉ wrB) (h3 : r ∉ wrM2) (h4 : r ∉ wrC) (h5 : r ∉ wrM3) :
    U6 m' c (Proc.devRef .tc r) = U1 m' c (Proc.devRef .tc r) :=
  (r36 m' c r h3 h4 h5).trans ((r23 m' c r h2).trans (r12 m' c r h1))

end ReferenceKeeps

/-- Two buffers that agreed still agree after each was carried unchanged. -/
theorem pass {α : Sort _} {a a' b b' : α} (h1 : a' = a) (h : a = b) (h2 : b' = b) : a' = b' := h1.trans (h.trans h2.symm)

/-! ## The three networks -/

/-- Across the first network: the kernel region leaves its output array at the network of the arrays it found, the
    reference's stretch computes the same network of its own buffers, and those agree. -/
theorem net1 (I : Cert.KernelIdeal.Gen.W1 m ρ c (Proc.devRef .tc Cert.KernelIdeal.main_v4) = U1 m' c (Proc.devRef .tc Cert.ReferenceIdeal.main_v6))
    (a1 : Cert.KernelIdeal.Gen.W1 m ρ c (Proc.devRef .tc Cert.KernelIdeal.main_arg2) = U1 m' c (Proc.devRef .tc Cert.ReferenceIdeal.main_arg2))
    (a2 : Cert.KernelIdeal.Gen.W1 m ρ c (Proc.devRef .tc Cert.KernelIdeal.main_arg3) = U1 m' c (Proc.devRef .tc Cert.ReferenceIdeal.main_arg3))
    (a3 : Cert.KernelIdeal.Gen.W1 m ρ c (Proc.devRef .tc Cert.KernelIdeal.main_arg4) = U1 m' c (Proc.devRef .tc Cert.ReferenceIdeal.main_arg4))
    (a4 : Cert.KernelIdeal.Gen.W1 m ρ c (Proc.devRef .tc Cert.KernelIdeal.main_arg5) = U1 m' c (Proc.devRef .tc Cert.ReferenceIdeal.main_arg5))
    (a5 : Cert.KernelIdeal.Gen.W1 m ρ c (Proc.devRef .tc Cert.KernelIdeal.main_arg6) = U1 m' c (Proc.devRef .tc Cert.ReferenceIdeal.main_arg6))
    (a6 : Cert.KernelIdeal.Gen.W1 m ρ c (Proc.devRef .tc Cert.KernelIdeal.main_arg7) = U1 m' c (Proc.devRef .tc Cert.ReferenceIdeal.main_arg7)) :
    Cert.KernelIdeal.Gen.W2 m ρ c (Proc.devRef .tc Cert.KernelIdeal.main_v5) = U2 m' c (Proc.devRef .tc Cert.ReferenceIdeal.main_v49) := by
  refine (Cert.KernelIdeal.Gen.W2_arr m ρ c 7).trans ((Cert.KernelIdeal.Region0.arr_eq (Cert.KernelIdeal.Gen.V1 m ρ) c).trans ?_)
  refine Eq.trans ?_ (Cert.ReferenceIdeal.RefNet.host_net1 (U1 m' c)).symm
  unfold Cert.KernelIdeal.Region0.out
  have e0 : Cert.KernelIdeal.Gen.V1 m ρ c Cert.KernelIdeal.main_v4 = U1 m' c (Proc.devRef .tc Cert.ReferenceIdeal.main_v6) := I
  have e1 : Cert.KernelIdeal.Gen.V1 m ρ c Cert.KernelIdeal.main_arg2 = U1 m' c (Proc.devRef .tc Cert.ReferenceIdeal.main_arg2) := a1
  have e2 : Cert.KernelIdeal.Gen.V1 m ρ c Cert.KernelIdeal.main_arg3 = U1 m' c (Proc.devRef .tc Cert.ReferenceIdeal.main_arg3) := a2
  have e3 : Cert.KernelIdeal.Gen.V1 m ρ c Cert.KernelIdeal.main_arg4 = U1 m' c (Proc.devRef .tc Cert.ReferenceIdeal.main_arg4) := a3
  have e4 : Cert.KernelIdeal.Gen.V1 m ρ c Cert.KernelIdeal.main_arg5 = U1 m' c (Proc.devRef .tc Cert.ReferenceIdeal.main_arg5) := a4
  have e5 : Cert.KernelIdeal.Gen.V1 m ρ c Cert.KernelIdeal.main_arg6 = U1 m' c (Proc.devRef .tc Cert.ReferenceIdeal.main_arg6) := a5
  have e6 : Cert.KernelIdeal.Gen.V1 m ρ c Cert.KernelIdeal.main_arg7 = U1 m' c (Proc.devRef .tc Cert.ReferenceIdeal.main_arg7) := a6
  rw [e0, e1, e2, e3, e4, e5, e6]
  rfl

/-- Across the second network: the kernel region leaves its output array at the network of the arrays it found, the
    reference's stretch computes the same network of its own buffers, and those agree. -/
theorem net2 (I : Cert.KernelIdeal.Gen.W3 m ρ c (Proc.devRef .tc Cert.KernelIdeal.main_v14) = U3 m' c (Proc.devRef .tc Cert.ReferenceIdeal.main_v58))
    (a1 : Cert.KernelIdeal.Gen.W3 m ρ c (Proc.devRef .tc Cert.KernelIdeal.main_arg8) = U3 m' c (Proc.devRef .tc Cert.ReferenceIdeal.main_arg8))
    (a2 : Cert.KernelIdeal.Gen.W3 m ρ c (Proc.devRef .tc Cert.KernelIdeal.main_arg9) = U3 m' c (Proc.devRef .tc Cert.ReferenceIdeal.main_arg9))
    (a3 : Cert.KernelIdeal.Gen.W3 m ρ c (Proc.devRef .tc Cert.KernelIdeal.main_arg10) = U3 m' c (Proc.devRef .tc Cert.ReferenceIdeal.main_arg10))
    (a4 : Cert.KernelIdeal.Gen.W3 m ρ c (Proc.devRef .tc Cert.KernelIdeal.main_arg11) = U3 m' c (Proc.devRef .tc Cert.ReferenceIdeal.main_arg11))
    (a5 : Cert.KernelIdeal.Gen.W3 m ρ c (Proc.devRef .tc Cert.KernelIdeal.main_arg12) = U3 m' c (Proc.devRef .tc Cert.ReferenceIdeal.main_arg12))
    (a6 : Cert.KernelIdeal.Gen.W3 m ρ c (Proc.devRef .tc Cert.KernelIdeal.main_arg13) = U3 m' c (Proc.devRef .tc Cert.ReferenceIdeal.main_arg13)) :
    Cert.KernelIdeal.Gen.W4 m ρ c (Proc.devRef .tc Cert.KernelIdeal.main_v15) = U4 m' c (Proc.devRef .tc Cert.ReferenceIdeal.main_v101) := by
  refine (Cert.KernelIdeal.Gen.W4_arr m ρ c 7).trans ((Cert.KernelIdeal.Region1.arr_eq (Cert.KernelIdeal.Gen.V3 m ρ) c).trans ?_)
  refine Eq.trans ?_ (Cert.ReferenceIdeal.RefNet.host_net2 (U3 m' c)).symm
  unfold Cert.KernelIdeal.Region1.out
  have e0 : Cert.KernelIdeal.Gen.V3 m ρ c Cert.KernelIdeal.main_v14 = U3 m' c (Proc.devRef .tc Cert.ReferenceIdeal.main_v58) := I
  have e1 : Cert.KernelIdeal.Gen.V3 m ρ c Cert.KernelIdeal.main_arg8 = U3 m' c (Proc.devRef .tc Cert.ReferenceIdeal.main_arg8) := a1
  have e2 : Cert.KernelIdeal.Gen.V3 m ρ c Cert.KernelIdeal.main_arg9 = U3 m' c (Proc.devRef .tc Cert.ReferenceIdeal.main_arg9) := a2
  have e3 : Cert.KernelIdeal.Gen.V3 m ρ c Cert.KernelIdeal.main_arg10 = U3 m' c (Proc.devRef .tc Cert.ReferenceIdeal.main_arg10) := a3
  have e4 : Cert.KernelIdeal.Gen.V3 m ρ c Cert.KernelIdeal.main_arg11 = U3 m' c (Proc.devRef .tc Cert.ReferenceIdeal.main_arg11) := a4
  have e5 : Cert.KernelIdeal.Gen.V3 m ρ c Cert.KernelIdeal.main_arg12 = U3 m' c (Proc.devRef .tc Cert.ReferenceIdeal.main_arg12) := a5
  have e6 : Cert.KernelIdeal.Gen.V3 m ρ c Cert.KernelIdeal.main_arg13 = U3 m' c (Proc.devRef .tc Cert.ReferenceIdeal.main_arg13) := a6
  rw [e0, e1, e2, e3, e4, e5, e6]
  rfl

/-- Across the third network: the kernel region leaves its output array at the network of the arrays it found, the
    reference's stretch computes the same network of its own buffers, and those agree. -/
theorem net3 (I : Cert.KernelIdeal.Gen.W5 m ρ c (Proc.devRef .tc Cert.KernelIdeal.main_v36) = U5 m' c (Proc.devRef .tc Cert.ReferenceIdeal.main_v122))
    (a1 : Cert.KernelIdeal.Gen.W5 m ρ c (Proc.devRef .tc Cert.KernelIdeal.main_arg14) = U5 m' c (Proc.devRef .tc Cert.ReferenceIdeal.main_arg14))
    (a2 : Cert.KernelIdeal.Gen.W5 m ρ c (Proc.devRef .tc Cert.KernelIdeal.main_arg15) = U5 m' c (Proc.devRef .tc Cert.ReferenceIdeal.main_arg15))
    (a3 : Cert.KernelIdeal.Gen.W5 m ρ c (Proc.devRef .tc Cert.KernelIdeal.main_arg16) = U5 m' c (Proc.devRef .tc Cert.ReferenceIdeal.main_arg16))
    (a4 : Cert.KernelIdeal.Gen.W5 m ρ c (Proc.devRef .tc Cert.KernelIdeal.main_arg17) = U5 m' c (Proc.devRef .tc Cert.ReferenceIdeal.main_arg17))
    (a5 : Cert.KernelIdeal.Gen.W5 m ρ c (Proc.devRef .tc Cert.KernelIdeal.main_arg18) = U5 m' c (Proc.devRef .tc Cert.ReferenceIdeal.main_arg18))
    (a6 : Cert.KernelIdeal.Gen.W5 m ρ c (Proc.devRef .tc Cert.KernelIdeal.main_arg19) = U5 m' c (Proc.devRef .tc Cert.ReferenceIdeal.main_arg19)) :
    Cert.KernelIdeal.Gen.W6 m ρ c (Proc.devRef .tc Cert.KernelIdeal.main_v37) = U6 m' c (Proc.devRef .tc Cert.ReferenceIdeal.main_v165) := by
  refine (Cert.KernelIdeal.Gen.W6_arr m ρ c 7).trans ((Cert.KernelIdeal.Region2.arr_eq (Cert.KernelIdeal.Gen.V5 m ρ) c).trans ?_)
  refine Eq.trans ?_ (Cert.ReferenceIdeal.RefNet.host_net3 (U5 m' c)).symm
  unfold Cert.KernelIdeal.Region2.out
  have e0 : Cert.KernelIdeal.Gen.V5 m ρ c Cert.KernelIdeal.main_v36 = U5 m' c (Proc.devRef .tc Cert.ReferenceIdeal.main_v122) := I
  have e1 : Cert.KernelIdeal.Gen.V5 m ρ c Cert.KernelIdeal.main_arg14 = U5 m' c (Proc.devRef .tc Cert.ReferenceIdeal.main_arg14) := a1
  have e2 : Cert.KernelIdeal.Gen.V5 m ρ c Cert.KernelIdeal.main_arg15 = U5 m' c (Proc.devRef .tc Cert.ReferenceIdeal.main_arg15) := a2
  have e3 : Cert.KernelIdeal.Gen.V5 m ρ c Cert.KernelIdeal.main_arg16 = U5 m' c (Proc.devRef .tc Cert.ReferenceIdeal.main_arg16) := a3
  have e4 : Cert.KernelIdeal.Gen.V5 m ρ c Cert.KernelIdeal.main_arg17 = U5 m' c (Proc.devRef .tc Cert.ReferenceIdeal.main_arg17) := a4
  have e5 : Cert.KernelIdeal.Gen.V5 m ρ c Cert.KernelIdeal.main_arg18 = U5 m' c (Proc.devRef .tc Cert.ReferenceIdeal.main_arg18) := a5
  have e6 : Cert.KernelIdeal.Gen.V5 m ρ c Cert.KernelIdeal.main_arg19 = U5 m' c (Proc.devRef .tc Cert.ReferenceIdeal.main_arg19) := a6
  rw [e0, e1, e2, e3, e4, e5, e6]
  rfl

/-! ## The result -/

set_option maxHeartbeats 4000000 in
/-- From memories that agree on the twenty arguments, the kernel's result buffer at its last boundary is the reference's
    result after its whole line of operations. -/
theorem result_eq
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (g15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (g16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (g17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (g18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (g19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.KernelIdeal.Gen.W7 m ρ c (Proc.devRef .tc Cert.KernelIdeal.main_v83)
      = after (Cert.ReferenceIdeal.RefRun.ops (F := Ideal)) (launchContents m' c) (Proc.devRef .tc Cert.ReferenceIdeal.main_v211) := by
  rw [U7_eq]
  show Cert.KernelIdeal.Gen.W7 m ρ c (Proc.devRef .tc Cert.KernelIdeal.main_v83) = U7 m' c (Proc.devRef .tc Cert.ReferenceIdeal.main_v211)
  -- table: begin
  have A0_0 : Cert.KernelIdeal.Gen.W0 m ρ c (Proc.devRef .tc Cert.KernelIdeal.main_arg0) = U0 m' c (Proc.devRef .tc Cert.ReferenceIdeal.main_arg0) := g0.symm
  have A0_1 : Cert.KernelIdeal.Gen.W0 m ρ c (Proc.devRef .tc Cert.KernelIdeal.main_arg1) = U0 m' c (Proc.devRef .tc Cert.ReferenceIdeal.main_arg1) := g1.symm
  have A0_2 : Cert.KernelIdeal.Gen.W0 m ρ c (Proc.devRef .tc Cert.KernelIdeal.main_arg2) = U0 m' c (Proc.devRef .tc Cert.ReferenceIdeal.main_arg2) := g2.symm
  have A0_3 : Cert.KernelIdeal.Gen.W0 m ρ c (Proc.devRef .tc Cert.KernelIdeal.main_arg3) = U0 m' c (Proc.devRef .tc Cert.ReferenceIdeal.main_arg3) := g3.symm
  have A0_4 : Cert.KernelIdeal.Gen.W0 m ρ c (Proc.devRef .tc Cert.KernelIdeal.main_arg4) = U0 m' c (Proc.devRef .tc Cert.ReferenceIdeal.main_arg4) := g4.symm
  have A0_5 : Cert.KernelIdeal.Gen.W0 m ρ c (Proc.devRef .tc Cert.KernelIdeal.main_arg5) = U0 m' c (Proc.devRef .tc Cert.ReferenceIdeal.main_arg5) := g5.symm
  have A0_6 : Cert.KernelIdeal.Gen.W0 m ρ c (Proc.devRef .tc Cert.KernelIdeal.main_arg6) = U0 m' c (Proc.devRef .tc Cert.ReferenceIdeal.main_arg6) := g6.symm
  have A0_7 : Cert.KernelIdeal.Gen.W0 m ρ c (Proc.devRef .tc Cert.KernelIdeal.main_arg7) = U0 m' c (Proc.devRef .tc Cert.ReferenceIdeal.main_arg7) := g7.symm
  have A0_8 : Cert.KernelIdeal.Gen.W0 m ρ c (Proc.devRef .tc Cert.KernelIdeal.main_arg8) = U0 m' c (Proc.devRef .tc Cert.ReferenceIdeal.main_arg8) := g8.symm
  have A0_9 : Cert.KernelIdeal.Gen.W0 m ρ c (Proc.devRef .tc Cert.KernelIdeal.main_arg9) = U0 m' c (Proc.devRef .tc Cert.ReferenceIdeal.main_arg9) := g9.symm
  have A0_10 : Cert.KernelIdeal.Gen.W0 m ρ c (Proc.devRef .tc Cert.KernelIdeal.main_arg10) = U0 m' c (Proc.devRef .tc Cert.ReferenceIdeal.main_arg10) := g10.symm
  have A0_11 : Cert.KernelIdeal.Gen.W0 m ρ c (Proc.devRef .tc Cert.KernelIdeal.main_arg11) = U0 m' c (Proc.devRef .tc Cert.ReferenceIdeal.main_arg11) := g11.symm
  have A0_12 : Cert.KernelIdeal.Gen.W0 m ρ c (Proc.devRef .tc Cert.KernelIdeal.main_arg12) = U0 m' c (Proc.devRef .tc Cert.ReferenceIdeal.main_arg12) := g12.symm
  have A0_13 : Cert.KernelIdeal.Gen.W0 m ρ c (Proc.devRef .tc Cert.KernelIdeal.main_arg13) = U0 m' c (Proc.devRef .tc Cert.ReferenceIdeal.main_arg13) := g13.symm
  have A0_14 : Cert.KernelIdeal.Gen.W0 m ρ c (Proc.devRef .tc Cert.KernelIdeal.main_arg14) = U0 m' c (Proc.devRef .tc Cert.ReferenceIdeal.main_arg14) := g14.symm
  have A0_15 : Cert.KernelIdeal.Gen.W0 m ρ c (Proc.devRef .tc Cert.KernelIdeal.main_arg15) = U0 m' c (Proc.devRef .tc Cert.ReferenceIdeal.main_arg15) := g15.symm
  have A0_16 : Cert.KernelIdeal.Gen.W0 m ρ c (Proc.devRef .tc Cert.KernelIdeal.main_arg16) = U0 m' c (Proc.devRef .tc Cert.ReferenceIdeal.main_arg16) := g16.symm
  have A0_17 : Cert.KernelIdeal.Gen.W0 m ρ c (Proc.devRef .tc Cert.KernelIdeal.main_arg17) = U0 m' c (Proc.devRef .tc Cert.ReferenceIdeal.main_arg17) := g17.symm
  have A0_18 : Cert.KernelIdeal.Gen.W0 m ρ c (Proc.devRef .tc Cert.KernelIdeal.main_arg18) = U0 m' c (Proc.devRef .tc Cert.ReferenceIdeal.main_arg18) := g18.symm
  have A0_19 : Cert.KernelIdeal.Gen.W0 m ρ c (Proc.devRef .tc Cert.KernelIdeal.main_arg19) = U0 m' c (Proc.devRef .tc Cert.ReferenceIdeal.main_arg19) := g19.symm
  have F1 : Cert.KernelIdeal.Gen.W1 m ρ c (Proc.devRef .tc Cert.KernelIdeal.main_v2) = U1 m' c (Proc.devRef .tc Cert.ReferenceIdeal.main_v4) := Cert.Stages.A_f0 (Cert.KernelIdeal.Gen.W0 m ρ c) (U0 m' c) A0_1
  have I1 : Cert.KernelIdeal.Gen.W1 m ρ c (Proc.devRef .tc Cert.KernelIdeal.main_v4) = U1 m' c (Proc.devRef .tc Cert.ReferenceIdeal.main_v6) := Cert.Stages.A_in (Cert.KernelIdeal.Gen.W0 m ρ c) (U0 m' c) A0_0
  have C1_c : Cert.KernelIdeal.Gen.W1 m ρ c (Proc.devRef .tc Cert.KernelIdeal.main_c) = U1 m' c (Proc.devRef .tc Cert.ReferenceIdeal.main_c) := Cert.Stages.A_c (Cert.KernelIdeal.Gen.W0 m ρ c) (U0 m' c)
  have C1_c_0 : Cert.KernelIdeal.Gen.W1 m ρ c (Proc.devRef .tc Cert.KernelIdeal.main_c_0) = U1 m' c (Proc.devRef .tc Cert.ReferenceIdeal.main_c_0) := Cert.Stages.A_c_0 (Cert.KernelIdeal.Gen.W0 m ρ c) (U0 m' c)
  have C1_c_1 : Cert.KernelIdeal.Gen.W1 m ρ c (Proc.devRef .tc Cert.KernelIdeal.main_c_1) = U1 m' c (Proc.devRef .tc Cert.ReferenceIdeal.main_c_1) := Cert.Stages.A_c_1 (Cert.KernelIdeal.Gen.W0 m ρ c) (U0 m' c)
  have C1_c_2 : Cert.KernelIdeal.Gen.W1 m ρ c (Proc.devRef .tc Cert.KernelIdeal.main_c_2) = U1 m' c (Proc.devRef .tc Cert.ReferenceIdeal.main_c_2) := Cert.Stages.A_c_2 (Cert.KernelIdeal.Gen.W0 m ρ c) (U0 m' c)
  have C1_c_3 : Cert.KernelIdeal.Gen.W1 m ρ c (Proc.devRef .tc Cert.KernelIdeal.main_c_3) = U1 m' c (Proc.devRef .tc Cert.ReferenceIdeal.main_c_3) := Cert.Stages.A_c_3 (Cert.KernelIdeal.Gen.W0 m ρ c) (U0 m' c)
  have C1_c_4 : Cert.KernelIdeal.Gen.W1 m ρ c (Proc.devRef .tc Cert.KernelIdeal.main_c_4) = U1 m' c (Proc.devRef .tc Cert.ReferenceIdeal.main_c_4) := Cert.Stages.A_c_4 (Cert.KernelIdeal.Gen.W0 m ρ c) (U0 m' c)
  have C1_c_5 : Cert.KernelIdeal.Gen.W1 m ρ c (Proc.devRef .tc Cert.KernelIdeal.main_c_5) = U1 m' c (Proc.devRef .tc Cert.ReferenceIdeal.main_c_5) := Cert.Stages.A_c_5 (Cert.KernelIdeal.Gen.W0 m ρ c) (U0 m' c)
  have C1_c_6 : Cert.KernelIdeal.Gen.W1 m ρ c (Proc.devRef .tc Cert.KernelIdeal.main_c_6) = U1 m' c (Proc.devRef .tc Cert.ReferenceIdeal.main_c_6) := Cert.Stages.A_c_6 (Cert.KernelIdeal.Gen.W0 m ρ c) (U0 m' c)
  have C1_c_7 : Cert.KernelIdeal.Gen.W1 m ρ c (Proc.devRef .tc Cert.KernelIdeal.main_c_7) = U1 m' c (Proc.devRef .tc Cert.ReferenceIdeal.main_c_7) := Cert.Stages.A_c_7 (Cert.KernelIdeal.Gen.W0 m ρ c) (U0 m' c)
  have C1_c_8 : Cert.KernelIdeal.Gen.W1 m ρ c (Proc.devRef .tc Cert.KernelIdeal.main_c_8) = U1 m' c (Proc.devRef .tc Cert.ReferenceIdeal.main_c_8) := Cert.Stages.A_c_8 (Cert.KernelIdeal.Gen.W0 m ρ c) (U0 m' c)
  have C1_c_9 : Cert.KernelIdeal.Gen.W1 m ρ c (Proc.devRef .tc Cert.KernelIdeal.main_c_9) = U1 m' c (Proc.devRef .tc Cert.ReferenceIdeal.main_c_9) := Cert.Stages.A_c_9 (Cert.KernelIdeal.Gen.W0 m ρ c) (U0 m' c)
  have C1_c_10 : Cert.KernelIdeal.Gen.W1 m ρ c (Proc.devRef .tc Cert.KernelIdeal.main_c_10) = U1 m' c (Proc.devRef .tc Cert.ReferenceIdeal.main_c_10) := Cert.Stages.A_c_10 (Cert.KernelIdeal.Gen.W0 m ρ c) (U0 m' c)
  have C1_c_11 : Cert.KernelIdeal.Gen.W1 m ρ c (Proc.devRef .tc Cert.KernelIdeal.main_c_11) = U1 m' c (Proc.devRef .tc Cert.ReferenceIdeal.main_c_11) := Cert.Stages.A_c_11 (Cert.KernelIdeal.Gen.W0 m ρ c) (U0 m' c)
  have C1_c_12 : Cert.KernelIdeal.Gen.W1 m ρ c (Proc.devRef .tc Cert.KernelIdeal.main_c_12) = U1 m' c (Proc.devRef .tc Cert.ReferenceIdeal.main_c_12) := Cert.Stages.A_c_12 (Cert.KernelIdeal.Gen.W0 m ρ c) (U0 m' c)
  have C1_c_13 : Cert.KernelIdeal.Gen.W1 m ρ c (Proc.devRef .tc Cert.KernelIdeal.main_c_13) = U1 m' c (Proc.devRef .tc Cert.ReferenceIdeal.main_c_13) := Cert.Stages.A_c_13 (Cert.KernelIdeal.Gen.W0 m ρ c) (U0 m' c)
  have C1_c_14 : Cert.KernelIdeal.Gen.W1 m ρ c (Proc.devRef .tc Cert.KernelIdeal.main_c_14) = U1 m' c (Proc.devRef .tc Cert.ReferenceIdeal.main_c_14) := Cert.Stages.A_c_14 (Cert.KernelIdeal.Gen.W0 m ρ c) (U0 m' c)
  have C1_c_15 : Cert.KernelIdeal.Gen.W1 m ρ c (Proc.devRef .tc Cert.KernelIdeal.main_c_15) = U1 m' c (Proc.devRef .tc Cert.ReferenceIdeal.main_c_15) := Cert.Stages.A_c_15 (Cert.KernelIdeal.Gen.W0 m ρ c) (U0 m' c)
  have A1_2 : Cert.KernelIdeal.Gen.W1 m ρ c (Proc.devRef .tc Cert.KernelIdeal.main_arg2) = U1 m' c (Proc.devRef .tc Cert.ReferenceIdeal.main_arg2) := pass (k01 m ρ c Cert.KernelIdeal.main_arg2 (by decide)) A0_2 (r01 m' c Cert.ReferenceIdeal.main_arg2 (by decide))
  have A1_3 : Cert.KernelIdeal.Gen.W1 m ρ c (Proc.devRef .tc Cert.KernelIdeal.main_arg3) = U1 m' c (Proc.devRef .tc Cert.ReferenceIdeal.main_arg3) := pass (k01 m ρ c Cert.KernelIdeal.main_arg3 (by decide)) A0_3 (r01 m' c Cert.ReferenceIdeal.main_arg3 (by decide))
  have A1_4 : Cert.KernelIdeal.Gen.W1 m ρ c (Proc.devRef .tc Cert.KernelIdeal.main_arg4) = U1 m' c (Proc.devRef .tc Cert.ReferenceIdeal.main_arg4) := pass (k01 m ρ c Cert.KernelIdeal.main_arg4 (by decide)) A0_4 (r01 m' c Cert.ReferenceIdeal.main_arg4 (by decide))
  have A1_5 : Cert.KernelIdeal.Gen.W1 m ρ c (Proc.devRef .tc Cert.KernelIdeal.main_arg5) = U1 m' c (Proc.devRef .tc Cert.ReferenceIdeal.main_arg5) := pass (k01 m ρ c Cert.KernelIdeal.main_arg5 (by decide)) A0_5 (r01 m' c Cert.ReferenceIdeal.main_arg5 (by decide))
  have A1_6 : Cert.KernelIdeal.Gen.W1 m ρ c (Proc.devRef .tc Cert.KernelIdeal.main_arg6) = U1 m' c (Proc.devRef .tc Cert.ReferenceIdeal.main_arg6) := pass (k01 m ρ c Cert.KernelIdeal.main_arg6 (by decide)) A0_6 (r01 m' c Cert.ReferenceIdeal.main_arg6 (by decide))
  have A1_7 : Cert.KernelIdeal.Gen.W1 m ρ c (Proc.devRef .tc Cert.KernelIdeal.main_arg7) = U1 m' c (Proc.devRef .tc Cert.ReferenceIdeal.main_arg7) := pass (k01 m ρ c Cert.KernelIdeal.main_arg7 (by decide)) A0_7 (r01 m' c Cert.ReferenceIdeal.main_arg7 (by decide))
  have N2 := net1 m ρ m' c I1 A1_2 A1_3 A1_4 A1_5 A1_6 A1_7
  have F2 : Cert.KernelIdeal.Gen.W2 m ρ c (Proc.devRef .tc Cert.KernelIdeal.main_v2) = U2 m' c (Proc.devRef .tc Cert.ReferenceIdeal.main_v4) := pass (k12 m ρ c Cert.KernelIdeal.main_v2 (by decide)) F1 (r12 m' c Cert.ReferenceIdeal.main_v4 (by decide))
  have C2_c : Cert.KernelIdeal.Gen.W2 m ρ c (Proc.devRef .tc Cert.KernelIdeal.main_c) = U2 m' c (Proc.devRef .tc Cert.ReferenceIdeal.main_c) := pass (k12 m ρ c Cert.KernelIdeal.main_c (by decide)) C1_c (r12 m' c Cert.ReferenceIdeal.main_c (by decide))
  have C2_c_0 : Cert.KernelIdeal.Gen.W2 m ρ c (Proc.devRef .tc Cert.KernelIdeal.main_c_0) = U2 m' c (Proc.devRef .tc Cert.ReferenceIdeal.main_c_0) := pass (k12 m ρ c Cert.KernelIdeal.main_c_0 (by decide)) C1_c_0 (r12 m' c Cert.ReferenceIdeal.main_c_0 (by decide))
  have A2_0 : Cert.KernelIdeal.Gen.W2 m ρ c (Proc.devRef .tc Cert.KernelIdeal.main_arg0) = U2 m' c (Proc.devRef .tc Cert.ReferenceIdeal.main_arg0) := pass (k02 m ρ c Cert.KernelIdeal.main_arg0 (by decide) (by decide)) A0_0 (r02 m' c Cert.ReferenceIdeal.main_arg0 (by decide) (by decide))
  have L3 : Cert.KernelIdeal.Gen.W3 m ρ c (Proc.devRef .tc Cert.KernelIdeal.main_v8) = U3 m' c (Proc.devRef .tc Cert.ReferenceIdeal.main_v52) := Cert.Stages.B_low (Cert.KernelIdeal.Gen.W2 m ρ c) (U2 m' c) N2 F2
  have I3 : Cert.KernelIdeal.Gen.W3 m ρ c (Proc.devRef .tc Cert.KernelIdeal.main_v14) = U3 m' c (Proc.devRef .tc Cert.ReferenceIdeal.main_v58) := Cert.Stages.B_in (Cert.KernelIdeal.Gen.W2 m ρ c) (U2 m' c) C2_c C2_c_0 A2_0
  have A3_8 : Cert.KernelIdeal.Gen.W3 m ρ c (Proc.devRef .tc Cert.KernelIdeal.main_arg8) = U3 m' c (Proc.devRef .tc Cert.ReferenceIdeal.main_arg8) := pass (k03 m ρ c Cert.KernelIdeal.main_arg8 (by decide) (by decide) (by decide)) A0_8 (r03 m' c Cert.ReferenceIdeal.main_arg8 (by decide) (by decide) (by decide))
  have A3_9 : Cert.KernelIdeal.Gen.W3 m ρ c (Proc.devRef .tc Cert.KernelIdeal.main_arg9) = U3 m' c (Proc.devRef .tc Cert.ReferenceIdeal.main_arg9) := pass (k03 m ρ c Cert.KernelIdeal.main_arg9 (by decide) (by decide) (by decide)) A0_9 (r03 m' c Cert.ReferenceIdeal.main_arg9 (by decide) (by decide) (by decide))
  have A3_10 : Cert.KernelIdeal.Gen.W3 m ρ c (Proc.devRef .tc Cert.KernelIdeal.main_arg10) = U3 m' c (Proc.devRef .tc Cert.ReferenceIdeal.main_arg10) := pass (k03 m ρ c Cert.KernelIdeal.main_arg10 (by decide) (by decide) (by decide)) A0_10 (r03 m' c Cert.ReferenceIdeal.main_arg10 (by decide) (by decide) (by decide))
  have A3_11 : Cert.KernelIdeal.Gen.W3 m ρ c (Proc.devRef .tc Cert.KernelIdeal.main_arg11) = U3 m' c (Proc.devRef .tc Cert.ReferenceIdeal.main_arg11) := pass (k03 m ρ c Cert.KernelIdeal.main_arg11 (by decide) (by decide) (by decide)) A0_11 (r03 m' c Cert.ReferenceIdeal.main_arg11 (by decide) (by decide) (by decide))
  have A3_12 : Cert.KernelIdeal.Gen.W3 m ρ c (Proc.devRef .tc Cert.KernelIdeal.main_arg12) = U3 m' c (Proc.devRef .tc Cert.ReferenceIdeal.main_arg12) := pass (k03 m ρ c Cert.KernelIdeal.main_arg12 (by decide) (by decide) (by decide)) A0_12 (r03 m' c Cert.ReferenceIdeal.main_arg12 (by decide) (by decide) (by decide))
  have A3_13 : Cert.KernelIdeal.Gen.W3 m ρ c (Proc.devRef .tc Cert.KernelIdeal.main_arg13) = U3 m' c (Proc.devRef .tc Cert.ReferenceIdeal.main_arg13) := pass (k03 m ρ c Cert.KernelIdeal.main_arg13 (by decide) (by decide) (by decide)) A0_13 (r03 m' c Cert.ReferenceIdeal.main_arg13 (by decide) (by decide) (by decide))
  have N4 := net2 m ρ m' c I3 A3_8 A3_9 A3_10 A3_11 A3_12 A3_13
  have F4 : Cert.KernelIdeal.Gen.W4 m ρ c (Proc.devRef .tc Cert.KernelIdeal.main_v2) = U4 m' c (Proc.devRef .tc Cert.ReferenceIdeal.main_v4) := pass (k14 m ρ c Cert.KernelIdeal.main_v2 (by decide) (by decide) (by decide)) F1 (r14 m' c Cert.ReferenceIdeal.main_v4 (by decide) (by decide) (by decide))
  have L4 : Cert.KernelIdeal.Gen.W4 m ρ c (Proc.devRef .tc Cert.KernelIdeal.main_v8) = U4 m' c (Proc.devRef .tc Cert.ReferenceIdeal.main_v52) := pass (k34 m ρ c Cert.KernelIdeal.main_v8 (by decide)) L3 (r34 m' c Cert.ReferenceIdeal.main_v52 (by decide))
  have C4_c_1 : Cert.KernelIdeal.Gen.W4 m ρ c (Proc.devRef .tc Cert.KernelIdeal.main_c_1) = U4 m' c (Proc.devRef .tc Cert.ReferenceIdeal.main_c_1) := pass (k14 m ρ c Cert.KernelIdeal.main_c_1 (by decide) (by decide) (by decide)) C1_c_1 (r14 m' c Cert.ReferenceIdeal.main_c_1 (by decide) (by decide) (by decide))
  have C4_c_2 : Cert.KernelIdeal.Gen.W4 m ρ c (Proc.devRef .tc Cert.KernelIdeal.main_c_2) = U4 m' c (Proc.devRef .tc Cert.ReferenceIdeal.main_c_2) := pass (k14 m ρ c Cert.KernelIdeal.main_c_2 (by decide) (by decide) (by decide)) C1_c_2 (r14 m' c Cert.ReferenceIdeal.main_c_2 (by decide) (by decide) (by decide))
  have C4_c_3 : Cert.KernelIdeal.Gen.W4 m ρ c (Proc.devRef .tc Cert.KernelIdeal.main_c_3) = U4 m' c (Proc.devRef .tc Cert.ReferenceIdeal.main_c_3) := pass (k14 m ρ c Cert.KernelIdeal.main_c_3 (by decide) (by decide) (by decide)) C1_c_3 (r14 m' c Cert.ReferenceIdeal.main_c_3 (by decide) (by decide) (by decide))
  have C4_c_4 : Cert.KernelIdeal.Gen.W4 m ρ c (Proc.devRef .tc Cert.KernelIdeal.main_c_4) = U4 m' c (Proc.devRef .tc Cert.ReferenceIdeal.main_c_4) := pass (k14 m ρ c Cert.KernelIdeal.main_c_4 (by decide) (by decide) (by decide)) C1_c_4 (r14 m' c Cert.ReferenceIdeal.main_c_4 (by decide) (by decide) (by decide))
  have C4_c_5 : Cert.KernelIdeal.Gen.W4 m ρ c (Proc.devRef .tc Cert.KernelIdeal.main_c_5) = U4 m' c (Proc.devRef .tc Cert.ReferenceIdeal.main_c_5) := pass (k14 m ρ c Cert.KernelIdeal.main_c_5 (by decide) (by decide) (by decide)) C1_c_5 (r14 m' c Cert.ReferenceIdeal.main_c_5 (by decide) (by decide) (by decide))
  have C4_c_6 : Cert.KernelIdeal.Gen.W4 m ρ c (Proc.devRef .tc Cert.KernelIdeal.main_c_6) = U4 m' c (Proc.devRef .tc Cert.ReferenceIdeal.main_c_6) := pass (k14 m ρ c Cert.KernelIdeal.main_c_6 (by decide) (by decide) (by decide)) C1_c_6 (r14 m' c Cert.ReferenceIdeal.main_c_6 (by decide) (by decide) (by decide))
  have A4_0 : Cert.KernelIdeal.Gen.W4 m ρ c (Proc.devRef .tc Cert.KernelIdeal.main_arg0) = U4 m' c (Proc.devRef .tc Cert.ReferenceIdeal.main_arg0) := pass (k04 m ρ c Cert.KernelIdeal.main_arg0 (by decide) (by decide) (by decide) (by decide)) A0_0 (r04 m' c Cert.ReferenceIdeal.main_arg0 (by decide) (by decide) (by decide) (by decide))
  have M5 : Cert.KernelIdeal.Gen.W5 m ρ c (Proc.devRef .tc Cert.KernelIdeal.main_v30) = U5 m' c (Proc.devRef .tc Cert.ReferenceIdeal.main_v116) := Cert.Stages.C_low (Cert.KernelIdeal.Gen.W4 m ρ c) (U4 m' c) N4 L4 F4 C4_c_1 C4_c_2 C4_c_3 C4_c_4
  have I5 : Cert.KernelIdeal.Gen.W5 m ρ c (Proc.devRef .tc Cert.KernelIdeal.main_v36) = U5 m' c (Proc.devRef .tc Cert.ReferenceIdeal.main_v122) := Cert.Stages.C_in (Cert.KernelIdeal.Gen.W4 m ρ c) (U4 m' c) C4_c_5 C4_c_6 A4_0
  have A5_14 : Cert.KernelIdeal.Gen.W5 m ρ c (Proc.devRef .tc Cert.KernelIdeal.main_arg14) = U5 m' c (Proc.devRef .tc Cert.ReferenceIdeal.main_arg14) := pass (k05 m ρ c Cert.KernelIdeal.main_arg14 (by decide) (by decide) (by decide) (by decide) (by decide)) A0_14 (r05 m' c Cert.ReferenceIdeal.main_arg14 (by decide) (by decide) (by decide) (by decide) (by decide))
  have A5_15 : Cert.KernelIdeal.Gen.W5 m ρ c (Proc.devRef .tc Cert.KernelIdeal.main_arg15) = U5 m' c (Proc.devRef .tc Cert.ReferenceIdeal.main_arg15) := pass (k05 m ρ c Cert.KernelIdeal.main_arg15 (by decide) (by decide) (by decide) (by decide) (by decide)) A0_15 (r05 m' c Cert.ReferenceIdeal.main_arg15 (by decide) (by decide) (by decide) (by decide) (by decide))
  have A5_16 : Cert.KernelIdeal.Gen.W5 m ρ c (Proc.devRef .tc Cert.KernelIdeal.main_arg16) = U5 m' c (Proc.devRef .tc Cert.ReferenceIdeal.main_arg16) := pass (k05 m ρ c Cert.KernelIdeal.main_arg16 (by decide) (by decide) (by decide) (by decide) (by decide)) A0_16 (r05 m' c Cert.ReferenceIdeal.main_arg16 (by decide) (by decide) (by decide) (by decide) (by decide))
  have A5_17 : Cert.KernelIdeal.Gen.W5 m ρ c (Proc.devRef .tc Cert.KernelIdeal.main_arg17) = U5 m' c (Proc.devRef .tc Cert.ReferenceIdeal.main_arg17) := pass (k05 m ρ c Cert.KernelIdeal.main_arg17 (by decide) (by decide) (by decide) (by decide) (by decide)) A0_17 (r05 m' c Cert.ReferenceIdeal.main_arg17 (by decide) (by decide) (by decide) (by decide) (by decide))
  have A5_18 : Cert.KernelIdeal.Gen.W5 m ρ c (Proc.devRef .tc Cert.KernelIdeal.main_arg18) = U5 m' c (Proc.devRef .tc Cert.ReferenceIdeal.main_arg18) := pass (k05 m ρ c Cert.KernelIdeal.main_arg18 (by decide) (by decide) (by decide) (by decide) (by decide)) A0_18 (r05 m' c Cert.ReferenceIdeal.main_arg18 (by decide) (by decide) (by decide) (by decide) (by decide))
  have A5_19 : Cert.KernelIdeal.Gen.W5 m ρ c (Proc.devRef .tc Cert.KernelIdeal.main_arg19) = U5 m' c (Proc.devRef .tc Cert.ReferenceIdeal.main_arg19) := pass (k05 m ρ c Cert.KernelIdeal.main_arg19 (by decide) (by decide) (by decide) (by decide) (by decide)) A0_19 (r05 m' c Cert.ReferenceIdeal.main_arg19 (by decide) (by decide) (by decide) (by decide) (by decide))
  have N6 := net3 m ρ m' c I5 A5_14 A5_15 A5_16 A5_17 A5_18 A5_19
  have F6 : Cert.KernelIdeal.Gen.W6 m ρ c (Proc.devRef .tc Cert.KernelIdeal.main_v2) = U6 m' c (Proc.devRef .tc Cert.ReferenceIdeal.main_v4) := pass (k16 m ρ c Cert.KernelIdeal.main_v2 (by decide) (by decide) (by decide) (by decide) (by decide)) F1 (r16 m' c Cert.ReferenceIdeal.main_v4 (by decide) (by decide) (by decide) (by decide) (by decide))
  have L6 : Cert.KernelIdeal.Gen.W6 m ρ c (Proc.devRef .tc Cert.KernelIdeal.main_v8) = U6 m' c (Proc.devRef .tc Cert.ReferenceIdeal.main_v52) := pass (k36 m ρ c Cert.KernelIdeal.main_v8 (by decide) (by decide) (by decide)) L3 (r36 m' c Cert.ReferenceIdeal.main_v52 (by decide) (by decide) (by decide))
  have M6 : Cert.KernelIdeal.Gen.W6 m ρ c (Proc.devRef .tc Cert.KernelIdeal.main_v30) = U6 m' c (Proc.devRef .tc Cert.ReferenceIdeal.main_v116) := pass (k56 m ρ c Cert.KernelIdeal.main_v30 (by decide)) M5 (r56 m' c Cert.ReferenceIdeal.main_v116 (by decide))
  have C6_c_7 : Cert.KernelIdeal.Gen.W6 m ρ c (Proc.devRef .tc Cert.KernelIdeal.main_c_7) = U6 m' c (Proc.devRef .tc Cert.ReferenceIdeal.main_c_7) := pass (k16 m ρ c Cert.KernelIdeal.main_c_7 (by decide) (by decide) (by decide) (by decide) (by decide)) C1_c_7 (r16 m' c Cert.ReferenceIdeal.main_c_7 (by decide) (by decide) (by decide) (by decide) (by decide))
  have C6_c_8 : Cert.KernelIdeal.Gen.W6 m ρ c (Proc.devRef .tc Cert.KernelIdeal.main_c_8) = U6 m' c (Proc.devRef .tc Cert.ReferenceIdeal.main_c_8) := pass (k16 m ρ c Cert.KernelIdeal.main_c_8 (by decide) (by decide) (by decide) (by decide) (by decide)) C1_c_8 (r16 m' c Cert.ReferenceIdeal.main_c_8 (by decide) (by decide) (by decide) (by decide) (by decide))
  have C6_c_9 : Cert.KernelIdeal.Gen.W6 m ρ c (Proc.devRef .tc Cert.KernelIdeal.main_c_9) = U6 m' c (Proc.devRef .tc Cert.ReferenceIdeal.main_c_9) := pass (k16 m ρ c Cert.KernelIdeal.main_c_9 (by decide) (by decide) (by decide) (by decide) (by decide)) C1_c_9 (r16 m' c Cert.ReferenceIdeal.main_c_9 (by decide) (by decide) (by decide) (by decide) (by decide))
  have C6_c_10 : Cert.KernelIdeal.Gen.W6 m ρ c (Proc.devRef .tc Cert.KernelIdeal.main_c_10) = U6 m' c (Proc.devRef .tc Cert.ReferenceIdeal.main_c_10) := pass (k16 m ρ c Cert.KernelIdeal.main_c_10 (by decide) (by decide) (by decide) (by decide) (by decide)) C1_c_10 (r16 m' c Cert.ReferenceIdeal.main_c_10 (by decide) (by decide) (by decide) (by decide) (by decide))
  have C6_c_11 : Cert.KernelIdeal.Gen.W6 m ρ c (Proc.devRef .tc Cert.KernelIdeal.main_c_11) = U6 m' c (Proc.devRef .tc Cert.ReferenceIdeal.main_c_11) := pass (k16 m ρ c Cert.KernelIdeal.main_c_11 (by decide) (by decide) (by decide) (by decide) (by decide)) C1_c_11 (r16 m' c Cert.ReferenceIdeal.main_c_11 (by decide) (by decide) (by decide) (by decide) (by decide))
  have C6_c_12 : Cert.KernelIdeal.Gen.W6 m ρ c (Proc.devRef .tc Cert.KernelIdeal.main_c_12) = U6 m' c (Proc.devRef .tc Cert.ReferenceIdeal.main_c_12) := pass (k16 m ρ c Cert.KernelIdeal.main_c_12 (by decide) (by decide) (by decide) (by decide) (by decide)) C1_c_12 (r16 m' c Cert.ReferenceIdeal.main_c_12 (by decide) (by decide) (by decide) (by decide) (by decide))
  have C6_c_13 : Cert.KernelIdeal.Gen.W6 m ρ c (Proc.devRef .tc Cert.KernelIdeal.main_c_13) = U6 m' c (Proc.devRef .tc Cert.ReferenceIdeal.main_c_13) := pass (k16 m ρ c Cert.KernelIdeal.main_c_13 (by decide) (by decide) (by decide) (by decide) (by decide)) C1_c_13 (r16 m' c Cert.ReferenceIdeal.main_c_13 (by decide) (by decide) (by decide) (by decide) (by decide))
  have C6_c_14 : Cert.KernelIdeal.Gen.W6 m ρ c (Proc.devRef .tc Cert.KernelIdeal.main_c_14) = U6 m' c (Proc.devRef .tc Cert.ReferenceIdeal.main_c_14) := pass (k16 m ρ c Cert.KernelIdeal.main_c_14 (by decide) (by decide) (by decide) (by decide) (by decide)) C1_c_14 (r16 m' c Cert.ReferenceIdeal.main_c_14 (by decide) (by decide) (by decide) (by decide) (by decide))
  have C6_c_15 : Cert.KernelIdeal.Gen.W6 m ρ c (Proc.devRef .tc Cert.KernelIdeal.main_c_15) = U6 m' c (Proc.devRef .tc Cert.ReferenceIdeal.main_c_15) := pass (k16 m ρ c Cert.KernelIdeal.main_c_15 (by decide) (by decide) (by decide) (by decide) (by decide)) C1_c_15 (r16 m' c Cert.ReferenceIdeal.main_c_15 (by decide) (by decide) (by decide) (by decide) (by decide))
  exact Cert.Stages.D_out (Cert.KernelIdeal.Gen.W6 m ρ c) (U6 m' c) N6 M6 L6 F6 C6_c_7 C6_c_8 C6_c_9 C6_c_10 C6_c_11 C6_c_12 C6_c_13 C6_c_14 C6_c_15
  -- table: end

end Cert.Bridge

end
-- ==== Proof.lean ====
/-
  THE CERTIFICATE: an additive model of eight inputs — a constant, eight one-variable networks, twenty-eight two-variable
  networks and fifty-six three-variable networks, each a small sigmoid network (d → 128 → 128 → 128 → 1) applied to every
  one of 8192 rows, the higher orders corrected by the lower ones gathered through the static pair and triple tables — as
  three kernel regions (one per order, the batch tiled) against the same model written with plain array operations.

  The two programs run the same host operations around the three networks, so the claim comes down to the networks: a
  region's output array is the network of the arrays it finds (its blocks tile the output, and a row's value reads only
  that row), and the reference's stretch of array operations is that network too — the batched product is a finite sum
  in either spelling, and 1 / (1 + e^(-v)) is the logistic function at every extended real.  No step distributes a
  product over a sum or cancels, so the equality holds for all extended-real inputs and the precondition is not used.

  frame_Kernel, frame_KernelIdeal: the generated frame certificates.  frame_ReferenceIdeal: the reference's straight line
  of operations run as a fold, no operation writing an argument.  preserves: the ideal pass rewrote nothing.  algebraic:
  the kernel's run names its result at the last boundary of its segments, the reference's at the end of its fold, and
  the two are one array.
-/
import proofs.«100548_j68015102099709_1_alg».proof.Defs
import proofs.«100548_j68015102099709_1_alg».proof.Proof.Gen.Kernel.Frame
import proofs.«100548_j68015102099709_1_alg».proof.Proof.Gen.KernelIdeal.Frame
import proofs.«100548_j68015102099709_1_alg».proof.Proof.Gen.Pre_finite_inputs
import proofs.«100548_j68015102099709_1_alg».proof.Proof.KRun
import proofs.«100548_j68015102099709_1_alg».proof.Proof.RefRun
import proofs.«100548_j68015102099709_1_alg».proof.Proof.Bridge

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := Cert.ReferenceIdeal.RefRun.frame_ri

theorem preserves : Cert.preserves_Kernel_KernelIdeal := trivial

/-- Both idealized programs run, and end with the same result array: the kernel's at the last boundary of its segments,
    the reference's at the end of its line of operations. -/
theorem algebraic : Cert.algebraic_KernelIdeal_ReferenceIdeal := by
  intro m ρ m' ρ' _ hagree
  refine ⟨fun c => Cert.KernelIdeal.Gen.W7 m ρ c (Proc.devRef .tc Cert.KernelIdeal.main_v83),
    Cert.KernelIdeal.KRun.run_named m ρ, ?_⟩
  refine (θ_run (Cert.ReferenceIdeal.defs (F := Ideal)) _ _).mono (fun r h c => ?_)
    (Cert.ReferenceIdeal.RefRun.run_after m' ρ')
  obtain ⟨g0, g1, g2, g3, g4, g5, g6, g7, g8, g9, g10, g11, g12, g13, g14, g15, g16, g17, g18, g19⟩ := hagree c
  exact ⟨(h c Cert.ReferenceIdeal.main_v211).trans
      (Cert.Bridge.result_eq m ρ m' c g0 g1 g2 g3 g4 g5 g6 g7 g8 g9 g10 g11 g12 g13 g14 g15 g16 g17 g18 g19).symm,
    (h c Cert.ReferenceIdeal.main_arg0).trans (Cert.ReferenceIdeal.RefRun.arg_kept0 _),
    (h c Cert.ReferenceIdeal.main_arg1).trans (Cert.ReferenceIdeal.RefRun.arg_kept1 _),
    (h c Cert.ReferenceIdeal.main_arg2).trans (Cert.ReferenceIdeal.RefRun.arg_kept2 _),
    (h c Cert.ReferenceIdeal.main_arg3).trans (Cert.ReferenceIdeal.RefRun.arg_kept3 _),
    (h c Cert.ReferenceIdeal.main_arg4).trans (Cert.ReferenceIdeal.RefRun.arg_kept4 _),
    (h c Cert.ReferenceIdeal.main_arg5).trans (Cert.ReferenceIdeal.RefRun.arg_kept5 _),
    (h c Cert.ReferenceIdeal.main_arg6).trans (Cert.ReferenceIdeal.RefRun.arg_kept6 _),
    (h c Cert.ReferenceIdeal.main_arg7).trans (Cert.ReferenceIdeal.RefRun.arg_kept7 _),
    (h c Cert.ReferenceIdeal.main_arg8).trans (Cert.ReferenceIdeal.RefRun.arg_kept8 _),
    (h c Cert.ReferenceIdeal.main_arg9).trans (Cert.ReferenceIdeal.RefRun.arg_kept9 _),
    (h c Cert.ReferenceIdeal.main_arg10).trans (Cert.ReferenceIdeal.RefRun.arg_kept10 _),
    (h c Cert.ReferenceIdeal.main_arg11).trans (Cert.ReferenceIdeal.RefRun.arg_kept11 _),
    (h c Cert.ReferenceIdeal.main_arg12).trans (Cert.ReferenceIdeal.RefRun.arg_kept12 _),
    (h c Cert.ReferenceIdeal.main_arg13).trans (Cert.ReferenceIdeal.RefRun.arg_kept13 _),
    (h c Cert.ReferenceIdeal.main_arg14).trans (Cert.ReferenceIdeal.RefRun.arg_kept14 _),
    (h c Cert.ReferenceIdeal.main_arg15).trans (Cert.ReferenceIdeal.RefRun.arg_kept15 _),
    (h c Cert.ReferenceIdeal.main_arg16).trans (Cert.ReferenceIdeal.RefRun.arg_kept16 _),
    (h c Cert.ReferenceIdeal.main_arg17).trans (Cert.ReferenceIdeal.RefRun.arg_kept17 _),
    (h c Cert.ReferenceIdeal.main_arg18).trans (Cert.ReferenceIdeal.RefRun.arg_kept18 _),
    (h c Cert.ReferenceIdeal.main_arg19).trans (Cert.ReferenceIdeal.RefRun.arg_kept19 _)⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
